-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 1024, 512]⟩ ⟨3, ![4, 32768, 512]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 1024, 512]⟩ ⟨3, ![4, 32768, 512]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4x1024x512 : Shape := ⟨3, ![4, 1024, 512]⟩
abbrev S4x512 : Shape := ⟨2, ![4, 512]⟩
abbrev S_ : Shape := ⟨0, ![]⟩

class Facts : Prop where
  bcast_S_S4x1024x512 : S_.BroadcastsInDim S4x1024x512 (![] : Fin 0 → Fin S4x1024x512.rank)
  reducesTo_S4x1024x512_S_d0_1_2 : S4x1024x512.ReducesTo [0, 1, 2] S_
  h_S_ : 0 < S_.numel
  bcast_S_S4x512 : S_.BroadcastsInDim S4x512 (![] : Fin 0 → Fin S4x512.rank)
  reducesTo_S4x512_S_d0_1 : S4x512.ReducesTo [0, 1] S_

variable [Facts]

def fn {F : FTy → Type} [FloatOps F] (main_arg0 : FVec F S4x1024x512 .f32) (main_arg1 : FVec F S4x512 .f32) : IVec S_ 1 :=
  let main_v0 : FVec F S4x1024x512 .f32 := Host.absf main_arg0
  let main_cst : FVec F S_ .f32 := constant S_ .f32 0x7F800000#32
  let main_v1 : FVec F S4x1024x512 .f32 := broadcastInDim S4x1024x512 ![] bcast_S_S4x1024x512 main_cst
  let main_v2 : IVec S4x1024x512 1 := cmpf .olt main_v0 main_v1
  let main_c : IVec S_ 1 := constantI S_ 1 1#1
  let main_v3 : IVec S_ 1 := (fun x v => Host.reduce IntOp.andi x v reducesTo_S4x1024x512_S_d0_1_2 h_S_) main_v2 main_c
  let main_v4 : FVec F S4x512 .f32 := Host.absf main_arg1
  let main_cst_0 : FVec F S_ .f32 := constant S_ .f32 0x7F800000#32
  let main_v5 : FVec F S4x512 .f32 := broadcastInDim S4x512 ![] bcast_S_S4x512 main_cst_0
  let main_v6 : IVec S4x512 1 := cmpf .olt main_v4 main_v5
  let main_c_1 : IVec S_ 1 := constantI S_ 1 1#1
  let main_v7 : IVec S_ 1 := (fun x v => Host.reduce IntOp.andi x v reducesTo_S4x512_S_d0_1 h_S_) main_v6 main_c_1
  let main_v8 : IVec S_ 1 := andi main_v3 main_v7
  main_v8
-- ==== Pre_finite_inputs_ReferenceIdeal.lean ====
abbrev S4x32768x512 : Shape := ⟨3, ![4, 32768, 512]⟩
abbrev S4x512 : Shape := ⟨2, ![4, 512]⟩
abbrev S_ : Shape := ⟨0, ![]⟩

class Facts : Prop where
  bcast_S_S4x32768x512 : S_.BroadcastsInDim S4x32768x512 (![] : Fin 0 → Fin S4x32768x512.rank)
  reducesTo_S4x32768x512_S_d0_1_2 : S4x32768x512.ReducesTo [0, 1, 2] S_
  h_S_ : 0 < S_.numel
  bcast_S_S4x512 : S_.BroadcastsInDim S4x512 (![] : Fin 0 → Fin S4x512.rank)
  reducesTo_S4x512_S_d0_1 : S4x512.ReducesTo [0, 1] S_

variable [Facts]

def fn {F : FTy → Type} [FloatOps F] (main_arg0 : FVec F S4x32768x512 .f32) (main_arg1 : FVec F S4x512 .f32) : IVec S_ 1 :=
  let main_v0 : FVec F S4x32768x512 .f32 := Host.absf main_arg0
  let main_cst : FVec F S_ .f32 := constant S_ .f32 0x7F800000#32
  let main_v1 : FVec F S4x32768x512 .f32 := broadcastInDim S4x32768x512 ![] bcast_S_S4x32768x512 main_cst
  let main_v2 : IVec S4x32768x512 1 := cmpf .olt main_v0 main_v1
  let main_c : IVec S_ 1 := constantI S_ 1 1#1
  let main_v3 : IVec S_ 1 := (fun x v => Host.reduce IntOp.andi x v reducesTo_S4x32768x512_S_d0_1_2 h_S_) main_v2 main_c
  let main_v4 : FVec F S4x512 .f32 := Host.absf main_arg1
  let main_cst_0 : FVec F S_ .f32 := constant S_ .f32 0x7F800000#32
  let main_v5 : FVec F S4x512 .f32 := broadcastInDim S4x512 ![] bcast_S_S4x512 main_cst_0
  let main_v6 : IVec S4x512 1 := cmpf .olt main_v4 main_v5
  let main_c_1 : IVec S_ 1 := constantI S_ 1 1#1
  let main_v7 : IVec S_ 1 := (fun x v => Host.reduce IntOp.andi x v reducesTo_S4x512_S_d0_1 h_S_) main_v6 main_c_1
  let main_v8 : IVec S_ 1 := andi main_v3 main_v7
  main_v8
-- ==== Kernel.lean ====
abbrev S4x1024x512 : Shape := ⟨3, ![4, 1024, 512]⟩
abbrev S4x512 : Shape := ⟨2, ![4, 512]⟩
abbrev S4x3x512 : Shape := ⟨3, ![4, 3, 512]⟩
abbrev S_ : Shape := ⟨0, ![]⟩
abbrev S4x1027x512 : Shape := ⟨3, ![4, 1027, 512]⟩
abbrev S1x512 : Shape := ⟨2, ![1, 512]⟩
abbrev S512 : Shape := ⟨1, ![512]⟩
abbrev S1x1x512 : Shape := ⟨3, ![1, 1, 512]⟩
abbrev S4x6x512 : Shape := ⟨3, ![4, 6, 512]⟩
abbrev S4x4x512 : Shape := ⟨3, ![4, 4, 512]⟩

abbrev nBuf : Space → Nat
  | .hbm => 3
  | .vmem => 4
  | .smem => 0
  | _ => 0

abbrev bufTy : (tb : Table) → Fin (tcTables nBuf tb) → BufTy
  | .hbm, ⟨0, _⟩ => ⟨S4x1024x512, .f32⟩
  | .hbm, ⟨1, _⟩ => ⟨S4x512, .f32⟩
  | .hbm, ⟨2, _⟩ => ⟨S4x1024x512, .bf16⟩
  | .local _ .vmem, ⟨0, _⟩ => ⟨S4x1024x512, .f32⟩
  | .local _ .vmem, ⟨1, _⟩ => ⟨S4x512, .f32⟩
  | .local _ .vmem, ⟨2, _⟩ => ⟨S4x1024x512, .bf16⟩
  | .local _ .vmem, ⟨3, _⟩ => ⟨S4x3x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  { ofTc nBuf bufTy 1 5 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .sgt v2 c0_i32
  let v6 : BitVec 32 := Scalar.extui v3
  let c0_i32_0 : BitVec 32 := 0#32
  let v7 : BitVec 1 := Scalar.cmpi .ne v6 c0_i32_0
  v7

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v63 : BitVec 32 := Scalar.subi v2 c1_i32_18
  let c1_i32_20 : BitVec 32 := 1#32
  let v64 : BitVec 32 := Scalar.muli v63 c1_i32_20
  let v65 : BitVec 32 := Scalar.addi c0_i32_21 v64
  v65.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v4 : BitVec 1 := Scalar.cmpi .slt v2 c31_i32
  let v33 : BitVec 32 := Scalar.extui v4
  let c0_i32_12 : BitVec 32 := 0#32
  let v34 : BitVec 1 := Scalar.cmpi .ne v33 c0_i32_12
  v34

def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v8 : BitVec 32 := Scalar.addi v2 c1_i32_1
  let c32_i32_2 : BitVec 32 := 32#32
  let c0_i32_3 : BitVec 32 := 0#32
  let v9 : BitVec 1 := Scalar.cmpi .eq c32_i32_2 c0_i32_3
  let c1_i32_4 : BitVec 32 := 1#32
  let v10 : BitVec 32 := Scalar.select v9 c1_i32_4 c32_i32_2
  let v11 : BitVec 32 := Scalar.remsi v8 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let c1_i32_19 : BitVec 32 := 1#32
  let v63 : BitVec 32 := Scalar.muli v18 c1_i32_19
  let v64 : BitVec 32 := Scalar.addi c0_i32_20 v63
  v64.toNat
abbrev stage0_0 : Fin 1 → Memref sig .tc .vmem S4x1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S4x1024x512_S4x1024x512_0_0_0 : ∀ a, (![0, 0, 0] : Fin 3 → Nat) a + S4x1024x512.size a ≤ S4x1024x512.size a
  h_S4x1024x512 : 0 < S4x1024x512.numel
  shapeCasts_S4x1024x512_S4x1024x512 : S4x1024x512.ShapeCasts S4x1024x512
  bitsLt_bf16_f32 : FTy.bits .bf16 < FTy.bits .f32
  inb_S4x512_S4x512_0_0 : ∀ a, (![0, 0] : Fin 2 → Nat) a + S4x512.size a ≤ S4x512.size a
  h_S4x512 : 0 < S4x512.numel
  shapeCasts_S4x512_S4x512 : S4x512.ShapeCasts S4x512
  concatenates_S4x3x512_S4x1024x512_S4x1027x512_d1 : Shape.Concatenates [S4x3x512, S4x1024x512] S4x1027x512 1
  slices_S4x1027x512_o0_0_0_S4x1024x512 : S4x1027x512.Slices ![0, 0, 0] S4x1024x512
  slices_S4x512_o0_0_S1x512 : S4x512.Slices ![0, 0] S1x512
  shapeCasts_S1x512_S512 : S1x512.ShapeCasts S512
  shapeCasts_S512_S1x1x512 : S512.ShapeCasts S1x1x512
  broadcasts_S1x1x512_S4x1024x512 : S1x1x512.Broadcasts S4x1024x512
  inb_S4x1024x512_S4x3x512_0_1021_0 : ∀ a, (![0, 1021, 0] : Fin 3 → Nat) a + S4x3x512.size a ≤ S4x1024x512.size a
  slices_S4x1027x512_o0_1_0_S4x1024x512 : S4x1027x512.Slices ![0, 1, 0] S4x1024x512
  slices_S4x512_o1_0_S1x512 : S4x512.Slices ![1, 0] S1x512
  slices_S4x1027x512_o0_2_0_S4x1024x512 : S4x1027x512.Slices ![0, 2, 0] S4x1024x512
  slices_S4x512_o2_0_S1x512 : S4x512.Slices ![2, 0] S1x512
  slices_S4x1027x512_o0_3_0_S4x1024x512 : S4x1027x512.Slices ![0, 3, 0] S4x1024x512
  slices_S4x512_o3_0_S1x512 : S4x512.Slices ![3, 0] S1x512
  packedbf16_S4x1024x512_S4x1024x512_0_0_0 : (Rect.unit (s := S4x1024x512) ![0, 0, 0] S4x1024x512.size inb_S4x1024x512_S4x1024x512_0_0_0).PackedRows (EltTy.packing .bf16)
  inb_S4x3x512_S4x3x512_0_0_0 : ∀ a, (![0, 0, 0] : Fin 3 → Nat) a + S4x3x512.size a ≤ S4x3x512.size a
  h_S4x3x512 : 0 < S4x3x512.numel
  slices_S4x1024x512_o0_0_0_S4x3x512 : S4x1024x512.Slices ![0, 0, 0] S4x3x512
  concatenates_S4x3x512_S4x3x512_S4x6x512_d1 : Shape.Concatenates [S4x3x512, S4x3x512] S4x6x512 1
  slices_S4x6x512_o0_0_0_S4x3x512 : S4x6x512.Slices ![0, 0, 0] S4x3x512
  broadcasts_S1x1x512_S4x3x512 : S1x1x512.Broadcasts S4x3x512
  slices_S4x6x512_o0_1_0_S4x3x512 : S4x6x512.Slices ![0, 1, 0] S4x3x512
  slices_S4x6x512_o0_2_0_S4x3x512 : S4x6x512.Slices ![0, 2, 0] S4x3x512
  slices_S4x6x512_o0_3_0_S4x3x512 : S4x6x512.Slices ![0, 3, 0] S4x3x512
  inb_S4x1024x512_S4x3x512_0_0_0 : ∀ a, (![0, 0, 0] : Fin 3 → Nat) a + S4x3x512.size a ≤ S4x1024x512.size a
  inb_S4x1024x512_S4x4x512_0_0_0 : ∀ a, (![0, 0, 0] : Fin 3 → Nat) a + S4x4x512.size a ≤ S4x1024x512.size a
  h_S4x4x512 : 0 < S4x4x512.numel
  slices_S4x4x512_S4x3x512_0_0_0 : S4x4x512.Slices ![0, 0, 0] S4x3x512
  packedbf16_S4x1024x512_S4x4x512_0_0_0 : (Rect.unit (s := S4x1024x512) ![0, 0, 0] S4x4x512.size inb_S4x1024x512_S4x4x512_0_0_0).PackedRows (EltTy.packing .bf16)
  hcc0_scratch1 : 3 + S_.numel ≤ 5
  hcc0_scratch2 : 4 + S_.numel ≤ 5
  k0_dev1_lt : ∀ d0 : Dev nD, ∀ (k0_h1 : k0_cond1 d0 = 1#1), (k0_dev1 d0) < nD
  k0_dev2_lt : ∀ d0 : Dev nD, ∀ (k0_h2 : k0_cond2 d0 = 1#1), (k0_dev2 d0) < nD
  hstage0_0 : ∀ j, (stage0_0 j).IsWhole
  hstage0_1 : ∀ j, (stage0_1 j).IsWhole
  hstage0_2 : ∀ j, (stage0_2 j).IsWhole

variable [Facts₀]

abbrev cc0_scratch1 : DmaSems sig S_ := SemArray.consecutive 3 S_ hcc0_scratch1
abbrev cc0_scratch2 : DmaSems sig S_ := SemArray.consecutive 4 S_ hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x32768x512 : Shape := ⟨3, ![4, 32768, 512]⟩
abbrev S4x512 : Shape := ⟨2, ![4, 512]⟩
abbrev S_ : Shape := ⟨0, ![]⟩
abbrev S4x3x512 : Shape := ⟨3, ![4, 3, 512]⟩
abbrev S4x32771x512 : Shape := ⟨3, ![4, 32771, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 42
  | .vmem => 0
  | .smem => 0
  | _ => 0

abbrev bufTy : (tb : Table) → Fin (tcTables nBuf tb) → BufTy
  | .hbm, ⟨0, _⟩ => ⟨S4x32768x512, .f32⟩
  | .hbm, ⟨1, _⟩ => ⟨S4x512, .f32⟩
  | .hbm, ⟨2, _⟩ => ⟨S_, .f32⟩
  | .hbm, ⟨3, _⟩ => ⟨S4x3x512, .f32⟩
  | .hbm, ⟨4, _⟩ => ⟨S4x32771x512, .f32⟩
  | .hbm, ⟨5, _⟩ => ⟨S_, .f32⟩
  | .hbm, ⟨6, _⟩ => ⟨S4x32768x512, .f32⟩
  | .hbm, ⟨7, _⟩ => ⟨S4x32768x512, .f32⟩
  | .hbm, ⟨8, _⟩ => ⟨S1x512, .f32⟩
  | .hbm, ⟨9, _⟩ => ⟨S512, .f32⟩
  | .hbm, ⟨10, _⟩ => ⟨S1x1x512, .f32⟩
  | .hbm, ⟨11, _⟩ => ⟨S4x32768x512, .f32⟩
  | .hbm, ⟨12, _⟩ => ⟨S4x32768x512, .f32⟩
  | .hbm, ⟨13, _⟩ => ⟨S4x32768x512, .f32⟩
  | .hbm, ⟨14, _⟩ => ⟨S4x32768x512, .f32⟩
  | .hbm, ⟨15, _⟩ => ⟨S1x512, .f32⟩
  | .hbm, ⟨16, _⟩ => ⟨S512, .f32⟩
  | .hbm, ⟨17, _⟩ => ⟨S1x1x512, .f32⟩
  | .hbm, ⟨18, _⟩ => ⟨S4x32768x512, .f32⟩
  | .hbm, ⟨19, _⟩ => ⟨S4x32768x512, .f32⟩
  | .hbm, ⟨20, _⟩ => ⟨S4x32768x512, .f32⟩
  | .hbm, ⟨21, _⟩ => ⟨S4x32768x512, .f32⟩
  | .hbm, ⟨22, _⟩ => ⟨S1x512, .f32⟩
  | .hbm, ⟨23, _⟩ => ⟨S512, .f32⟩
  | .hbm, ⟨24, _⟩ => ⟨S1x1x512, .f32⟩
  | .hbm, ⟨25, _⟩ => ⟨S4x32768x512, .f32⟩
  | .hbm, ⟨26, _⟩ => ⟨S4x32768x512, .f32⟩
  | .hbm, ⟨27, _⟩ => ⟨S4x32768x512, .f32⟩
  | .hbm, ⟨28, _⟩ => ⟨S4x32768x512, .f32⟩
  | .hbm, ⟨29, _⟩ => ⟨S1x512, .f32⟩
  | .hbm, ⟨30, _⟩ => ⟨S512, .f32⟩
  | .hbm, ⟨31, _⟩ => ⟨S1x1x512, .f32⟩
  | .hbm, ⟨32, _⟩ => ⟨S4x32768x512, .f32⟩
  | .hbm, ⟨33, _⟩ => ⟨S4x32768x512, .f32⟩
  | .hbm, ⟨34, _⟩ => ⟨S4x32768x512, .f32⟩
  | .hbm, ⟨35, _⟩ => ⟨S4x32768x512, .f32⟩
  | .hbm, ⟨36, _⟩ => ⟨S4x32768x512, .f32⟩
  | .hbm, ⟨37, _⟩ => ⟨S_, .f32⟩
  | .hbm, ⟨38, _⟩ => ⟨S4x32768x512, .f32⟩
  | .hbm, ⟨39, _⟩ => ⟨S4x32768x512, .f32⟩
  | .hbm, ⟨40, _⟩ => ⟨S4x32768x512, .f32⟩
  | .hbm, ⟨41, _⟩ => ⟨S4x32768x512, .bf16⟩
  | _, _ => ⟨S4x32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_1 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩

abbrev nD : Nat := 1
abbrev τ : Topo := Topo.v7x

variable {F : FTy → Type} [FloatOps F]

class Facts₀ : Prop where
  bcast_S_S4x3x512 : S_.BroadcastsInDim S4x3x512 (![] : Fin 0 → Fin S4x3x512.rank)
  concatenates_S4x3x512_S4x32768x512_S4x32771x512_d1 : Shape.Concatenates [S4x3x512, S4x32768x512] S4x32771x512 1
  bcast_S_S4x32768x512 : S_.BroadcastsInDim S4x32768x512 (![] : Fin 0 → Fin S4x32768x512.rank)
  slices_S4x32771x512_S4x32768x512_0_0_0 : S4x32771x512.Slices ![0, 0, 0] S4x32768x512
  slices_S4x512_S1x512_0_0 : S4x512.Slices ![0, 0] S1x512
  shapeCasts_S1x512_S512 : S1x512.ShapeCasts S512
  bcast_S512_S1x1x512_2 : S512.BroadcastsInDim S1x1x512 (![2] : Fin 1 → Fin S1x1x512.rank)
  bcast_S1x1x512_S4x32768x512_0_1_2 : S1x1x512.BroadcastsInDim S4x32768x512 (![0, 1, 2] : Fin 3 → Fin S4x32768x512.rank)
  slices_S4x32771x512_S4x32768x512_0_1_0 : S4x32771x512.Slices ![0, 1, 0] S4x32768x512
  slices_S4x512_S1x512_1_0 : S4x512.Slices ![1, 0] S1x512
  slices_S4x32771x512_S4x32768x512_0_2_0 : S4x32771x512.Slices ![0, 2, 0] S4x32768x512
  slices_S4x512_S1x512_2_0 : S4x512.Slices ![2, 0] S1x512
  slices_S4x32771x512_S4x32768x512_0_3_0 : S4x32771x512.Slices ![0, 3, 0] S4x32768x512
  slices_S4x512_S1x512_3_0 : S4x512.Slices ![3, 0] S1x512
  bitsLt_bf16_f32 : FTy.bits .bf16 < FTy.bits .f32

variable [Facts₀]

class Facts : Prop extends Facts₀ where

variable [Facts]
-- ==== Proof.Out.lean ====
/-
  What one device's body stores, as pure functions of what it loaded.

  The body stores twice into its result block. First the whole block: the four-tap causal convolution of the
  device's own rows, padded on the left by three zero rows, followed by `o · logistic o` (`base`). Then, on
  every device but the first, rows 0–2 again (`fixRows`): the same convolution and activation, the three
  padding rows now the last three rows of the device before it (the halo that arrives by the remote copy).
-/
import proofs.«900353_g7700000000000354_dist_gconv1d_seqshard_i_b4_s1024_c512_v7x_i32_bf16_1_alg».proof.Proof.Gen.KernelIdeal.Skeleton

noncomputable section

namespace Cert.KernelIdeal.Out

open Idealize.ShloMosaic Cert.KernelIdeal Cert.KernelIdeal.Gen

variable {F : FTy → Type} [FloatOps F]

/-- The whole block as first stored: convolution over the zero-padded local rows, then `o · logistic o`. -/
def base (X : Vec F S4x1024x512 .f32) (K : Vec F S4x512 .f32) : FVec F S4x1024x512 .bf16 :=
  k0_pay1 (k0_pay4 K) (k0_pay5 X) (k0_pay6 X K) (k0_pay7 X) (k0_pay8 K)

/-- Rows 0–2 as stored the second time: the padding rows are the halo `H`. -/
def fixRows (X : Vec F S4x1024x512 .f32) (K : Vec F S4x512 .f32) (H : Vec F S4x3x512 .f32) : FVec F S4x3x512 .bf16 :=
  k0_pay2 (k0_pay3 X) (k0_pay4 K) H

end Cert.KernelIdeal.Out

end
-- ==== Proof.Sched.lean ====
/-
  The halo exchange of the sequence-sharded convolution, as a protocol on three semaphore cells per device.

  The 32 devices form a chain (no wrap-around). Device `c` with a left neighbour first signals that neighbour's
  barrier cell: "I am inside the kernel, my landing buffer is yours to write". Device `c` with a right neighbour
  waits for that one unit on its own barrier cell, then copies its last three rows into the right neighbour's landing
  buffer (the copy credits its own send cell and the neighbour's receive cell), and later waits for its send cell;
  a device with a left neighbour waits for its receive cell and then owns the three rows that landed.
  So: the barrier cell of a device that has a right neighbour has one duty (paid by that neighbour, handing over the
  neighbour's landing buffer and the fact that the neighbour's receive cell is at round 0); its send cell one duty
  (its own copy, the three source rows lent for the flight); the receive cell of a device with a left neighbour one
  duty (the copy of that neighbour, handing over the landing buffer holding the neighbour's last three rows).
  A wait is allowed below everything the waiter still owes: barrier cells sit at level 1, receive cells at level 2.
-/
import proofs.«900353_g7700000000000354_dist_gconv1d_seqshard_i_b4_s1024_c512_v7x_i32_bf16_1_alg».proof.Proof.Gen.KernelIdeal
import proofs.«900353_g7700000000000354_dist_gconv1d_seqshard_i_b4_s1024_c512_v7x_i32_bf16_1_alg».proof.Proof.Gen.KernelIdeal.Skeleton
import proofs.«900353_g7700000000000354_dist_gconv1d_seqshard_i_b4_s1024_c512_v7x_i32_bf16_1_alg».proof.Proof.Gen.KernelIdeal.Launch
import proofs.«900353_g7700000000000354_dist_gconv1d_seqshard_i_b4_s1024_c512_v7x_i32_bf16_1_alg».proof.Proof.Out
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside the protocol's (one duty name) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The chain -/

def nxt (c : Dev nD) : Dev nD := ⟨(c.val + 1) % 32, Nat.mod_lt _ (by decide)⟩
def prv (c : Dev nD) : Dev nD := ⟨(c.val + 31) % 32, Nat.mod_lt _ (by decide)⟩

abbrev hasL (c : Dev nD) : Prop := 0 < c.val
abbrev hasR (c : Dev nD) : Prop := c.val < 31

theorem prv_nxt (c : Dev nD) : prv (nxt c) = c := by revert c; decide
theorem nxt_prv (c : Dev nD) : nxt (prv c) = c := by revert c; decide
theorem hasL_nxt (c : Dev nD) (h : hasR c) : hasL (nxt c) := by revert c; decide
theorem hasR_prv (c : Dev nD) (h : hasL c) : hasR (prv c) := by revert c; decide
theorem hasL_or_hasR (c : Dev nD) : hasL c ∨ hasR c := by revert c; decide

/-- The printed conditions are the chain's: "has a left neighbour", "has a right neighbour". -/
theorem cond1_iff (c : Dev nD) : k0_cond1 c = 1#1 ↔ hasL c := by revert c; decide +kernel
theorem cond2_iff (c : Dev nD) : k0_cond2 c = 1#1 ↔ hasR c := by revert c; decide +kernel
/-- The printed device chains name the left neighbour (the signal) and the right neighbour (the copy). -/
theorem dev1_val : ∀ c : Dev nD, k0_cond1 c = 1#1 → k0_dev1 c = (prv c).val := by decide +kernel
theorem dev2_val : ∀ c : Dev nD, k0_cond2 c = 1#1 → k0_dev2 c = (nxt c).val := by decide +kernel
theorem dev1_eq (c : Dev nD) (h : k0_cond1 c = 1#1) (hlt : k0_dev1 c < nD) : (⟨k0_dev1 c, hlt⟩ : Dev nD) = prv c := Fin.ext (dev1_val c h)
theorem dev2_eq (c : Dev nD) (h : k0_cond2 c = 1#1) (hlt : k0_dev2 c < nD) : (⟨k0_dev2 c, hlt⟩ : Dev nD) = nxt c := Fin.ext (dev2_val c h)

/-! ## The memrefs and cells -/

abbrev xM : Memref sig .tc .vmem S4x1024x512 .f32 := Memref.whole cc0_stg0_0
abbrev kM : Memref sig .tc .vmem S4x512 .f32 := Memref.whole cc0_stg1_0
abbrev oM : Memref sig .tc .vmem S4x1024x512 .bf16 := Memref.whole cc0_stg2_0
abbrev rM : Memref sig .tc .vmem S4x3x512 .f32 := Memref.whole cc0_scratch0
/-- The last three rows of the staged block: the source of the copy. -/
abbrev hM : Memref sig .tc .vmem S4x3x512 .f32 :=
  (xM : Memref sig .tc .vmem S4x1024x512 .f32).slice (Rect.unit (s := S4x1024x512) ![0, 1021, 0] S4x3x512.size inb_S4x1024x512_S4x3x512_0_1021_0) (fun _ => rfl)

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch indexes them: send, receive; -/
abbrev osem : Fin 2 → SemLoc sig := fun | 0 => .dma sendS.sem | 1 => .dma recvS.sem
/-- all three of the protocol's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (rM : Memref sig .tc .vmem S4x3x512 .f32).view.dmaCredit
theorem N_pos : 0 < N := View.dmaCredit_pos _ (by decide)

/-! ## Contents -/

/-- Device `c`'s staged block of `x`, and its staged copy of `k`. -/
def xstg (c : Dev nD) : (cc0_stg0_0 : Ref sig .tc).ty.Contents (Elt F) :=
  (win0_0.blk (0 : Fin 1)).view.read (Elt F) ((s₀ m ρ).mem ((c : Thread nD τ).loc main_arg0))
def kstg (c : Dev nD) : (cc0_stg1_0 : Ref sig .tc).ty.Contents (Elt F) :=
  (win0_1.blk (0 : Fin 1)).view.read (Elt F) ((s₀ m ρ).mem ((c : Thread nD τ).loc main_arg1))

/-- The last three rows of device `c`'s block: what its copy carries. -/
def lastRows (c : Dev nD) : (cc0_scratch0 : Ref sig .tc).ty.Contents (Elt F) :=
  (hM : Memref sig .tc .vmem S4x3x512 .f32).view.read (Elt F) (xstg m ρ c)

/-- What lands in device `c`'s landing buffer: the last three rows of the device before it. -/
def landed (c : Dev nD) : Buf (Elt F) ((rM : Memref sig .tc .vmem S4x3x512 .f32).view.loc (c : Thread nD τ)) := lastRows m ρ (prv c)

omit [FloatOps F] in
theorem landed_eq (c : Dev nD) (fd : Buf (Elt F) ((rM : Memref sig .tc .vmem S4x3x512 .f32).view.loc (c : Thread nD τ))) (w : (cc0_scratch0 : Ref sig .tc).ty.Contents (Elt F)) :
    (rM : Memref sig .tc .vmem S4x3x512 .f32).view.write (Elt F) fd w Finset.univ = w := by
  show (View.whole cc0_scratch0).write (Elt F) fd w Finset.univ = w
  exact View.write_whole_univ _ _ _

def scrPts (c : Dev nD) (f : Buf (Elt F) ((rM : Memref sig .tc .vmem S4x3x512 .f32).view.loc (c : Thread nD τ))) : sProp 𝕄 :=
  (rM : Memref sig .tc .vmem S4x3x512 .f32).view.loc (c : Thread nD τ) ↦[(rM : Memref sig .tc .vmem S4x3x512 .f32).view.set]{fullShare} f
/-- The three source rows of device `c`, at the staged contents. -/
def srcPts (c : Dev nD) : sProp 𝕄 :=
  (hM : Memref sig .tc .vmem S4x3x512 .f32).view.loc (c : Thread nD τ) ↦[(hM : Memref sig .tc .vmem S4x3x512 .f32).view.set]{fullShare} xstg m ρ c

omit [FloatOps F] in
instance scrPts_storable (c : Dev nD) (f) : BI.Storable (upEmb : UEmb _ 𝕄) (scrPts (F := F) c f) := by unfold scrPts; infer_instance
omit [FloatOps F] in
instance srcPts_storable (c : Dev nD) : BI.Storable (upEmb : UEmb _ 𝕄) (srcPts (F := F) m ρ c) := by unfold srcPts; infer_instance

omit [FloatOps F] in
theorem scr_set : (rM : Memref sig .tc .vmem S4x3x512 .f32).view.set = Finset.univ := View.set_whole _
omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]

/-! ## The schedule -/

/-- What the right neighbour's signal hands device `c`: that neighbour's landing buffer, and that its receive cell is at round 0. -/
def barPay (c : Dev nD) : sProp 𝕄 := iprop((∃ f, scrPts (nxt c) f) ∗ reached ER (recvCell (nxt c)) 0)
def recvPay (c : Dev nD) : sProp 𝕄 := scrPts c (landed m ρ c)
def sendPay (c : Dev nD) : sProp 𝕄 := srcPts m ρ c

/-- One round, round 0. A barrier or send cell has its duty when the device has a right neighbour, a receive cell when it has a left one. -/
def chainRd : Rounds.Schedule (GSem nD τ sig) Unit 𝕄 where
  duties g r := if r = 0 ∧ g.1.2 = .tc ∧ ((g.2 = .reg barS ∧ hasR g.1.1) ∨ (g.2 = .dma sendS.sem ∧ hasR g.1.1) ∨ (g.2 = .dma recvS.sem ∧ hasL g.1.1)) then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance chainRd_payload_storable (g : GSem nD τ sig) (r : ℕ) (d : Unit) :
    BI.Storable (upEmb : UEmb _ 𝕄) ((chainRd (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem bar_ne_send : (SemLoc.reg barS : SemLoc sig) ≠ .dma sendS.sem := fun h => by cases h
theorem bar_ne_recv : (SemLoc.reg barS : SemLoc sig) ≠ .dma recvS.sem := fun h => by cases h
theorem send_ne_recv : (SemLoc.dma sendS.sem : SemLoc sig) ≠ .dma recvS.sem := by decide
theorem recv_ne_send : (SemLoc.dma recvS.sem : SemLoc sig) ≠ .dma sendS.sem := by decide

omit [FloatOps F] in
theorem duties_bar (h : hasR c) : (chainRd (F := F) m ρ).duties (barCell c) 0 = {()} := by
  dsimp only [chainRd]; exact if_pos ⟨rfl, rfl, .inl ⟨rfl, h⟩⟩
omit [FloatOps F] in
theorem duties_send (h : hasR c) : (chainRd (F := F) m ρ).duties (sendCell c) 0 = {()} := by
  dsimp only [chainRd]; exact if_pos ⟨rfl, rfl, .inr (.inl ⟨rfl, h⟩)⟩
omit [FloatOps F] in
theorem duties_recv (h : hasL c) : (chainRd (F := F) m ρ).duties (recvCell c) 0 = {()} := by
  dsimp only [chainRd]; exact if_pos ⟨rfl, rfl, .inr (.inr ⟨rfl, h⟩)⟩
omit [FloatOps F] in
theorem duties_later (g : GSem nD τ sig) : ∀ r, 1 ≤ r → (chainRd (F := F) m ρ).duties g r = ∅ :=
  fun r hr => by dsimp only [chainRd]; rw [if_neg fun h => by omega]
omit [FloatOps F] in
/-- A send cell of the last device, a receive cell of the first: no duty at all. -/
theorem duties_send_none (h : ¬ hasR c) : ∀ r, 0 ≤ r → (chainRd (F := F) m ρ).duties (sendCell c) r = ∅ :=
  fun r _ => by
    dsimp only [chainRd]
    exact if_neg fun hh => by
      rcases hh.2.2 with h1 | h1 | h1
      · exact send_ne_bar h1.1
      · exact h h1.2
      · exact send_ne_recv h1.1
omit [FloatOps F] in
theorem duties_recv_none (h : ¬ hasL c) : ∀ r, 0 ≤ r → (chainRd (F := F) m ρ).duties (recvCell c) r = ∅ :=
  fun r _ => by
    dsimp only [chainRd]
    exact if_neg fun hh => by
      rcases hh.2.2 with h1 | h1 | h1
      · exact recv_ne_bar h1.1
      · exact recv_ne_send h1.1
      · exact h h1.2

omit [FloatOps F] in
theorem amount_bar (d : Unit) : (chainRd (F := F) m ρ).amount (barCell c) 0 d = 1 := by dsimp only [chainRd]; exact if_pos rfl
omit [FloatOps F] in
theorem amount_send (d : Unit) : (chainRd (F := F) m ρ).amount (sendCell c) 0 d = N := by dsimp only [chainRd]; exact if_neg send_ne_bar
omit [FloatOps F] in
theorem amount_recv (d : Unit) : (chainRd (F := F) m ρ).amount (recvCell c) 0 d = N := by dsimp only [chainRd]; exact if_neg recv_ne_bar

omit [FloatOps F] in
theorem expect_bar (h : hasR c) : (chainRd (F := F) m ρ).expect (barCell c) 0 = 1 := by
  unfold Schedule.expect Schedule.amountOf; rw [duties_bar m ρ c h, Finset.sum_singleton, amount_bar]
omit [FloatOps F] in
theorem expect_send (h : hasR c) : (chainRd (F := F) m ρ).expect (sendCell c) 0 = N := by
  unfold Schedule.expect Schedule.amountOf; rw [duties_send m ρ c h, Finset.sum_singleton, amount_send]
omit [FloatOps F] in
theorem expect_recv (h : hasL c) : (chainRd (F := F) m ρ).expect (recvCell c) 0 = N := by
  unfold Schedule.expect Schedule.amountOf; rw [duties_recv m ρ c h, Finset.sum_singleton, amount_recv]

omit [FloatOps F] in
theorem payload_bar (d : Unit) : (chainRd (F := F) m ρ).payload (barCell c) 0 d = barPay c := by dsimp only [chainRd]; rw [if_pos rfl]
omit [FloatOps F] in
theorem payload_send (d : Unit) : (chainRd (F := F) m ρ).payload (sendCell c) 0 d = sendPay m ρ c := by
  dsimp only [chainRd]; rw [if_neg send_ne_bar, if_neg send_ne_recv, if_pos rfl]
omit [FloatOps F] in
theorem payload_recv (d : Unit) : (chainRd (F := F) m ρ).payload (recvCell c) 0 d = recvPay m ρ c := by
  dsimp only [chainRd]; rw [if_neg recv_ne_bar, if_pos rfl]

omit [FloatOps F] in
theorem rest_bar (h : hasR c) : bigSep ((chainRd (F := F) m ρ).duties (barCell c) 0 \ ∅) (fun d => (chainRd (F := F) m ρ).payload (barCell c) 0 d) = barPay c := by
  rw [Finset.sdiff_empty, duties_bar m ρ c h, bigSep_singleton, payload_bar]
omit [FloatOps F] in
theorem rest_send (h : hasR c) : bigSep ((chainRd (F := F) m ρ).duties (sendCell c) 0 \ ∅) (fun d => (chainRd (F := F) m ρ).payload (sendCell c) 0 d) = sendPay m ρ c := by
  rw [Finset.sdiff_empty, duties_send m ρ c h, bigSep_singleton, payload_send]
omit [FloatOps F] in
theorem rest_recv (h : hasL c) : bigSep ((chainRd (F := F) m ρ).duties (recvCell c) 0 \ ∅) (fun d => (chainRd (F := F) m ρ).payload (recvCell c) 0 d) = recvPay m ρ c := by
  rw [Finset.sdiff_empty, duties_recv m ρ c h, bigSep_singleton, payload_recv]

end Sched

/-! ## What each device owes at launch; the levels -/

/-- Device `c` owes its right neighbour's receive cell the copy's credit (if it has one) and its left neighbour's barrier
    cell one unit (if it has one); the signal comes first in the body and peels the last summand. -/
def O₁ (c : Dev nD) : CellTallies nD τ sig Unit := tallyAt (recvCell (nxt c)) () (if hasR c then N else 0)
def O₀ (c : Dev nD) : CellTallies nD τ sig Unit := O₁ c + tallyAt (barCell (prv c)) () (if hasL c then 1 else 0)

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₁_pos {c : Dev nD} {g : GSem nD τ sig} {u : Unit} (h : 0 < O₁ c g u) : g = recvCell (nxt c) := by
  unfold O₁ at h
  exact (Pipeline.tallyAt_pos h).1

theorem O₀_pos {c : Dev nD} {g : GSem nD τ sig} {u : Unit} (h : 0 < O₀ c g u) :
    g = recvCell (nxt c) ∨ g = barCell (prv c) := by
  unfold O₀ at h
  rcases Pipeline.add_pos_cases h with h1 | h1
  · exact .inl (O₁_pos h1)
  · exact .inr (Pipeline.tallyAt_pos h1).1

omit [FloatOps F] in
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its right neighbour's receive credit only: a receive cell, above its barrier cell. -/
theorem mayWait_bar (c : Dev nD) (n : ℕ) :
    (levAts L lv : sProp 𝕄) ⊢ MayWait (c : Thread nD τ) (.reg barS) () (tallyAt (recvCell (nxt c)) () n) :=
  MayOwe.of_cut (L := L) (lev := lv) 1 (fun p hp => by rw [Finset.mem_singleton.mp hp, L_tc]; exact Finset.mem_singleton_self _)
    (fun g u hg => by rw [(Pipeline.tallyAt_pos hg).1, L_tc]; exact Finset.mem_singleton_self _)
    (fun p hp => by rw [Finset.mem_singleton.mp hp]; dsimp only [lv]; rw [if_pos rfl])
    (fun g u hg => by rw [(Pipeline.tallyAt_pos hg).1]; dsimp only [lv]; rw [if_neg recv_ne_bar, if_pos rfl]; decide)

end Cert.KernelIdeal.Halo

end
-- ==== Proof.OutAt.lean ====
/-
  The result block a device's body leaves, as a pure function of the blocks it staged and of the rows that landed.
-/
import proofs.«900353_g7700000000000354_dist_gconv1d_seqshard_i_b4_s1024_c512_v7x_i32_bf16_1_alg».proof.Proof.Sched

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body leaves in the result block -/

abbrev r0 : Rect S4x1024x512 := Rect.unit (s := S4x1024x512) ![0, 0, 0] S4x1024x512.size inb_S4x1024x512_S4x1024x512_0_0_0
abbrev r4 : Rect S4x1024x512 := Rect.unit (s := S4x1024x512) ![0, 0, 0] S4x4x512.size inb_S4x1024x512_S4x4x512_0_0_0

/-- Rows 0–3 read, rows 0–2 replaced, the four rows written back. -/
def patched (B : (cc0_stg2_0 : Ref sig .tc).ty.Contents (Elt F)) (fx : FVec F S4x3x512 .bf16) : (cc0_stg2_0 : Ref sig .tc).ty.Contents (Elt F) :=
  ((oM : Memref sig .tc .vmem S4x1024x512 .bf16).access r4 : View sig .tc _ _ _).write (Elt F) B
    (updateSlice ((oM : Memref sig .tc .vmem S4x1024x512 .bf16).view.readAt (Elt F) r4.toLoadRect B) fx ![0, 0, 0] slices_S4x4x512_S4x3x512_0_0_0) Finset.univ

/-- The result block of device `c`: the local convolution, and on every device but the first rows 0–2 recomputed with the halo. -/
def outAt (c : Dev nD) : (cc0_stg2_0 : Ref sig .tc).ty.Contents (Elt F) :=
  if hasL c then patched (Out.base (xstg m ρ c) (kstg m ρ c)) (Out.fixRows (xstg m ρ c) (kstg m ρ c) (landed m ρ c))
  else Out.base (xstg m ρ c) (kstg m ρ c)

end Cert.KernelIdeal.Halo

end
-- ==== Proof.BodyDefs.lean ====
/-
  The ghost state a device's body runs from, the body's reads and writes through its rectangles, and the copy's rule at
  the chain's cells.
-/
import proofs.«900353_g7700000000000354_dist_gconv1d_seqshard_i_b4_s1024_c512_v7x_i32_bf16_1_alg».proof.Proof.OutAt

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

omit [FloatOps F] in
theorem hz3 : (![0, 0, 0] : Fin 3 → Nat) = fun _ => 0 := funext fun a => by fin_cases a <;> rfl
omit [FloatOps F] in
theorem hz2 : (![0, 0] : Fin 2 → Nat) = fun _ => 0 := funext fun a => by fin_cases a <;> rfl

/-- The two later guards of the body, computed from the same device word, are again "has a right / a left neighbour". -/
theorem cond3_iff (c : Dev nD) : (Scalar.cmpi CmpIPredicate.ne (Scalar.extui (Scalar.cmpi CmpIPredicate.slt (Scalar.remsi (Scalar.divsi c.word 1#32) 32#32) 31#32)) 0#32 = 1#1) ↔ hasR c := by revert c; decide +kernel
theorem cond4_iff (c : Dev nD) : (Scalar.cmpi CmpIPredicate.ne (Scalar.extui (Scalar.cmpi CmpIPredicate.sgt (Scalar.remsi (Scalar.divsi c.word 1#32) 32#32) 0#32)) 0#32 = 1#1) ↔ hasL c := by revert c; decide +kernel

variable (K : Dev nD × Fin 3 → ℕ)

/-- The cells' invariants device `c`'s body opens: its own three, its left neighbour's barrier cell (its signal), its right
    neighbour's receive cell (its copy). -/
def invs (c : Dev nD) : sProp 𝕄 :=
  iprop(cellInv ER (chainRd m ρ) (K (c, 0)) (barCell c) ∗ cellInv ER (chainRd m ρ) (K (c, 1)) (sendCell c) ∗ cellInv ER (chainRd m ρ) (K (c, 2)) (recvCell c)
    ∗ cellInv ER (chainRd m ρ) (K (prv c, 0)) (barCell (prv c)) ∗ cellInv ER (chainRd m ρ) (K (nxt c, 2)) (recvCell (nxt c)))

instance invs_persistent (c : Dev nD) : BI.Persistent (invs m ρ K c) := by unfold invs; infer_instance

/-- The protocol's ghost state device `c` starts from: the invariants, its positions at round 0 of its three cells, the
    reached-marks of the cells it pays and of its own send and receive cells, the three duty tokens it may pay with. -/
def ghost (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (prv c)) 0 ∗ reached ER (recvCell (nxt c)) 0 ∗ reached ER (sendCell c) 0 ∗ reached ER (recvCell c) 0
    ∗ dutyTok ER (barCell (prv c)) 0 () ∗ dutyTok ER (recvCell (nxt c)) 0 () ∗ dutyTok ER (sendCell c) 0 ())

/-! ## Reads and writes through the body's rectangles -/

omit [FloatOps F] in
theorem read_x (f : (cc0_stg0_0 : Ref sig .tc).ty.Contents (Elt F)) : (xM : Memref sig .tc .vmem S4x1024x512 .f32).view.readAt (Elt F) r0.toLoadRect f = f :=
  Memref.readAt_unit_zero (Elt F) cc0_stg0_0 hz3 _ f
omit [FloatOps F] in
theorem read_k (f : (cc0_stg1_0 : Ref sig .tc).ty.Contents (Elt F)) :
    (kM : Memref sig .tc .vmem S4x512 .f32).view.readAt (Elt F) (Rect.unit (s := S4x512) ![0, 0] S4x512.size inb_S4x512_S4x512_0_0).toLoadRect f = f :=
  Memref.readAt_unit_zero (Elt F) cc0_stg1_0 hz2 _ f
omit [FloatOps F] in
theorem read_scr (f : (cc0_scratch0 : Ref sig .tc).ty.Contents (Elt F)) :
    (rM : Memref sig .tc .vmem S4x3x512 .f32).view.readAt (Elt F) (Rect.unit (s := S4x3x512) ![0, 0, 0] S4x3x512.size inb_S4x3x512_S4x3x512_0_0_0).toLoadRect f = f :=
  Memref.readAt_unit_zero (Elt F) cc0_scratch0 hz3 _ f
omit [FloatOps F] in
theorem write_out (f w : (cc0_stg2_0 : Ref sig .tc).ty.Contents (Elt F)) :
    ((oM : Memref sig .tc .vmem S4x1024x512 .bf16).access r0 : View sig .tc _ _ _).write (Elt F) f w Finset.univ = w :=
  Memref.write_access_unit_zero_univ (Elt F) cc0_stg2_0 hz3 _ f w

omit [FloatOps F] in
/-- The copy's source rows are a part of the staged block. -/
theorem src_subset (c : Dev nD) : (hM : Memref sig .tc .vmem S4x3x512 .f32).view.set ⊆ (Finset.univ : Finset (Idx ((xM : Memref sig .tc .vmem S4x1024x512 .f32).view.loc (c : Thread nD τ)))) :=
  Finset.subset_univ _

/-- `Rounds.wp_send_pointsTo` at the chain's cells, the copy addressed to `n = nxt c` (substituted, not rewritten). -/
theorem wp_send_chain (c n : Dev nD) (hR : hasR c) (hn : n = nxt c) {hsc : (rM : Memref sig (Dev.tc n : Thread nD τ).2.kind .vmem S4x3x512 .f32).view.ref.isScScratch = false}
    {hsrc : (hM : Memref sig .tc .vmem S4x3x512 .f32).view.WordExact} {hdst : (rM : Memref sig .tc .vmem S4x3x512 .f32).view.WordExact}
    {hsem : DmaTarget.Typed .vmem (.dma recvS.sem) (.remote (Dev.tc n : Thread nD τ) (rM : Memref sig .tc .vmem S4x3x512 .f32) (.dma sendS.sem) hsc)}
    {α : Type} {Q : α → sProp 𝕄} {k : PUnit → Prog (TpuEff nD τ sig (Elt F) Λ₀ .tc) α}
    (fn : Buf (Elt F) ((rM : Memref sig .tc .vmem S4x3x512 .f32).view.loc (nxt c : Thread nD τ))) (W : Waits sig Unit) :
    iprop(cellInv ER (chainRd m ρ) (K (c, 1)) (sendCell c) ∗ cellInv ER (chainRd m ρ) (K (nxt c, 2)) (recvCell (nxt c))
        ∗ srcPts m ρ c ∗ scrPts (nxt c) fn
        ∗ owes (c : Thread nD τ) (tallyAt (recvCell (nxt c)) () N) W
        ∗ dutyTok ER (sendCell c) 0 () ∗ reached ER (sendCell c) 0
        ∗ dutyTok ER (recvCell (nxt c)) 0 () ∗ reached ER (recvCell (nxt c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma hM (.remote (Dev.tc n : Thread nD τ) rM (.dma sendS.sem) hsc) (.dma recvS.sem) hsrc hdst hsem) k) Q) := by
  subst hn
  unfold srcPts scrPts
  exact Rounds.wp_send_pointsTo 𝒱₀ ER (chainRd m ρ) (c : Thread nD τ) none (κ₁ := K (c, 1)) (κ₂ := K (nxt c, 2))
    (src := hM) (dst := rM) (c' := (nxt c : Thread nD τ)) (q := fullShare) (fs := xstg m ρ c)
    (r₁ := 0) (r₂ := 0) (d₁ := ()) (d₂ := ()) (fd := fn)
    (by rw [duties_send m ρ c hR]; exact Finset.mem_singleton_self _) (by rw [duties_recv m ρ (nxt c) (hasL_nxt c hR)]; exact Finset.mem_singleton_self _)
    () () N rfl (amount_send m ρ c ()) (amount_recv m ρ (nxt c) ()) 0 (by rw [zero_add]) (W := W)
    (by rw [payload_send]; exact BI.Entails.refl _)
    (by rw [payload_recv]; unfold recvPay scrPts; rw [landed_eq, landed, prv_nxt]; exact BI.Entails.refl _)

/-- What the body starts from on device `c`, the staging buffers at their contents; -/
def bodyIn (c : Dev nD) (W : Waits sig Unit) (f0 : Buf (Elt F) ((rM : Memref sig .tc .vmem S4x3x512 .f32).view.loc (c : Thread nD τ)))
    (d2 : (cc0_stg2_0 : Ref sig .tc).ty.Contents (Elt F)) : sProp 𝕄 :=
  iprop(ghost m ρ K c ∗ cred (tallyAt (barCell c) () (if hasR c then 1 else 0)) ∗ cred (tallyAt (recvCell c) () (if hasL c then N else 0)) ∗ levAts L lv ∗ scrPts c f0
    ∗ owes (c : Thread nD τ) (O₀ c) W
    ∗ (((c : Thread nD τ).loc cc0_stg0_0) ↦{fullShare} xstg m ρ c)
    ∗ (((c : Thread nD τ).loc cc0_stg1_0) ↦{fullShare} kstg m ρ c)
    ∗ (((c : Thread nD τ).loc cc0_stg2_0) ↦{fullShare} d2))

/-- and what it ends with: the landing buffer back, the two own cells closed at zero, nothing owed, the inputs as they were
    and the result block at `outAt`. -/
def bodyOut (c : Dev nD) : sProp 𝕄 :=
  iprop((∃ f, scrPts c f) ∗ semVal (sendCell c) 0 ∗ semVal (recvCell c) 0 ∗ (∃ W', owes (c : Thread nD τ) 0 W')
    ∗ (((c : Thread nD τ).loc cc0_stg0_0) ↦{fullShare} xstg m ρ c)
    ∗ (((c : Thread nD τ).loc cc0_stg1_0) ↦{fullShare} kstg m ρ c)
    ∗ (((c : Thread nD τ).loc cc0_stg2_0) ↦{fullShare} outAt m ρ c))

end Cert.KernelIdeal.Halo

end
-- ==== Proof.Body.lean ====
/-
  The body of one device, stepped rule by rule from the protocol's ghost state, in the three shapes the chain has:
  a device with both neighbours, the first device, the last device.
-/
import proofs.«900353_g7700000000000354_dist_gconv1d_seqshard_i_b4_s1024_c512_v7x_i32_bf16_1_alg».proof.Proof.BodyDefs

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 3 → ℕ)

set_option maxHeartbeats 1600000 in
/-- A device with both neighbours: signal left, load, wait for the right neighbour's signal, copy right, compute and store,
    wait for the copy's departure, wait for the left neighbour's rows, recompute rows 0–2. -/
theorem body_mid (c : Dev nD) (hL : hasL c) (hR : hasR c) (Kt : PUnit → sProp 𝕄) (W : Waits sig Unit)
    (f0 : Buf (Elt F) ((rM : Memref sig .tc .vmem S4x3x512 .f32).view.loc (c : Thread nD τ))) (d2 : (cc0_stg2_0 : Ref sig .tc).ty.Contents (Elt F)) :
    iprop(bodyIn m ρ K c W f0 d2 ∗ (bodyOut m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, storeSubelements, Prog.lift, Prog.bind_op, Prog.bind_ret, Prog.pure_eq_ret, wp_deviceId]
  have h1 : k0_cond1 c = 1#1 := (cond1_iff c).mpr hL
  have h2 : k0_cond2 c = 1#1 := (cond2_iff c).mpr hR
  have h3 := (cond3_iff c).mpr hR
  have h4 := (cond4_iff c).mpr hL
  simp only [h1, h2, h3, h4, ↓reduceDIte, Prog.bind_op, Prog.bind_ret, Prog.pure_eq_ret]
  simp only [dev1_eq c h1]
  unfold bodyIn ghost invs O₀ O₁
  simp only [if_pos hL, if_pos hR]
  iintro ⟨⟨⟨⟨#HIbar, #HIsnd, #HIrcv, #HIbarP, #HIrcvN⟩, HatB, HatS, HatV, #HrBP, #HrVN, #HrS, #HrV, HtBP, HtVN, HtS⟩, HcB, HcV, #Hlev, Hscr, HO, Hx, Hk, Hout⟩, HK⟩
  -- the signal to the left neighbour's barrier cell: its duty, with this device's landing buffer and that its receive cell is at round 0
  iapply (Rounds.wp_signal 𝒱₀ ER (chainRd m ρ) (c : Thread nD τ) none (dst := (prv c : Thread nD τ)) (sem := barS) (r := 0) (k' := (1#32).toNat) (κ := K (prv c, 0))
      (d := ()) (by rw [duties_bar m ρ (prv c) (hasR_prv c hL)]; exact Finset.mem_singleton_self _) (amount_bar m ρ (prv c) ()) ()
      (O₀ := tallyAt (recvCell (nxt c)) () N + tallyAt (barCell (prv c)) () 1) (tallyAt (recvCell (nxt c)) () N) rfl (W := W) (Es := Set.univ))
    $$ [HO HtBP Hscr]
  · isplitr; · iexact HIbarP
    isplitl [HO]; · iexact HO
    isplitl [HtBP]; · iexact HtBP
    isplitl [Hscr]
    · rw [payload_bar]; unfold barPay; rw [nxt_prv]
      isplitl [Hscr]; · iexists f0; iexact Hscr
      iexact HrV
    · iexact HrBP
  iintro HO
  -- the two loads
  iapply (wp_load 𝒱₀ (c : Thread nD τ) none Set.univ (m := xM) (Finset.subset_univ _)) $$ Hx; iintro Hx
  rw [read_x]
  iapply (wp_load 𝒱₀ (c : Thread nD τ) none Set.univ (m := kM) (Finset.subset_univ _)) $$ Hk; iintro Hk
  rw [read_k]
  -- the wait for one unit on its own barrier cell, owing the right neighbour's receive credit: that neighbour's landing buffer comes with it
  iapply (Rounds.wp_wait_rest_token 𝒱₀ ER (chainRd m ρ) (c : Thread nD τ) none (sm := .reg barS) (k' := (1#32).toNat) (κ := K (c, 0))
      (wpE_semWait_eq 𝒱₀ (c : Thread nD τ) none Set.univ) (Set.mem_univ _) () (O := tallyAt (recvCell (nxt c)) () N) (W := W) (R := 0) (m := 0) (T := ∅)
      (by rw [expect_bar m ρ c hR]; decide)) $$ [HcB HO HatB]
  · isplitr; · iexact HIbar
    isplitl [HcB]; · iexact HcB
    isplitl [HO]; · iexact HO
    isplitr; · iapply (mayWait_bar c N); iexact Hlev
    iexact HatB
  iintro ⟨HO, HatB, -, Hpay⟩
  ihave Hp := (Entails.of_eq (rest_bar m ρ c hR)) $$ Hpay
  unfold barPay
  icases Hp with ⟨⟨%fn, HscrN⟩, #HrVN'⟩
  -- the copy of the last three rows to the right neighbour: the rows are carved out of the staged block for the flight
  ihave Hx2 := (pointsTo_split_subset (src_subset c)).1 $$ Hx
  icases Hx2 with ⟨Hsrc, Hxrest⟩
  iapply (wp_send_chain m ρ K c _ hR (dev2_eq c h2 _) fn (insert (SemLoc.reg barS, ()) W)) $$ [Hsrc HscrN HO HtS HtVN]
  · isplitr; · iexact HIsnd
    isplitr; · iexact HIrcvN
    isplitl [Hsrc]; · unfold srcPts; iexact Hsrc
    isplitl [HscrN]; · iexact HscrN
    isplitl [HO]; · iexact HO
    isplitl [HtS]; · iexact HtS
    isplitr; · iexact HrS
    isplitl [HtVN]; · iexact HtVN
    iexact HrVN
  iintro ⟨HcS, HO⟩
  -- the whole block loaded (unused) and stored: the local convolution
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out]
  -- the wait on its send cell: the three source rows back
  iapply (Rounds.wp_wait_rest_token 𝒱₀ ER (chainRd m ρ) (c : Thread nD τ) none (sm := .dma sendS.sem) (k' := (hM : Memref sig .tc .vmem S4x3x512 .f32).view.dmaCredit) (κ := K (c, 1))
      (wpE_waitDma2_eq 𝒱₀ (c : Thread nD τ) none Set.univ (sem := sendS.sem) (src := rM) (dst := hM)) (Set.mem_univ _) () (O := 0) (W := insert (SemLoc.reg barS, ()) W) (R := 0) (m := 0) (T := ∅)
      (by rw [Nat.zero_add, expect_send m ρ c hR])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hsrc := (Entails.of_eq (rest_send m ρ c hR)) $$ Hpay
  unfold sendPay srcPts
  ihave Hx := (pointsTo_split_subset (ℓ := (xM : Memref sig .tc .vmem S4x1024x512 .f32).view.loc (c : Thread nD τ)) (q := fullShare) (f := xstg m ρ c) (src_subset c)).2 $$ [Hsrc Hxrest]
  · isplitl [Hsrc]; · iexact Hsrc
    iexact Hxrest
  -- the wait on its receive cell: its landing buffer holding the left neighbour's last three rows
  iapply (Rounds.wp_wait_rest_token 𝒱₀ ER (chainRd m ρ) (c : Thread nD τ) none (sm := .dma recvS.sem) (k' := N) (κ := K (c, 2))
      (wpE_waitDma2_eq 𝒱₀ (c : Thread nD τ) none Set.univ (sem := recvS.sem) (src := hM) (dst := rM)) (Set.mem_univ _) () (O := 0)
      (W := insert (SemLoc.dma sendS.sem, ()) (insert (SemLoc.reg barS, ()) W)) (R := 0) (m := 0) (T := ∅)
      (by rw [Nat.zero_add, expect_recv m ρ c hL])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hscr := (Entails.of_eq (rest_recv m ρ c hL)) $$ Hpay
  unfold recvPay scrPts
  -- the two own cells close: their counters at zero are the device's again
  imod (Rounds.cell_close ER (chainRd m ρ) (Set.mem_univ (K (c, 1))) (fun h => h) (R := 0 + 1) (duties_later m ρ (sendCell c))) $$ [HatS] with HzS
  · isplitr; · iexact HIsnd
    iexact HatS
  imod (Rounds.cell_close ER (chainRd m ρ) (Set.mem_univ (K (c, 2))) (fun h => h) (R := 0 + 1) (duties_later m ρ (recvCell c))) $$ [HatV] with HzV
  · isplitr; · iexact HIrcv
    iexact HatV
  -- the landed rows loaded, rows 0–3 of the block read and written back with rows 0–2 recomputed
  iapply (wp_load 𝒱₀ (c : Thread nD τ) none Set.univ (m := rM) (by rw [scr_set]; exact Finset.subset_univ _)) $$ Hscr; iintro Hscr
  rw [read_scr]
  iapply (wp_load 𝒱₀ (c : Thread nD τ) none Set.univ (m := oM) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := r4) (Mk := Finset.univ) (Finset.subset_univ _)) $$ Hout; iintro Hout
  rw [wp_ret]; imodintro
  iapply HK
  unfold bodyOut
  isplitl [Hscr]; · iexists _; unfold scrPts; iexact Hscr
  isplitl [HzS]; · iexact HzS
  isplitl [HzV]; · iexact HzV
  isplitl [HO]; · iexists _; iexact HO
  isplitl [Hx]; · iexact Hx
  isplitl [Hk]; · iexact Hk
  rw [show outAt m ρ c = patched (Out.base (xstg m ρ c) (kstg m ρ c)) (Out.fixRows (xstg m ρ c) (kstg m ρ c) (landed m ρ c)) from if_pos hL]
  iexact Hout

set_option maxHeartbeats 1600000 in
/-- The first device (no left neighbour): wait for the right neighbour's signal, copy right, compute and store, wait for the copy's departure. -/
theorem body_first (c : Dev nD) (hL : ¬ hasL c) (hR : hasR c) (Kt : PUnit → sProp 𝕄) (W : Waits sig Unit)
    (f0 : Buf (Elt F) ((rM : Memref sig .tc .vmem S4x3x512 .f32).view.loc (c : Thread nD τ))) (d2 : (cc0_stg2_0 : Ref sig .tc).ty.Contents (Elt F)) :
    iprop(bodyIn m ρ K c W f0 d2 ∗ (bodyOut m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, storeSubelements, Prog.lift, Prog.bind_op, Prog.bind_ret, Prog.pure_eq_ret, wp_deviceId]
  have h1 : ¬ k0_cond1 c = 1#1 := fun h => hL ((cond1_iff c).mp h)
  have h2 : k0_cond2 c = 1#1 := (cond2_iff c).mpr hR
  have h3 := (cond3_iff c).mpr hR
  have h4 : ¬ (Scalar.cmpi CmpIPredicate.ne (Scalar.extui (Scalar.cmpi CmpIPredicate.sgt (Scalar.remsi (Scalar.divsi c.word 1#32) 32#32) 0#32)) 0#32 = 1#1) := fun h => hL ((cond4_iff c).mp h)
  simp only [h1, h2, h3, h4, ↓reduceDIte, Prog.bind_op, Prog.bind_ret, Prog.pure_eq_ret]
  unfold bodyIn ghost invs O₀ O₁
  simp only [if_neg hL, if_pos hR, tallyAt_zero, add_zero]
  iintro ⟨⟨⟨⟨#HIbar, #HIsnd, #HIrcv, #HIbarP, #HIrcvN⟩, HatB, HatS, HatV, #HrBP, #HrVN, #HrS, #HrV, HtBP, HtVN, HtS⟩, HcB, -, #Hlev, Hscr, HO, Hx, Hk, Hout⟩, HK⟩
  iapply (wp_load 𝒱₀ (c : Thread nD τ) none Set.univ (m := xM) (Finset.subset_univ _)) $$ Hx; iintro Hx
  rw [read_x]
  iapply (wp_load 𝒱₀ (c : Thread nD τ) none Set.univ (m := kM) (Finset.subset_univ _)) $$ Hk; iintro Hk
  rw [read_k]
  iapply (Rounds.wp_wait_rest_token 𝒱₀ ER (chainRd m ρ) (c : Thread nD τ) none (sm := .reg barS) (k' := (1#32).toNat) (κ := K (c, 0))
      (wpE_semWait_eq 𝒱₀ (c : Thread nD τ) none Set.univ) (Set.mem_univ _) () (O := tallyAt (recvCell (nxt c)) () N) (W := W) (R := 0) (m := 0) (T := ∅)
      (by rw [expect_bar m ρ c hR]; decide)) $$ [HcB HO HatB]
  · isplitr; · iexact HIbar
    isplitl [HcB]; · iexact HcB
    isplitl [HO]; · iexact HO
    isplitr; · iapply (mayWait_bar c N); iexact Hlev
    iexact HatB
  iintro ⟨HO, HatB, -, Hpay⟩
  ihave Hp := (Entails.of_eq (rest_bar m ρ c hR)) $$ Hpay
  unfold barPay
  icases Hp with ⟨⟨%fn, HscrN⟩, #HrVN'⟩
  ihave Hx2 := (pointsTo_split_subset (src_subset c)).1 $$ Hx
  icases Hx2 with ⟨Hsrc, Hxrest⟩
  iapply (wp_send_chain m ρ K c _ hR (dev2_eq c h2 _) fn (insert (SemLoc.reg barS, ()) W)) $$ [Hsrc HscrN HO HtS HtVN]
  · isplitr; · iexact HIsnd
    isplitr; · iexact HIrcvN
    isplitl [Hsrc]; · unfold srcPts; iexact Hsrc
    isplitl [HscrN]; · iexact HscrN
    isplitl [HO]; · iexact HO
    isplitl [HtS]; · iexact HtS
    isplitr; · iexact HrS
    isplitl [HtVN]; · iexact HtVN
    iexact HrVN
  iintro ⟨HcS, HO⟩
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out]
  iapply (Rounds.wp_wait_rest_token 𝒱₀ ER (chainRd m ρ) (c : Thread nD τ) none (sm := .dma sendS.sem) (k' := (hM : Memref sig .tc .vmem S4x3x512 .f32).view.dmaCredit) (κ := K (c, 1))
      (wpE_waitDma2_eq 𝒱₀ (c : Thread nD τ) none Set.univ (sem := sendS.sem) (src := rM) (dst := hM)) (Set.mem_univ _) () (O := 0) (W := insert (SemLoc.reg barS, ()) W) (R := 0) (m := 0) (T := ∅)
      (by rw [Nat.zero_add, expect_send m ρ c hR])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hsrc := (Entails.of_eq (rest_send m ρ c hR)) $$ Hpay
  unfold sendPay srcPts
  ihave Hx := (pointsTo_split_subset (ℓ := (xM : Memref sig .tc .vmem S4x1024x512 .f32).view.loc (c : Thread nD τ)) (q := fullShare) (f := xstg m ρ c) (src_subset c)).2 $$ [Hsrc Hxrest]
  · isplitl [Hsrc]; · iexact Hsrc
    iexact Hxrest
  imod (Rounds.cell_close ER (chainRd m ρ) (Set.mem_univ (K (c, 1))) (fun h => h) (R := 0 + 1) (duties_later m ρ (sendCell c))) $$ [HatS] with HzS
  · isplitr; · iexact HIsnd
    iexact HatS
  imod (Rounds.cell_close ER (chainRd m ρ) (Set.mem_univ (K (c, 2))) (fun h => h) (R := 0) (duties_recv_none m ρ c hL)) $$ [HatV] with HzV
  · isplitr; · iexact HIrcv
    iexact HatV
  rw [wp_ret]; imodintro
  iapply HK
  unfold bodyOut
  isplitl [Hscr]; · iexists _; iexact Hscr
  isplitl [HzS]; · iexact HzS
  isplitl [HzV]; · iexact HzV
  isplitl [HO]; · iexists _; iexact HO
  isplitl [Hx]; · iexact Hx
  isplitl [Hk]; · iexact Hk
  rw [show outAt m ρ c = Out.base (xstg m ρ c) (kstg m ρ c) from if_neg hL]
  iexact Hout

set_option maxHeartbeats 1600000 in
/-- The last device (no right neighbour): signal left, compute and store, wait for the left neighbour's rows, recompute rows 0–2. -/
theorem body_last (c : Dev nD) (hL : hasL c) (hR : ¬ hasR c) (Kt : PUnit → sProp 𝕄) (W : Waits sig Unit)
    (f0 : Buf (Elt F) ((rM : Memref sig .tc .vmem S4x3x512 .f32).view.loc (c : Thread nD τ))) (d2 : (cc0_stg2_0 : Ref sig .tc).ty.Contents (Elt F)) :
    iprop(bodyIn m ρ K c W f0 d2 ∗ (bodyOut m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, storeSubelements, Prog.lift, Prog.bind_op, Prog.bind_ret, Prog.pure_eq_ret, wp_deviceId]
  have h1 : k0_cond1 c = 1#1 := (cond1_iff c).mpr hL
  have h2 : ¬ k0_cond2 c = 1#1 := fun h => hR ((cond2_iff c).mp h)
  have h3 : ¬ (Scalar.cmpi CmpIPredicate.ne (Scalar.extui (Scalar.cmpi CmpIPredicate.slt (Scalar.remsi (Scalar.divsi c.word 1#32) 32#32) 31#32)) 0#32 = 1#1) := fun h => hR ((cond3_iff c).mp h)
  have h4 := (cond4_iff c).mpr hL
  simp only [h1, h2, h3, h4, ↓reduceDIte, Prog.bind_op, Prog.bind_ret, Prog.pure_eq_ret]
  simp only [dev1_eq c h1]
  unfold bodyIn ghost invs O₀ O₁
  simp only [if_pos hL, if_neg hR, tallyAt_zero, zero_add]
  iintro ⟨⟨⟨⟨#HIbar, #HIsnd, #HIrcv, #HIbarP, #HIrcvN⟩, HatB, HatS, HatV, #HrBP, #HrVN, #HrS, #HrV, HtBP, HtVN, HtS⟩, -, HcV, #Hlev, Hscr, HO, Hx, Hk, Hout⟩, HK⟩
  iapply (Rounds.wp_signal 𝒱₀ ER (chainRd m ρ) (c : Thread nD τ) none (dst := (prv c : Thread nD τ)) (sem := barS) (r := 0) (k' := (1#32).toNat) (κ := K (prv c, 0))
      (d := ()) (by rw [duties_bar m ρ (prv c) (hasR_prv c hL)]; exact Finset.mem_singleton_self _) (amount_bar m ρ (prv c) ()) ()
      (O₀ := tallyAt (barCell (prv c)) () 1) 0 (zero_add _).symm (W := W) (Es := Set.univ))
    $$ [HO HtBP Hscr]
  · isplitr; · iexact HIbarP
    isplitl [HO]; · iexact HO
    isplitl [HtBP]; · iexact HtBP
    isplitl [Hscr]
    · rw [payload_bar]; unfold barPay; rw [nxt_prv]
      isplitl [Hscr]; · iexists f0; iexact Hscr
      iexact HrV
    · iexact HrBP
  iintro HO
  iapply (wp_load 𝒱₀ (c : Thread nD τ) none Set.univ (m := xM) (Finset.subset_univ _)) $$ Hx; iintro Hx
  rw [read_x]
  iapply (wp_load 𝒱₀ (c : Thread nD τ) none Set.univ (m := kM) (Finset.subset_univ _)) $$ Hk; iintro Hk
  rw [read_k]
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out]
  iapply (Rounds.wp_wait_rest_token 𝒱₀ ER (chainRd m ρ) (c : Thread nD τ) none (sm := .dma recvS.sem) (k' := N) (κ := K (c, 2))
      (wpE_waitDma2_eq 𝒱₀ (c : Thread nD τ) none Set.univ (sem := recvS.sem) (src := hM) (dst := rM)) (Set.mem_univ _) () (O := 0) (W := W) (R := 0) (m := 0) (T := ∅)
      (by rw [Nat.zero_add, expect_recv m ρ c hL])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hscr := (Entails.of_eq (rest_recv m ρ c hL)) $$ Hpay
  unfold recvPay scrPts
  imod (Rounds.cell_close ER (chainRd m ρ) (Set.mem_univ (K (c, 1))) (fun h => h) (R := 0) (duties_send_none m ρ c hR)) $$ [HatS] with HzS
  · isplitr; · iexact HIsnd
    iexact HatS
  imod (Rounds.cell_close ER (chainRd m ρ) (Set.mem_univ (K (c, 2))) (fun h => h) (R := 0 + 1) (duties_later m ρ (recvCell c))) $$ [HatV] with HzV
  · isplitr; · iexact HIrcv
    iexact HatV
  iapply (wp_load 𝒱₀ (c : Thread nD τ) none Set.univ (m := rM) (by rw [scr_set]; exact Finset.subset_univ _)) $$ Hscr; iintro Hscr
  rw [read_scr]
  iapply (wp_load 𝒱₀ (c : Thread nD τ) none Set.univ (m := oM) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := r4) (Mk := Finset.univ) (Finset.subset_univ _)) $$ Hout; iintro Hout
  rw [wp_ret]; imodintro
  iapply HK
  unfold bodyOut
  isplitl [Hscr]; · iexists _; unfold scrPts; iexact Hscr
  isplitl [HzS]; · iexact HzS
  isplitl [HzV]; · iexact HzV
  isplitl [HO]; · iexists _; iexact HO
  isplitl [Hx]; · iexact Hx
  isplitl [Hk]; · iexact Hk
  rw [show outAt m ρ c = patched (Out.base (xstg m ρ c) (kstg m ρ c)) (Out.fixRows (xstg m ρ c) (kstg m ρ c) (landed m ρ c)) from if_pos hL]
  iexact Hout

/-- The body on any device of the chain. -/
theorem sound_body (c : Dev nD) (Kt : PUnit → sProp 𝕄) (W : Waits sig Unit)
    (f0 : Buf (Elt F) ((rM : Memref sig .tc .vmem S4x3x512 .f32).view.loc (c : Thread nD τ))) (d2 : (cc0_stg2_0 : Ref sig .tc).ty.Contents (Elt F)) :
    iprop(bodyIn m ρ K c W f0 d2 ∗ (bodyOut m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  by_cases hL : hasL c
  · by_cases hR : hasR c
    · exact body_mid m ρ K c hL hR Kt W f0 d2
    · exact body_last m ρ K c hL hR Kt W f0 d2
  · exact body_first m ρ K c hL ((hasL_or_hasR c).resolve_left hL) Kt W f0 d2

end Cert.KernelIdeal.Halo

end
-- ==== Proof.Launch.lean ====
/-
  The launch of the halo exchange on the 32 devices: the proof data of the one pipeline, the body obligation from the
  body's lemma, the protocol's ghost state dealt to the devices, the credit each device starts with, and the run.

  The barrier semaphore is not scoped to the launch, so its cell's invariant is allocated for all devices at once, under the
  one global step, beside the send and receive cells. Every device receives the duty tokens of the cells it may pay:
  its left neighbour's barrier cell, its right neighbour's receive cell, its own send cell (around the closed ring of
  32 positions; a token whose duty the chain does not have — the first device's for "its left neighbour" — is never used).
  A device's launch credit is what the others owe it: one unit on its barrier cell if it has a right neighbour, the
  copy's credit on its receive cell if it has a left one.
-/
import proofs.«900353_g7700000000000354_dist_gconv1d_seqshard_i_b4_s1024_c512_v7x_i32_bf16_1_alg».proof.Proof.Body
import proofs.«900353_g7700000000000354_dist_gconv1d_seqshard_i_b4_s1024_c512_v7x_i32_bf16_1_alg».proof.Proof.Gen.KernelIdeal.Points

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- What device `c`'s body starts from: the ghost state at some names, its two credit tokens and the level facts. -/
def start (c : Dev nD) : sProp 𝕄 :=
  iprop((∃ K, ghost m ρ K c) ∗ cred (tallyAt (barCell c) () (if hasR c then 1 else 0)) ∗ cred (tallyAt (recvCell c) () (if hasL c then N else 0)) ∗ levAts L lv)

def Φ₀ (c : Dev nD) : sProp 𝕄 := iprop(start m ρ c ∗ ∃ f, scrPts c f)
/-- After the point: the landing buffer back, the two own cells at zero, closed. -/
def Φ₁ (c : Dev nD) : sProp 𝕄 := iprop((∃ f, scrPts (F := F) c f) ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => kstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem fetch_0 (t : Fin cfg0.N) : (cfg0.win (0 : Fin 3)).fetch t = true := fetch0_0 t
theorem fetch_1 (t : Fin cfg0.N) : (cfg0.win (1 : Fin 3)).fetch t = true := fetch0_1 t

/-! ## The body obligation -/

set_option maxRecDepth 4000 in
def bodyPre' (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (xstg m ρ c) ∗ stg c cc0_stg1_0 (kstg m ρ c) ∗ stg c cc0_stg2_0 (outAt m ρ c))

set_option maxRecDepth 4000 in
/-- The library's body obligation on device `c`, from the body's lemma. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2) (fun _ => bodyPost m ρ c)
  unfold bodyPre' Φ₀ start
  iintro ⟨⟨⟨⟨%K, Hg⟩, HcB, HcV, Hlev⟩, ⟨%f0, Hscr⟩⟩, Ho, ⟨%d0, %g0, %hg0, Hx⟩, ⟨%d1, %g1, %hg1, Hk⟩, ⟨%d2, %g2, %hg2, Hout⟩⟩
  have hx : g0 = xstg m ρ c := by rw [hg0]; unfold Dat.before; rw [if_pos (fetch_0 t0_0)]; rfl
  have hk : g1 = kstg m ρ c := by rw [hg1]; unfold Dat.before; rw [if_pos (fetch_1 t0_0)]; rfl
  subst hx; subst hk
  unfold Dat.owesAt Pipeline.owesWithin
  icases Ho with ⟨%W, %hW, HO⟩
  rw [show (dats m ρ 0 c).owed t0_0.castSucc = O₀ c from rfl]
  iapply (sound_body m ρ K c (fun _ => bodyPost m ρ c) W f0 g2)
  isplitl
  · unfold bodyIn
    isplitl [Hg]; · iexact Hg
    isplitl [HcB]; · iexact HcB
    isplitl [HcV]; · iexact HcV
    isplitl [Hlev]; · iexact Hlev
    isplitl [Hscr]; · iexact Hscr
    isplitl [HO]; · iexact HO
    isplitl [Hx]; · iexact Hx
    isplitl [Hk]; · iexact Hk
    iexact Hout
  · unfold bodyOut bodyPost Φ₁ Dat.owesAt Pipeline.owesWithin
    rw [show (dats m ρ 0 c).owed t0_0.succ = 0 from rfl]
    iintro ⟨Hscr, HzS, HzV, ⟨%W', HO⟩, Hx, Hk, Hout⟩
    isplitl [Hscr HzS HzV]
    · isplitl [Hscr]; · iexact Hscr
      isplitl [HzS]; · iexact HzS
      iexact HzV
    isplitl [HO]
    · iexists W'
      isplitr; · ipureintro; exact fun _ _ => Or.inl trivial
      iexact HO
    isplitl [Hx]
    · iexists _; isplitr; · (ipureintro; rfl)
      iexact Hx
    isplitl [Hk]
    · iexists _; isplitr; · (ipureintro; rfl)
      iexact Hk
    iexists _; isplitr; · (ipureintro; rfl)
    iexact Hout

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def chainCells : Finset (GSem nD τ sig) := Finset.univ.map ⟨kcell, kcell_injective⟩

/-- One duty token per cell: (device, which cell). -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def chainToks : Finset (GSem nD τ sig × ℕ × Unit) := Finset.univ.map ⟨tokOf, tokOf_injective⟩

def u₀ : UU :=
  (initOf (Pipeline.cells cfgs cellOf_inj) (Pipeline.launchToks cfgs cellOf_inj), initOf chainCells chainToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (chainRd m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
theorem fund_chain : BI.own (ER (initOf chainCells chainToks)) ⊢ (|==> bigSep Finset.univ (G m ρ) : sProp 𝕄) := by
  have hX (Φ : GSem nD τ sig → sProp 𝕄) : bigSep chainCells Φ = bigSep Finset.univ fun c : Dev nD => bigSep Finset.univ fun k : Fin 3 => Φ (kcell (c, k)) := by
    unfold chainCells; rw [bigSep_map, bigSep_univ_prod]; rfl
  have hT : bigSep chainToks (fun x => (dutyTok ER x.1 x.2.1 x.2.2 : sProp 𝕄)) = bigSep Finset.univ fun c : Dev nD => toks c := by
    unfold chainToks; rw [bigSep_map, bigSep_univ_prod]
    exact bigSep_congr fun c _ => by unfold toks; rw [bigSep_fin3]; rfl
  iintro HX
  imod (Rounds.fund ER (chainRd m ρ) chainCells chainToks) $$ HX with ⟨Hst, Hr, Hat, Htok⟩
  imodintro
  ihave Hst' := (Entails.of_eq (hX fun g => roundState ER (chainRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (chainRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (chainRd m ρ) (kcell (c, k)) 0)
      ⊢ (|={Set.univ}=> bigSep Finset.univ fun k => iprop(∃ κ : ℕ, cellInv ER (chainRd m ρ) κ (kcell (c, k))) : sProp 𝕄) from by
        rw [← bigSep_sep']
        exact (bigSep_mono fun k _ => (Rounds.body_intro ER (chainRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (chainRd m ρ) (K ck) (kcell ck))
    ∗ bigSep Finset.univ fun ck : Dev nD × Fin 3 => reached ER (kcell ck) 0)

instance records_persistent (K : Dev nD × Fin 3 → ℕ) : BI.Persistent (records m ρ K) := by unfold records; infer_instance

omit [FloatOps F] in
theorem inv_at (K : Dev nD × Fin 3 → ℕ) (ck : Dev nD × Fin 3) :
    (bigSep Finset.univ fun ck : Dev nD × Fin 3 => (cellInv ER (chainRd m ρ) (K ck) (kcell ck) : sProp 𝕄)) ⊢ cellInv ER (chainRd m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties it may pay. -/
def payToks (c : Dev nD) : sProp 𝕄 :=
  iprop(dutyTok ER (barCell (prv c)) 0 () ∗ dutyTok ER (recvCell (nxt c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

omit [FloatOps F] in
theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtBP, HtVN, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (prv c, 0)); iexact HI
    iapply (inv_at m ρ K (nxt c, 2)); iexact HI
  isplitl [HaB]; · iexact HaB
  isplitl [HaS]; · iexact HaS
  isplitl [HaV]; · iexact HaV
  isplitr; · iapply (reached_at (F := F) (prv c, 0)); iexact HR
  isplitr; · iapply (reached_at (F := F) (nxt c, 2)); iexact HR
  isplitr; · iapply (reached_at (F := F) (c, 1)); iexact HR
  isplitr; · iapply (reached_at (F := F) (c, 2)); iexact HR
  isplitl [HtBP]; · iexact HtBP
  isplitl [HtVN]; · iexact HtVN
  iexact HtS

def ring : Dev nD ≃ Dev nD := ⟨nxt, prv, prv_nxt, nxt_prv⟩

omit [FloatOps F] in
/-- The tokens dealt around the ring of positions: a barrier cell's token one position up (to the device whose left
    neighbour owns the cell), a receive cell's one position down. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv ring.symm (fun c : Dev nD => (dutyTok ER (barCell c) 0 () : sProp 𝕄)),
    bigSep_univ_equiv ring (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (chainRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (chainRd m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (chainRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem hasL_nxt_iff (c : Dev nD) : hasL (nxt c) ↔ hasR c := by revert c; decide
theorem hasR_prv_iff (c : Dev nD) : hasR (prv c) ↔ hasL c := by revert c; decide

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if `c` is its left neighbour. -/
theorem owed_bar (d c : Dev nD) : O₀ d (barCell c) () = if d = nxt c then (if hasL d then 1 else 0) else 0 := by
  unfold O₀ O₁
  rw [Pi.add_apply, Finsupp.add_apply, tallyAt_ne_cell (fun h => recv_ne_bar (congrArg Prod.snd h).symm), tallyAt_apply, Finsupp.zero_apply, Nat.zero_add]
  by_cases h : d = nxt c
  · subst h; rw [prv_nxt, if_pos ⟨rfl, rfl⟩, if_pos rfl]
  · rw [if_neg (fun ⟨h1, _⟩ => h (by rw [← nxt_prv d]; exact congrArg nxt (bar_eq_iff.mp h1).symm)), if_neg h]

omit [FloatOps F] in
/-- What device `d` owes device `c`'s receive cell: the copy's credit if `c` is its right neighbour. -/
theorem owed_recv (d c : Dev nD) : O₀ d (recvCell c) () = if d = prv c then (if hasR d then N else 0) else 0 := by
  unfold O₀ O₁
  rw [Pi.add_apply, Finsupp.add_apply, tallyAt_apply, tallyAt_ne_cell (fun h => recv_ne_bar (congrArg Prod.snd h)), Finsupp.zero_apply, Nat.add_zero]
  by_cases h : d = prv c
  · subst h; rw [nxt_prv, if_pos ⟨rfl, rfl⟩, if_pos rfl]
  · rw [if_neg (fun ⟨h1, _⟩ => h (by rw [← prv_nxt d]; exact congrArg prv (recv_eq_iff.mp h1).symm)), if_neg h]

omit [FloatOps F] in
theorem launch_bar (c : Dev nD) :
    tallyOn (barCell c) (launchCredit (Pipeline.owing O₀) 0 (barCell c)) = (tallyAt (barCell c) () (if hasR c then 1 else 0) : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (nxt c) fun d => if hasL d then 1 else 0, if_pos (Finset.mem_univ _)]
  simp only [hasL_nxt_iff]

omit [FloatOps F] in
theorem launch_recv (c : Dev nD) :
    tallyOn (recvCell c) (launchCredit (Pipeline.owing O₀) 0 (recvCell c)) = (tallyAt (recvCell c) () (if hasL c then N else 0) : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (prv c) fun d => if hasR d then N else 0, if_pos (Finset.mem_univ _)]
  simp only [hasR_prv_iff]

omit [FloatOps F] in
theorem creds (c : Dev nD) :
    (Pipeline.launchCred O₀ c : sProp 𝕄) ⊢ iprop(cred (tallyAt (barCell c) () (if hasR c then 1 else 0)) ∗ cred (tallyAt (recvCell c) () (if hasL c then N else 0))) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨⟨%f, Hr⟩, HzS, HzV⟩
  isplitr; · iempintro
  isplitl [HzS HzV]
  · isplitl [HzS] <;> iassumption
  iexists f; rw [← scrPts_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of 32 devices, for any float values, from any memory with zero counters: every weakly fair
    execution of @main — the kernels shaking hands on the barrier semaphore, then copying their last rows down the chain —
    terminates, and every final state has each windowed array at the contents the proof data computes. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_chain m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ### The computed contents, in closed form -/

/-- The argument arrays are inputs: after the run they hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_k (c : Dev nD) : finalA m ρ c (1 : Fin 3) = (s₀ m ρ).mem (win0_1.arr.view.loc (c : Thread nD τ)) :=
  (dats (F := F) m ρ 0 c).arrAt_in (1 : Fin 3) rfl _

/-- The result array's one block — the whole array — read back is what the body left in the staging buffer. -/
theorem final_out (c : Dev nD) :
    ((cfg0.win (2 : Fin 3)).blk t0_0).view.read (Elt F) (finalA m ρ c (2 : Fin 3)) = (dats (F := F) m ρ 0 c).flushed (2 : Fin 3) t0_0 := by
  unfold finalA
  rw [show cfg0.N = (t0_0 : Fin cfg0.N).val + 1 from rfl, (dats (F := F) m ρ 0 c).arrAt_succ (2 : Fin 3) t0_0]
  rw [show (cfg0.win (2 : Fin 3)).flush t0_0 = true from flush0_2 t0_0, if_pos rfl]
  exact View.read_write_univ _ _

/-- The result array after the run is the body's result block. -/
theorem final_value (c : Dev nD) : finalA m ρ c (2 : Fin 3) = outAt m ρ c := by
  have ho := final_out (F := F) m ρ c
  have hz2 : (fun a => (win0_2.index t0_0) a * main_v1.ty.shape.size a) = fun _ => 0 := funext fun a => by fin_cases a <;> decide
  have hr2 := fun f => Memref.read_access_unit_zero (Elt F) main_v1 hz2 (fun a => by fin_cases a <;> decide) f
  rw [hr2] at ho
  rw [ho]
  show (cfg0.win (2 : Fin 3)).cut _ ((dats (F := F) m ρ 0 c).after 2 t0_0) = _
  rfl

/-- The staged blocks are the argument arrays as launched. -/
theorem xstg_eq (c : Dev nD) : xstg m ρ c = m ((c : Thread nD τ).loc main_arg0) := by
  have hz0 : (fun a => (win0_0.index t0_0) a * main_arg0.ty.shape.size a) = fun _ => 0 := funext fun a => by fin_cases a <;> decide
  exact Memref.read_access_unit_zero (Elt F) main_arg0 hz0 (fun a => by fin_cases a <;> decide) _
theorem kstg_eq (c : Dev nD) : kstg m ρ c = m ((c : Thread nD τ).loc main_arg1) := by
  have hz1 : (fun a => (win0_1.index t0_0) a * main_arg1.ty.shape.size a) = fun _ => 0 := funext fun a => by fin_cases a <;> decide
  exact Memref.read_access_unit_zero (Elt F) main_arg1 hz1 (fun a => by fin_cases a <;> decide) _

end Cert.KernelIdeal.Halo

end
-- ==== Proof.KOut.lean ====
/-
  What one device's body stores, as pure functions of what it loaded.

  The body stores twice into its result block. First the whole block: the four-tap causal convolution of the
  device's own rows, padded on the left by three zero rows, followed by `o · logistic o` (`base`). Then, on
  every device but the first, rows 0–2 again (`fixRows`): the same convolution and activation, the three
  padding rows now the last three rows of the device before it (the halo that arrives by the remote copy).
-/
import proofs.«900353_g7700000000000354_dist_gconv1d_seqshard_i_b4_s1024_c512_v7x_i32_bf16_1_alg».proof.Proof.Gen.Kernel.Skeleton

noncomputable section

namespace Cert.Kernel.Out

open Idealize.ShloMosaic Cert.Kernel Cert.Kernel.Gen

variable {F : FTy → Type} [FloatOps F]

/-- The whole block as first stored: convolution over the zero-padded local rows, then `o · logistic o`. -/
def base (X : Vec F S4x1024x512 .f32) (K : Vec F S4x512 .f32) : FVec F S4x1024x512 .bf16 :=
  k0_pay1 (k0_pay4 K) (k0_pay5 X) (k0_pay6 X K) (k0_pay7 X) (k0_pay8 K)

/-- Rows 0–2 as stored the second time: the padding rows are the halo `H`. -/
def fixRows (X : Vec F S4x1024x512 .f32) (K : Vec F S4x512 .f32) (H : Vec F S4x3x512 .f32) : FVec F S4x3x512 .bf16 :=
  k0_pay2 (k0_pay3 X) (k0_pay4 K) H

end Cert.Kernel.Out

end
-- ==== Proof.KSched.lean ====
/-
  The halo exchange of the sequence-sharded convolution, as a protocol on three semaphore cells per device.

  The 32 devices form a chain (no wrap-around). Device `c` with a left neighbour first signals that neighbour's
  barrier cell: "I am inside the kernel, my landing buffer is yours to write". Device `c` with a right neighbour
  waits for that one unit on its own barrier cell, then copies its last three rows into the right neighbour's landing
  buffer (the copy credits its own send cell and the neighbour's receive cell), and later waits for its send cell;
  a device with a left neighbour waits for its receive cell and then owns the three rows that landed.
  So: the barrier cell of a device that has a right neighbour has one duty (paid by that neighbour, handing over the
  neighbour's landing buffer and the fact that the neighbour's receive cell is at round 0); its send cell one duty
  (its own copy, the three source rows lent for the flight); the receive cell of a device with a left neighbour one
  duty (the copy of that neighbour, handing over the landing buffer holding the neighbour's last three rows).
  A wait is allowed below everything the waiter still owes: barrier cells sit at level 1, receive cells at level 2.
-/
import proofs.«900353_g7700000000000354_dist_gconv1d_seqshard_i_b4_s1024_c512_v7x_i32_bf16_1_alg».proof.Proof.Gen.Kernel
import proofs.«900353_g7700000000000354_dist_gconv1d_seqshard_i_b4_s1024_c512_v7x_i32_bf16_1_alg».proof.Proof.Gen.Kernel.Skeleton
import proofs.«900353_g7700000000000354_dist_gconv1d_seqshard_i_b4_s1024_c512_v7x_i32_bf16_1_alg».proof.Proof.Gen.Kernel.Launch
import proofs.«900353_g7700000000000354_dist_gconv1d_seqshard_i_b4_s1024_c512_v7x_i32_bf16_1_alg».proof.Proof.KOut
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside the protocol's (one duty name) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The chain -/

def nxt (c : Dev nD) : Dev nD := ⟨(c.val + 1) % 32, Nat.mod_lt _ (by decide)⟩
def prv (c : Dev nD) : Dev nD := ⟨(c.val + 31) % 32, Nat.mod_lt _ (by decide)⟩

abbrev hasL (c : Dev nD) : Prop := 0 < c.val
abbrev hasR (c : Dev nD) : Prop := c.val < 31

theorem prv_nxt (c : Dev nD) : prv (nxt c) = c := by revert c; decide
theorem nxt_prv (c : Dev nD) : nxt (prv c) = c := by revert c; decide
theorem hasL_nxt (c : Dev nD) (h : hasR c) : hasL (nxt c) := by revert c; decide
theorem hasR_prv (c : Dev nD) (h : hasL c) : hasR (prv c) := by revert c; decide
theorem hasL_or_hasR (c : Dev nD) : hasL c ∨ hasR c := by revert c; decide

/-- The printed conditions are the chain's: "has a left neighbour", "has a right neighbour". -/
theorem cond1_iff (c : Dev nD) : k0_cond1 c = 1#1 ↔ hasL c := by revert c; decide +kernel
theorem cond2_iff (c : Dev nD) : k0_cond2 c = 1#1 ↔ hasR c := by revert c; decide +kernel
/-- The printed device chains name the left neighbour (the signal) and the right neighbour (the copy). -/
theorem dev1_val : ∀ c : Dev nD, k0_cond1 c = 1#1 → k0_dev1 c = (prv c).val := by decide +kernel
theorem dev2_val : ∀ c : Dev nD, k0_cond2 c = 1#1 → k0_dev2 c = (nxt c).val := by decide +kernel
theorem dev1_eq (c : Dev nD) (h : k0_cond1 c = 1#1) (hlt : k0_dev1 c < nD) : (⟨k0_dev1 c, hlt⟩ : Dev nD) = prv c := Fin.ext (dev1_val c h)
theorem dev2_eq (c : Dev nD) (h : k0_cond2 c = 1#1) (hlt : k0_dev2 c < nD) : (⟨k0_dev2 c, hlt⟩ : Dev nD) = nxt c := Fin.ext (dev2_val c h)

/-! ## The memrefs and cells -/

abbrev xM : Memref sig .tc .vmem S4x1024x512 .f32 := Memref.whole cc0_stg0_0
abbrev kM : Memref sig .tc .vmem S4x512 .f32 := Memref.whole cc0_stg1_0
abbrev oM : Memref sig .tc .vmem S4x1024x512 .bf16 := Memref.whole cc0_stg2_0
abbrev rM : Memref sig .tc .vmem S4x3x512 .f32 := Memref.whole cc0_scratch0
/-- The last three rows of the staged block: the source of the copy. -/
abbrev hM : Memref sig .tc .vmem S4x3x512 .f32 :=
  (xM : Memref sig .tc .vmem S4x1024x512 .f32).slice (Rect.unit (s := S4x1024x512) ![0, 1021, 0] S4x3x512.size inb_S4x1024x512_S4x3x512_0_1021_0) (fun _ => rfl)

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch indexes them: send, receive; -/
abbrev osem : Fin 2 → SemLoc sig := fun | 0 => .dma sendS.sem | 1 => .dma recvS.sem
/-- all three of the protocol's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (rM : Memref sig .tc .vmem S4x3x512 .f32).view.dmaCredit
theorem N_pos : 0 < N := View.dmaCredit_pos _ (by decide)

/-! ## Contents -/

/-- Device `c`'s staged block of `x`, and its staged copy of `k`. -/
def xstg (c : Dev nD) : (cc0_stg0_0 : Ref sig .tc).ty.Contents (Elt F) :=
  (win0_0.blk (0 : Fin 1)).view.read (Elt F) ((s₀ m ρ).mem ((c : Thread nD τ).loc main_arg0))
def kstg (c : Dev nD) : (cc0_stg1_0 : Ref sig .tc).ty.Contents (Elt F) :=
  (win0_1.blk (0 : Fin 1)).view.read (Elt F) ((s₀ m ρ).mem ((c : Thread nD τ).loc main_arg1))

/-- The last three rows of device `c`'s block: what its copy carries. -/
def lastRows (c : Dev nD) : (cc0_scratch0 : Ref sig .tc).ty.Contents (Elt F) :=
  (hM : Memref sig .tc .vmem S4x3x512 .f32).view.read (Elt F) (xstg m ρ c)

/-- What lands in device `c`'s landing buffer: the last three rows of the device before it. -/
def landed (c : Dev nD) : Buf (Elt F) ((rM : Memref sig .tc .vmem S4x3x512 .f32).view.loc (c : Thread nD τ)) := lastRows m ρ (prv c)

omit [FloatOps F] in
theorem landed_eq (c : Dev nD) (fd : Buf (Elt F) ((rM : Memref sig .tc .vmem S4x3x512 .f32).view.loc (c : Thread nD τ))) (w : (cc0_scratch0 : Ref sig .tc).ty.Contents (Elt F)) :
    (rM : Memref sig .tc .vmem S4x3x512 .f32).view.write (Elt F) fd w Finset.univ = w := by
  show (View.whole cc0_scratch0).write (Elt F) fd w Finset.univ = w
  exact View.write_whole_univ _ _ _

def scrPts (c : Dev nD) (f : Buf (Elt F) ((rM : Memref sig .tc .vmem S4x3x512 .f32).view.loc (c : Thread nD τ))) : sProp 𝕄 :=
  (rM : Memref sig .tc .vmem S4x3x512 .f32).view.loc (c : Thread nD τ) ↦[(rM : Memref sig .tc .vmem S4x3x512 .f32).view.set]{fullShare} f
/-- The three source rows of device `c`, at the staged contents. -/
def srcPts (c : Dev nD) : sProp 𝕄 :=
  (hM : Memref sig .tc .vmem S4x3x512 .f32).view.loc (c : Thread nD τ) ↦[(hM : Memref sig .tc .vmem S4x3x512 .f32).view.set]{fullShare} xstg m ρ c

omit [FloatOps F] in
instance scrPts_storable (c : Dev nD) (f) : BI.Storable (upEmb : UEmb _ 𝕄) (scrPts (F := F) c f) := by unfold scrPts; infer_instance
omit [FloatOps F] in
instance srcPts_storable (c : Dev nD) : BI.Storable (upEmb : UEmb _ 𝕄) (srcPts (F := F) m ρ c) := by unfold srcPts; infer_instance

omit [FloatOps F] in
theorem scr_set : (rM : Memref sig .tc .vmem S4x3x512 .f32).view.set = Finset.univ := View.set_whole _
omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]

/-! ## The schedule -/

/-- What the right neighbour's signal hands device `c`: that neighbour's landing buffer, and that its receive cell is at round 0. -/
def barPay (c : Dev nD) : sProp 𝕄 := iprop((∃ f, scrPts (nxt c) f) ∗ reached ER (recvCell (nxt c)) 0)
def recvPay (c : Dev nD) : sProp 𝕄 := scrPts c (landed m ρ c)
def sendPay (c : Dev nD) : sProp 𝕄 := srcPts m ρ c

/-- One round, round 0. A barrier or send cell has its duty when the device has a right neighbour, a receive cell when it has a left one. -/
def chainRd : Rounds.Schedule (GSem nD τ sig) Unit 𝕄 where
  duties g r := if r = 0 ∧ g.1.2 = .tc ∧ ((g.2 = .reg barS ∧ hasR g.1.1) ∨ (g.2 = .dma sendS.sem ∧ hasR g.1.1) ∨ (g.2 = .dma recvS.sem ∧ hasL g.1.1)) then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance chainRd_payload_storable (g : GSem nD τ sig) (r : ℕ) (d : Unit) :
    BI.Storable (upEmb : UEmb _ 𝕄) ((chainRd (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem bar_ne_send : (SemLoc.reg barS : SemLoc sig) ≠ .dma sendS.sem := fun h => by cases h
theorem bar_ne_recv : (SemLoc.reg barS : SemLoc sig) ≠ .dma recvS.sem := fun h => by cases h
theorem send_ne_recv : (SemLoc.dma sendS.sem : SemLoc sig) ≠ .dma recvS.sem := by decide
theorem recv_ne_send : (SemLoc.dma recvS.sem : SemLoc sig) ≠ .dma sendS.sem := by decide

omit [FloatOps F] in
theorem duties_bar (h : hasR c) : (chainRd (F := F) m ρ).duties (barCell c) 0 = {()} := by
  dsimp only [chainRd]; exact if_pos ⟨rfl, rfl, .inl ⟨rfl, h⟩⟩
omit [FloatOps F] in
theorem duties_send (h : hasR c) : (chainRd (F := F) m ρ).duties (sendCell c) 0 = {()} := by
  dsimp only [chainRd]; exact if_pos ⟨rfl, rfl, .inr (.inl ⟨rfl, h⟩)⟩
omit [FloatOps F] in
theorem duties_recv (h : hasL c) : (chainRd (F := F) m ρ).duties (recvCell c) 0 = {()} := by
  dsimp only [chainRd]; exact if_pos ⟨rfl, rfl, .inr (.inr ⟨rfl, h⟩)⟩
omit [FloatOps F] in
theorem duties_later (g : GSem nD τ sig) : ∀ r, 1 ≤ r → (chainRd (F := F) m ρ).duties g r = ∅ :=
  fun r hr => by dsimp only [chainRd]; rw [if_neg fun h => by omega]
omit [FloatOps F] in
/-- A send cell of the last device, a receive cell of the first: no duty at all. -/
theorem duties_send_none (h : ¬ hasR c) : ∀ r, 0 ≤ r → (chainRd (F := F) m ρ).duties (sendCell c) r = ∅ :=
  fun r _ => by
    dsimp only [chainRd]
    exact if_neg fun hh => by
      rcases hh.2.2 with h1 | h1 | h1
      · exact send_ne_bar h1.1
      · exact h h1.2
      · exact send_ne_recv h1.1
omit [FloatOps F] in
theorem duties_recv_none (h : ¬ hasL c) : ∀ r, 0 ≤ r → (chainRd (F := F) m ρ).duties (recvCell c) r = ∅ :=
  fun r _ => by
    dsimp only [chainRd]
    exact if_neg fun hh => by
      rcases hh.2.2 with h1 | h1 | h1
      · exact recv_ne_bar h1.1
      · exact recv_ne_send h1.1
      · exact h h1.2

omit [FloatOps F] in
theorem amount_bar (d : Unit) : (chainRd (F := F) m ρ).amount (barCell c) 0 d = 1 := by dsimp only [chainRd]; exact if_pos rfl
omit [FloatOps F] in
theorem amount_send (d : Unit) : (chainRd (F := F) m ρ).amount (sendCell c) 0 d = N := by dsimp only [chainRd]; exact if_neg send_ne_bar
omit [FloatOps F] in
theorem amount_recv (d : Unit) : (chainRd (F := F) m ρ).amount (recvCell c) 0 d = N := by dsimp only [chainRd]; exact if_neg recv_ne_bar

omit [FloatOps F] in
theorem expect_bar (h : hasR c) : (chainRd (F := F) m ρ).expect (barCell c) 0 = 1 := by
  unfold Schedule.expect Schedule.amountOf; rw [duties_bar m ρ c h, Finset.sum_singleton, amount_bar]
omit [FloatOps F] in
theorem expect_send (h : hasR c) : (chainRd (F := F) m ρ).expect (sendCell c) 0 = N := by
  unfold Schedule.expect Schedule.amountOf; rw [duties_send m ρ c h, Finset.sum_singleton, amount_send]
omit [FloatOps F] in
theorem expect_recv (h : hasL c) : (chainRd (F := F) m ρ).expect (recvCell c) 0 = N := by
  unfold Schedule.expect Schedule.amountOf; rw [duties_recv m ρ c h, Finset.sum_singleton, amount_recv]

omit [FloatOps F] in
theorem payload_bar (d : Unit) : (chainRd (F := F) m ρ).payload (barCell c) 0 d = barPay c := by dsimp only [chainRd]; rw [if_pos rfl]
omit [FloatOps F] in
theorem payload_send (d : Unit) : (chainRd (F := F) m ρ).payload (sendCell c) 0 d = sendPay m ρ c := by
  dsimp only [chainRd]; rw [if_neg send_ne_bar, if_neg send_ne_recv, if_pos rfl]
omit [FloatOps F] in
theorem payload_recv (d : Unit) : (chainRd (F := F) m ρ).payload (recvCell c) 0 d = recvPay m ρ c := by
  dsimp only [chainRd]; rw [if_neg recv_ne_bar, if_pos rfl]

omit [FloatOps F] in
theorem rest_bar (h : hasR c) : bigSep ((chainRd (F := F) m ρ).duties (barCell c) 0 \ ∅) (fun d => (chainRd (F := F) m ρ).payload (barCell c) 0 d) = barPay c := by
  rw [Finset.sdiff_empty, duties_bar m ρ c h, bigSep_singleton, payload_bar]
omit [FloatOps F] in
theorem rest_send (h : hasR c) : bigSep ((chainRd (F := F) m ρ).duties (sendCell c) 0 \ ∅) (fun d => (chainRd (F := F) m ρ).payload (sendCell c) 0 d) = sendPay m ρ c := by
  rw [Finset.sdiff_empty, duties_send m ρ c h, bigSep_singleton, payload_send]
omit [FloatOps F] in
theorem rest_recv (h : hasL c) : bigSep ((chainRd (F := F) m ρ).duties (recvCell c) 0 \ ∅) (fun d => (chainRd (F := F) m ρ).payload (recvCell c) 0 d) = recvPay m ρ c := by
  rw [Finset.sdiff_empty, duties_recv m ρ c h, bigSep_singleton, payload_recv]

end Sched

/-! ## What each device owes at launch; the levels -/

/-- Device `c` owes its right neighbour's receive cell the copy's credit (if it has one) and its left neighbour's barrier
    cell one unit (if it has one); the signal comes first in the body and peels the last summand. -/
def O₁ (c : Dev nD) : CellTallies nD τ sig Unit := tallyAt (recvCell (nxt c)) () (if hasR c then N else 0)
def O₀ (c : Dev nD) : CellTallies nD τ sig Unit := O₁ c + tallyAt (barCell (prv c)) () (if hasL c then 1 else 0)

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₁_pos {c : Dev nD} {g : GSem nD τ sig} {u : Unit} (h : 0 < O₁ c g u) : g = recvCell (nxt c) := by
  unfold O₁ at h
  exact (Pipeline.tallyAt_pos h).1

theorem O₀_pos {c : Dev nD} {g : GSem nD τ sig} {u : Unit} (h : 0 < O₀ c g u) :
    g = recvCell (nxt c) ∨ g = barCell (prv c) := by
  unfold O₀ at h
  rcases Pipeline.add_pos_cases h with h1 | h1
  · exact .inl (O₁_pos h1)
  · exact .inr (Pipeline.tallyAt_pos h1).1

omit [FloatOps F] in
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its right neighbour's receive credit only: a receive cell, above its barrier cell. -/
theorem mayWait_bar (c : Dev nD) (n : ℕ) :
    (levAts L lv : sProp 𝕄) ⊢ MayWait (c : Thread nD τ) (.reg barS) () (tallyAt (recvCell (nxt c)) () n) :=
  MayOwe.of_cut (L := L) (lev := lv) 1 (fun p hp => by rw [Finset.mem_singleton.mp hp, L_tc]; exact Finset.mem_singleton_self _)
    (fun g u hg => by rw [(Pipeline.tallyAt_pos hg).1, L_tc]; exact Finset.mem_singleton_self _)
    (fun p hp => by rw [Finset.mem_singleton.mp hp]; dsimp only [lv]; rw [if_pos rfl])
    (fun g u hg => by rw [(Pipeline.tallyAt_pos hg).1]; dsimp only [lv]; rw [if_neg recv_ne_bar, if_pos rfl]; decide)

end Cert.Kernel.Halo

end
-- ==== Proof.KOutAt.lean ====
/-
  The result block a device's body leaves, as a pure function of the blocks it staged and of the rows that landed.
-/
import proofs.«900353_g7700000000000354_dist_gconv1d_seqshard_i_b4_s1024_c512_v7x_i32_bf16_1_alg».proof.Proof.KSched

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body leaves in the result block -/

abbrev r0 : Rect S4x1024x512 := Rect.unit (s := S4x1024x512) ![0, 0, 0] S4x1024x512.size inb_S4x1024x512_S4x1024x512_0_0_0
abbrev r4 : Rect S4x1024x512 := Rect.unit (s := S4x1024x512) ![0, 0, 0] S4x4x512.size inb_S4x1024x512_S4x4x512_0_0_0

/-- Rows 0–3 read, rows 0–2 replaced, the four rows written back. -/
def patched (B : (cc0_stg2_0 : Ref sig .tc).ty.Contents (Elt F)) (fx : FVec F S4x3x512 .bf16) : (cc0_stg2_0 : Ref sig .tc).ty.Contents (Elt F) :=
  ((oM : Memref sig .tc .vmem S4x1024x512 .bf16).access r4 : View sig .tc _ _ _).write (Elt F) B
    (updateSlice ((oM : Memref sig .tc .vmem S4x1024x512 .bf16).view.readAt (Elt F) r4.toLoadRect B) fx ![0, 0, 0] slices_S4x4x512_S4x3x512_0_0_0) Finset.univ

/-- The result block of device `c`: the local convolution, and on every device but the first rows 0–2 recomputed with the halo. -/
def outAt (c : Dev nD) : (cc0_stg2_0 : Ref sig .tc).ty.Contents (Elt F) :=
  if hasL c then patched (Out.base (xstg m ρ c) (kstg m ρ c)) (Out.fixRows (xstg m ρ c) (kstg m ρ c) (landed m ρ c))
  else Out.base (xstg m ρ c) (kstg m ρ c)

end Cert.Kernel.Halo

end
-- ==== Proof.KBodyDefs.lean ====
/-
  The ghost state a device's body runs from, the body's reads and writes through its rectangles, and the copy's rule at
  the chain's cells.
-/
import proofs.«900353_g7700000000000354_dist_gconv1d_seqshard_i_b4_s1024_c512_v7x_i32_bf16_1_alg».proof.Proof.KOutAt

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

omit [FloatOps F] in
theorem hz3 : (![0, 0, 0] : Fin 3 → Nat) = fun _ => 0 := funext fun a => by fin_cases a <;> rfl
omit [FloatOps F] in
theorem hz2 : (![0, 0] : Fin 2 → Nat) = fun _ => 0 := funext fun a => by fin_cases a <;> rfl

/-- The two later guards of the body, computed from the same device word, are again "has a right / a left neighbour". -/
theorem cond3_iff (c : Dev nD) : (Scalar.cmpi CmpIPredicate.ne (Scalar.extui (Scalar.cmpi CmpIPredicate.slt (Scalar.remsi (Scalar.divsi c.word 1#32) 32#32) 31#32)) 0#32 = 1#1) ↔ hasR c := by revert c; decide +kernel
theorem cond4_iff (c : Dev nD) : (Scalar.cmpi CmpIPredicate.ne (Scalar.extui (Scalar.cmpi CmpIPredicate.sgt (Scalar.remsi (Scalar.divsi c.word 1#32) 32#32) 0#32)) 0#32 = 1#1) ↔ hasL c := by revert c; decide +kernel

variable (K : Dev nD × Fin 3 → ℕ)

/-- The cells' invariants device `c`'s body opens: its own three, its left neighbour's barrier cell (its signal), its right
    neighbour's receive cell (its copy). -/
def invs (c : Dev nD) : sProp 𝕄 :=
  iprop(cellInv ER (chainRd m ρ) (K (c, 0)) (barCell c) ∗ cellInv ER (chainRd m ρ) (K (c, 1)) (sendCell c) ∗ cellInv ER (chainRd m ρ) (K (c, 2)) (recvCell c)
    ∗ cellInv ER (chainRd m ρ) (K (prv c, 0)) (barCell (prv c)) ∗ cellInv ER (chainRd m ρ) (K (nxt c, 2)) (recvCell (nxt c)))

instance invs_persistent (c : Dev nD) : BI.Persistent (invs m ρ K c) := by unfold invs; infer_instance

/-- The protocol's ghost state device `c` starts from: the invariants, its positions at round 0 of its three cells, the
    reached-marks of the cells it pays and of its own send and receive cells, the three duty tokens it may pay with. -/
def ghost (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (prv c)) 0 ∗ reached ER (recvCell (nxt c)) 0 ∗ reached ER (sendCell c) 0 ∗ reached ER (recvCell c) 0
    ∗ dutyTok ER (barCell (prv c)) 0 () ∗ dutyTok ER (recvCell (nxt c)) 0 () ∗ dutyTok ER (sendCell c) 0 ())

/-! ## Reads and writes through the body's rectangles -/

omit [FloatOps F] in
theorem read_x (f : (cc0_stg0_0 : Ref sig .tc).ty.Contents (Elt F)) : (xM : Memref sig .tc .vmem S4x1024x512 .f32).view.readAt (Elt F) r0.toLoadRect f = f :=
  Memref.readAt_unit_zero (Elt F) cc0_stg0_0 hz3 _ f
omit [FloatOps F] in
theorem read_k (f : (cc0_stg1_0 : Ref sig .tc).ty.Contents (Elt F)) :
    (kM : Memref sig .tc .vmem S4x512 .f32).view.readAt (Elt F) (Rect.unit (s := S4x512) ![0, 0] S4x512.size inb_S4x512_S4x512_0_0).toLoadRect f = f :=
  Memref.readAt_unit_zero (Elt F) cc0_stg1_0 hz2 _ f
omit [FloatOps F] in
theorem read_scr (f : (cc0_scratch0 : Ref sig .tc).ty.Contents (Elt F)) :
    (rM : Memref sig .tc .vmem S4x3x512 .f32).view.readAt (Elt F) (Rect.unit (s := S4x3x512) ![0, 0, 0] S4x3x512.size inb_S4x3x512_S4x3x512_0_0_0).toLoadRect f = f :=
  Memref.readAt_unit_zero (Elt F) cc0_scratch0 hz3 _ f
omit [FloatOps F] in
theorem write_out (f w : (cc0_stg2_0 : Ref sig .tc).ty.Contents (Elt F)) :
    ((oM : Memref sig .tc .vmem S4x1024x512 .bf16).access r0 : View sig .tc _ _ _).write (Elt F) f w Finset.univ = w :=
  Memref.write_access_unit_zero_univ (Elt F) cc0_stg2_0 hz3 _ f w

omit [FloatOps F] in
/-- The copy's source rows are a part of the staged block. -/
theorem src_subset (c : Dev nD) : (hM : Memref sig .tc .vmem S4x3x512 .f32).view.set ⊆ (Finset.univ : Finset (Idx ((xM : Memref sig .tc .vmem S4x1024x512 .f32).view.loc (c : Thread nD τ)))) :=
  Finset.subset_univ _

/-- `Rounds.wp_send_pointsTo` at the chain's cells, the copy addressed to `n = nxt c` (substituted, not rewritten). -/
theorem wp_send_chain (c n : Dev nD) (hR : hasR c) (hn : n = nxt c) {hsc : (rM : Memref sig (Dev.tc n : Thread nD τ).2.kind .vmem S4x3x512 .f32).view.ref.isScScratch = false}
    {hsrc : (hM : Memref sig .tc .vmem S4x3x512 .f32).view.WordExact} {hdst : (rM : Memref sig .tc .vmem S4x3x512 .f32).view.WordExact}
    {hsem : DmaTarget.Typed .vmem (.dma recvS.sem) (.remote (Dev.tc n : Thread nD τ) (rM : Memref sig .tc .vmem S4x3x512 .f32) (.dma sendS.sem) hsc)}
    {α : Type} {Q : α → sProp 𝕄} {k : PUnit → Prog (TpuEff nD τ sig (Elt F) Λ₀ .tc) α}
    (fn : Buf (Elt F) ((rM : Memref sig .tc .vmem S4x3x512 .f32).view.loc (nxt c : Thread nD τ))) (W : Waits sig Unit) :
    iprop(cellInv ER (chainRd m ρ) (K (c, 1)) (sendCell c) ∗ cellInv ER (chainRd m ρ) (K (nxt c, 2)) (recvCell (nxt c))
        ∗ srcPts m ρ c ∗ scrPts (nxt c) fn
        ∗ owes (c : Thread nD τ) (tallyAt (recvCell (nxt c)) () N) W
        ∗ dutyTok ER (sendCell c) 0 () ∗ reached ER (sendCell c) 0
        ∗ dutyTok ER (recvCell (nxt c)) 0 () ∗ reached ER (recvCell (nxt c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma hM (.remote (Dev.tc n : Thread nD τ) rM (.dma sendS.sem) hsc) (.dma recvS.sem) hsrc hdst hsem) k) Q) := by
  subst hn
  unfold srcPts scrPts
  exact Rounds.wp_send_pointsTo 𝒱₀ ER (chainRd m ρ) (c : Thread nD τ) none (κ₁ := K (c, 1)) (κ₂ := K (nxt c, 2))
    (src := hM) (dst := rM) (c' := (nxt c : Thread nD τ)) (q := fullShare) (fs := xstg m ρ c)
    (r₁ := 0) (r₂ := 0) (d₁ := ()) (d₂ := ()) (fd := fn)
    (by rw [duties_send m ρ c hR]; exact Finset.mem_singleton_self _) (by rw [duties_recv m ρ (nxt c) (hasL_nxt c hR)]; exact Finset.mem_singleton_self _)
    () () N rfl (amount_send m ρ c ()) (amount_recv m ρ (nxt c) ()) 0 (by rw [zero_add]) (W := W)
    (by rw [payload_send]; exact BI.Entails.refl _)
    (by rw [payload_recv]; unfold recvPay scrPts; rw [landed_eq, landed, prv_nxt]; exact BI.Entails.refl _)

/-- What the body starts from on device `c`, the staging buffers at their contents; -/
def bodyIn (c : Dev nD) (W : Waits sig Unit) (f0 : Buf (Elt F) ((rM : Memref sig .tc .vmem S4x3x512 .f32).view.loc (c : Thread nD τ)))
    (d2 : (cc0_stg2_0 : Ref sig .tc).ty.Contents (Elt F)) : sProp 𝕄 :=
  iprop(ghost m ρ K c ∗ cred (tallyAt (barCell c) () (if hasR c then 1 else 0)) ∗ cred (tallyAt (recvCell c) () (if hasL c then N else 0)) ∗ levAts L lv ∗ scrPts c f0
    ∗ owes (c : Thread nD τ) (O₀ c) W
    ∗ (((c : Thread nD τ).loc cc0_stg0_0) ↦{fullShare} xstg m ρ c)
    ∗ (((c : Thread nD τ).loc cc0_stg1_0) ↦{fullShare} kstg m ρ c)
    ∗ (((c : Thread nD τ).loc cc0_stg2_0) ↦{fullShare} d2))

/-- and what it ends with: the landing buffer back, the two own cells closed at zero, nothing owed, the inputs as they were
    and the result block at `outAt`. -/
def bodyOut (c : Dev nD) : sProp 𝕄 :=
  iprop((∃ f, scrPts c f) ∗ semVal (sendCell c) 0 ∗ semVal (recvCell c) 0 ∗ (∃ W', owes (c : Thread nD τ) 0 W')
    ∗ (((c : Thread nD τ).loc cc0_stg0_0) ↦{fullShare} xstg m ρ c)
    ∗ (((c : Thread nD τ).loc cc0_stg1_0) ↦{fullShare} kstg m ρ c)
    ∗ (((c : Thread nD τ).loc cc0_stg2_0) ↦{fullShare} outAt m ρ c))

end Cert.Kernel.Halo

end
-- ==== Proof.KBody.lean ====
/-
  The body of one device, stepped rule by rule from the protocol's ghost state, in the three shapes the chain has:
  a device with both neighbours, the first device, the last device.
-/
import proofs.«900353_g7700000000000354_dist_gconv1d_seqshard_i_b4_s1024_c512_v7x_i32_bf16_1_alg».proof.Proof.KBodyDefs

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 3 → ℕ)

set_option maxHeartbeats 1600000 in
/-- A device with both neighbours: signal left, load, wait for the right neighbour's signal, copy right, compute and store,
    wait for the copy's departure, wait for the left neighbour's rows, recompute rows 0–2. -/
theorem body_mid (c : Dev nD) (hL : hasL c) (hR : hasR c) (Kt : PUnit → sProp 𝕄) (W : Waits sig Unit)
    (f0 : Buf (Elt F) ((rM : Memref sig .tc .vmem S4x3x512 .f32).view.loc (c : Thread nD τ))) (d2 : (cc0_stg2_0 : Ref sig .tc).ty.Contents (Elt F)) :
    iprop(bodyIn m ρ K c W f0 d2 ∗ (bodyOut m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, storeSubelements, Prog.lift, Prog.bind_op, Prog.bind_ret, Prog.pure_eq_ret, wp_deviceId]
  have h1 : k0_cond1 c = 1#1 := (cond1_iff c).mpr hL
  have h2 : k0_cond2 c = 1#1 := (cond2_iff c).mpr hR
  have h3 := (cond3_iff c).mpr hR
  have h4 := (cond4_iff c).mpr hL
  simp only [h1, h2, h3, h4, ↓reduceDIte, Prog.bind_op, Prog.bind_ret, Prog.pure_eq_ret]
  simp only [dev1_eq c h1]
  unfold bodyIn ghost invs O₀ O₁
  simp only [if_pos hL, if_pos hR]
  iintro ⟨⟨⟨⟨#HIbar, #HIsnd, #HIrcv, #HIbarP, #HIrcvN⟩, HatB, HatS, HatV, #HrBP, #HrVN, #HrS, #HrV, HtBP, HtVN, HtS⟩, HcB, HcV, #Hlev, Hscr, HO, Hx, Hk, Hout⟩, HK⟩
  -- the signal to the left neighbour's barrier cell: its duty, with this device's landing buffer and that its receive cell is at round 0
  iapply (Rounds.wp_signal 𝒱₀ ER (chainRd m ρ) (c : Thread nD τ) none (dst := (prv c : Thread nD τ)) (sem := barS) (r := 0) (k' := (1#32).toNat) (κ := K (prv c, 0))
      (d := ()) (by rw [duties_bar m ρ (prv c) (hasR_prv c hL)]; exact Finset.mem_singleton_self _) (amount_bar m ρ (prv c) ()) ()
      (O₀ := tallyAt (recvCell (nxt c)) () N + tallyAt (barCell (prv c)) () 1) (tallyAt (recvCell (nxt c)) () N) rfl (W := W) (Es := Set.univ))
    $$ [HO HtBP Hscr]
  · isplitr; · iexact HIbarP
    isplitl [HO]; · iexact HO
    isplitl [HtBP]; · iexact HtBP
    isplitl [Hscr]
    · rw [payload_bar]; unfold barPay; rw [nxt_prv]
      isplitl [Hscr]; · iexists f0; iexact Hscr
      iexact HrV
    · iexact HrBP
  iintro HO
  -- the two loads
  iapply (wp_load 𝒱₀ (c : Thread nD τ) none Set.univ (m := xM) (Finset.subset_univ _)) $$ Hx; iintro Hx
  rw [read_x]
  iapply (wp_load 𝒱₀ (c : Thread nD τ) none Set.univ (m := kM) (Finset.subset_univ _)) $$ Hk; iintro Hk
  rw [read_k]
  -- the wait for one unit on its own barrier cell, owing the right neighbour's receive credit: that neighbour's landing buffer comes with it
  iapply (Rounds.wp_wait_rest_token 𝒱₀ ER (chainRd m ρ) (c : Thread nD τ) none (sm := .reg barS) (k' := (1#32).toNat) (κ := K (c, 0))
      (wpE_semWait_eq 𝒱₀ (c : Thread nD τ) none Set.univ) (Set.mem_univ _) () (O := tallyAt (recvCell (nxt c)) () N) (W := W) (R := 0) (m := 0) (T := ∅)
      (by rw [expect_bar m ρ c hR]; decide)) $$ [HcB HO HatB]
  · isplitr; · iexact HIbar
    isplitl [HcB]; · iexact HcB
    isplitl [HO]; · iexact HO
    isplitr; · iapply (mayWait_bar c N); iexact Hlev
    iexact HatB
  iintro ⟨HO, HatB, -, Hpay⟩
  ihave Hp := (Entails.of_eq (rest_bar m ρ c hR)) $$ Hpay
  unfold barPay
  icases Hp with ⟨⟨%fn, HscrN⟩, #HrVN'⟩
  -- the copy of the last three rows to the right neighbour: the rows are carved out of the staged block for the flight
  ihave Hx2 := (pointsTo_split_subset (src_subset c)).1 $$ Hx
  icases Hx2 with ⟨Hsrc, Hxrest⟩
  iapply (wp_send_chain m ρ K c _ hR (dev2_eq c h2 _) fn (insert (SemLoc.reg barS, ()) W)) $$ [Hsrc HscrN HO HtS HtVN]
  · isplitr; · iexact HIsnd
    isplitr; · iexact HIrcvN
    isplitl [Hsrc]; · unfold srcPts; iexact Hsrc
    isplitl [HscrN]; · iexact HscrN
    isplitl [HO]; · iexact HO
    isplitl [HtS]; · iexact HtS
    isplitr; · iexact HrS
    isplitl [HtVN]; · iexact HtVN
    iexact HrVN
  iintro ⟨HcS, HO⟩
  -- the whole block loaded (unused) and stored: the local convolution
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out]
  -- the wait on its send cell: the three source rows back
  iapply (Rounds.wp_wait_rest_token 𝒱₀ ER (chainRd m ρ) (c : Thread nD τ) none (sm := .dma sendS.sem) (k' := (hM : Memref sig .tc .vmem S4x3x512 .f32).view.dmaCredit) (κ := K (c, 1))
      (wpE_waitDma2_eq 𝒱₀ (c : Thread nD τ) none Set.univ (sem := sendS.sem) (src := rM) (dst := hM)) (Set.mem_univ _) () (O := 0) (W := insert (SemLoc.reg barS, ()) W) (R := 0) (m := 0) (T := ∅)
      (by rw [Nat.zero_add, expect_send m ρ c hR])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hsrc := (Entails.of_eq (rest_send m ρ c hR)) $$ Hpay
  unfold sendPay srcPts
  ihave Hx := (pointsTo_split_subset (ℓ := (xM : Memref sig .tc .vmem S4x1024x512 .f32).view.loc (c : Thread nD τ)) (q := fullShare) (f := xstg m ρ c) (src_subset c)).2 $$ [Hsrc Hxrest]
  · isplitl [Hsrc]; · iexact Hsrc
    iexact Hxrest
  -- the wait on its receive cell: its landing buffer holding the left neighbour's last three rows
  iapply (Rounds.wp_wait_rest_token 𝒱₀ ER (chainRd m ρ) (c : Thread nD τ) none (sm := .dma recvS.sem) (k' := N) (κ := K (c, 2))
      (wpE_waitDma2_eq 𝒱₀ (c : Thread nD τ) none Set.univ (sem := recvS.sem) (src := hM) (dst := rM)) (Set.mem_univ _) () (O := 0)
      (W := insert (SemLoc.dma sendS.sem, ()) (insert (SemLoc.reg barS, ()) W)) (R := 0) (m := 0) (T := ∅)
      (by rw [Nat.zero_add, expect_recv m ρ c hL])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hscr := (Entails.of_eq (rest_recv m ρ c hL)) $$ Hpay
  unfold recvPay scrPts
  -- the two own cells close: their counters at zero are the device's again
  imod (Rounds.cell_close ER (chainRd m ρ) (Set.mem_univ (K (c, 1))) (fun h => h) (R := 0 + 1) (duties_later m ρ (sendCell c))) $$ [HatS] with HzS
  · isplitr; · iexact HIsnd
    iexact HatS
  imod (Rounds.cell_close ER (chainRd m ρ) (Set.mem_univ (K (c, 2))) (fun h => h) (R := 0 + 1) (duties_later m ρ (recvCell c))) $$ [HatV] with HzV
  · isplitr; · iexact HIrcv
    iexact HatV
  -- the landed rows loaded, rows 0–3 of the block read and written back with rows 0–2 recomputed
  iapply (wp_load 𝒱₀ (c : Thread nD τ) none Set.univ (m := rM) (by rw [scr_set]; exact Finset.subset_univ _)) $$ Hscr; iintro Hscr
  rw [read_scr]
  iapply (wp_load 𝒱₀ (c : Thread nD τ) none Set.univ (m := oM) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := r4) (Mk := Finset.univ) (Finset.subset_univ _)) $$ Hout; iintro Hout
  rw [wp_ret]; imodintro
  iapply HK
  unfold bodyOut
  isplitl [Hscr]; · iexists _; unfold scrPts; iexact Hscr
  isplitl [HzS]; · iexact HzS
  isplitl [HzV]; · iexact HzV
  isplitl [HO]; · iexists _; iexact HO
  isplitl [Hx]; · iexact Hx
  isplitl [Hk]; · iexact Hk
  rw [show outAt m ρ c = patched (Out.base (xstg m ρ c) (kstg m ρ c)) (Out.fixRows (xstg m ρ c) (kstg m ρ c) (landed m ρ c)) from if_pos hL]
  iexact Hout

set_option maxHeartbeats 1600000 in
/-- The first device (no left neighbour): wait for the right neighbour's signal, copy right, compute and store, wait for the copy's departure. -/
theorem body_first (c : Dev nD) (hL : ¬ hasL c) (hR : hasR c) (Kt : PUnit → sProp 𝕄) (W : Waits sig Unit)
    (f0 : Buf (Elt F) ((rM : Memref sig .tc .vmem S4x3x512 .f32).view.loc (c : Thread nD τ))) (d2 : (cc0_stg2_0 : Ref sig .tc).ty.Contents (Elt F)) :
    iprop(bodyIn m ρ K c W f0 d2 ∗ (bodyOut m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, storeSubelements, Prog.lift, Prog.bind_op, Prog.bind_ret, Prog.pure_eq_ret, wp_deviceId]
  have h1 : ¬ k0_cond1 c = 1#1 := fun h => hL ((cond1_iff c).mp h)
  have h2 : k0_cond2 c = 1#1 := (cond2_iff c).mpr hR
  have h3 := (cond3_iff c).mpr hR
  have h4 : ¬ (Scalar.cmpi CmpIPredicate.ne (Scalar.extui (Scalar.cmpi CmpIPredicate.sgt (Scalar.remsi (Scalar.divsi c.word 1#32) 32#32) 0#32)) 0#32 = 1#1) := fun h => hL ((cond4_iff c).mp h)
  simp only [h1, h2, h3, h4, ↓reduceDIte, Prog.bind_op, Prog.bind_ret, Prog.pure_eq_ret]
  unfold bodyIn ghost invs O₀ O₁
  simp only [if_neg hL, if_pos hR, tallyAt_zero, add_zero]
  iintro ⟨⟨⟨⟨#HIbar, #HIsnd, #HIrcv, #HIbarP, #HIrcvN⟩, HatB, HatS, HatV, #HrBP, #HrVN, #HrS, #HrV, HtBP, HtVN, HtS⟩, HcB, -, #Hlev, Hscr, HO, Hx, Hk, Hout⟩, HK⟩
  iapply (wp_load 𝒱₀ (c : Thread nD τ) none Set.univ (m := xM) (Finset.subset_univ _)) $$ Hx; iintro Hx
  rw [read_x]
  iapply (wp_load 𝒱₀ (c : Thread nD τ) none Set.univ (m := kM) (Finset.subset_univ _)) $$ Hk; iintro Hk
  rw [read_k]
  iapply (Rounds.wp_wait_rest_token 𝒱₀ ER (chainRd m ρ) (c : Thread nD τ) none (sm := .reg barS) (k' := (1#32).toNat) (κ := K (c, 0))
      (wpE_semWait_eq 𝒱₀ (c : Thread nD τ) none Set.univ) (Set.mem_univ _) () (O := tallyAt (recvCell (nxt c)) () N) (W := W) (R := 0) (m := 0) (T := ∅)
      (by rw [expect_bar m ρ c hR]; decide)) $$ [HcB HO HatB]
  · isplitr; · iexact HIbar
    isplitl [HcB]; · iexact HcB
    isplitl [HO]; · iexact HO
    isplitr; · iapply (mayWait_bar c N); iexact Hlev
    iexact HatB
  iintro ⟨HO, HatB, -, Hpay⟩
  ihave Hp := (Entails.of_eq (rest_bar m ρ c hR)) $$ Hpay
  unfold barPay
  icases Hp with ⟨⟨%fn, HscrN⟩, #HrVN'⟩
  ihave Hx2 := (pointsTo_split_subset (src_subset c)).1 $$ Hx
  icases Hx2 with ⟨Hsrc, Hxrest⟩
  iapply (wp_send_chain m ρ K c _ hR (dev2_eq c h2 _) fn (insert (SemLoc.reg barS, ()) W)) $$ [Hsrc HscrN HO HtS HtVN]
  · isplitr; · iexact HIsnd
    isplitr; · iexact HIrcvN
    isplitl [Hsrc]; · unfold srcPts; iexact Hsrc
    isplitl [HscrN]; · iexact HscrN
    isplitl [HO]; · iexact HO
    isplitl [HtS]; · iexact HtS
    isplitr; · iexact HrS
    isplitl [HtVN]; · iexact HtVN
    iexact HrVN
  iintro ⟨HcS, HO⟩
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out]
  iapply (Rounds.wp_wait_rest_token 𝒱₀ ER (chainRd m ρ) (c : Thread nD τ) none (sm := .dma sendS.sem) (k' := (hM : Memref sig .tc .vmem S4x3x512 .f32).view.dmaCredit) (κ := K (c, 1))
      (wpE_waitDma2_eq 𝒱₀ (c : Thread nD τ) none Set.univ (sem := sendS.sem) (src := rM) (dst := hM)) (Set.mem_univ _) () (O := 0) (W := insert (SemLoc.reg barS, ()) W) (R := 0) (m := 0) (T := ∅)
      (by rw [Nat.zero_add, expect_send m ρ c hR])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hsrc := (Entails.of_eq (rest_send m ρ c hR)) $$ Hpay
  unfold sendPay srcPts
  ihave Hx := (pointsTo_split_subset (ℓ := (xM : Memref sig .tc .vmem S4x1024x512 .f32).view.loc (c : Thread nD τ)) (q := fullShare) (f := xstg m ρ c) (src_subset c)).2 $$ [Hsrc Hxrest]
  · isplitl [Hsrc]; · iexact Hsrc
    iexact Hxrest
  imod (Rounds.cell_close ER (chainRd m ρ) (Set.mem_univ (K (c, 1))) (fun h => h) (R := 0 + 1) (duties_later m ρ (sendCell c))) $$ [HatS] with HzS
  · isplitr; · iexact HIsnd
    iexact HatS
  imod (Rounds.cell_close ER (chainRd m ρ) (Set.mem_univ (K (c, 2))) (fun h => h) (R := 0) (duties_recv_none m ρ c hL)) $$ [HatV] with HzV
  · isplitr; · iexact HIrcv
    iexact HatV
  rw [wp_ret]; imodintro
  iapply HK
  unfold bodyOut
  isplitl [Hscr]; · iexists _; iexact Hscr
  isplitl [HzS]; · iexact HzS
  isplitl [HzV]; · iexact HzV
  isplitl [HO]; · iexists _; iexact HO
  isplitl [Hx]; · iexact Hx
  isplitl [Hk]; · iexact Hk
  rw [show outAt m ρ c = Out.base (xstg m ρ c) (kstg m ρ c) from if_neg hL]
  iexact Hout

set_option maxHeartbeats 1600000 in
/-- The last device (no right neighbour): signal left, compute and store, wait for the left neighbour's rows, recompute rows 0–2. -/
theorem body_last (c : Dev nD) (hL : hasL c) (hR : ¬ hasR c) (Kt : PUnit → sProp 𝕄) (W : Waits sig Unit)
    (f0 : Buf (Elt F) ((rM : Memref sig .tc .vmem S4x3x512 .f32).view.loc (c : Thread nD τ))) (d2 : (cc0_stg2_0 : Ref sig .tc).ty.Contents (Elt F)) :
    iprop(bodyIn m ρ K c W f0 d2 ∗ (bodyOut m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, storeSubelements, Prog.lift, Prog.bind_op, Prog.bind_ret, Prog.pure_eq_ret, wp_deviceId]
  have h1 : k0_cond1 c = 1#1 := (cond1_iff c).mpr hL
  have h2 : ¬ k0_cond2 c = 1#1 := fun h => hR ((cond2_iff c).mp h)
  have h3 : ¬ (Scalar.cmpi CmpIPredicate.ne (Scalar.extui (Scalar.cmpi CmpIPredicate.slt (Scalar.remsi (Scalar.divsi c.word 1#32) 32#32) 31#32)) 0#32 = 1#1) := fun h => hR ((cond3_iff c).mp h)
  have h4 := (cond4_iff c).mpr hL
  simp only [h1, h2, h3, h4, ↓reduceDIte, Prog.bind_op, Prog.bind_ret, Prog.pure_eq_ret]
  simp only [dev1_eq c h1]
  unfold bodyIn ghost invs O₀ O₁
  simp only [if_pos hL, if_neg hR, tallyAt_zero, zero_add]
  iintro ⟨⟨⟨⟨#HIbar, #HIsnd, #HIrcv, #HIbarP, #HIrcvN⟩, HatB, HatS, HatV, #HrBP, #HrVN, #HrS, #HrV, HtBP, HtVN, HtS⟩, -, HcV, #Hlev, Hscr, HO, Hx, Hk, Hout⟩, HK⟩
  iapply (Rounds.wp_signal 𝒱₀ ER (chainRd m ρ) (c : Thread nD τ) none (dst := (prv c : Thread nD τ)) (sem := barS) (r := 0) (k' := (1#32).toNat) (κ := K (prv c, 0))
      (d := ()) (by rw [duties_bar m ρ (prv c) (hasR_prv c hL)]; exact Finset.mem_singleton_self _) (amount_bar m ρ (prv c) ()) ()
      (O₀ := tallyAt (barCell (prv c)) () 1) 0 (zero_add _).symm (W := W) (Es := Set.univ))
    $$ [HO HtBP Hscr]
  · isplitr; · iexact HIbarP
    isplitl [HO]; · iexact HO
    isplitl [HtBP]; · iexact HtBP
    isplitl [Hscr]
    · rw [payload_bar]; unfold barPay; rw [nxt_prv]
      isplitl [Hscr]; · iexists f0; iexact Hscr
      iexact HrV
    · iexact HrBP
  iintro HO
  iapply (wp_load 𝒱₀ (c : Thread nD τ) none Set.univ (m := xM) (Finset.subset_univ _)) $$ Hx; iintro Hx
  rw [read_x]
  iapply (wp_load 𝒱₀ (c : Thread nD τ) none Set.univ (m := kM) (Finset.subset_univ _)) $$ Hk; iintro Hk
  rw [read_k]
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out]
  iapply (Rounds.wp_wait_rest_token 𝒱₀ ER (chainRd m ρ) (c : Thread nD τ) none (sm := .dma recvS.sem) (k' := N) (κ := K (c, 2))
      (wpE_waitDma2_eq 𝒱₀ (c : Thread nD τ) none Set.univ (sem := recvS.sem) (src := hM) (dst := rM)) (Set.mem_univ _) () (O := 0) (W := W) (R := 0) (m := 0) (T := ∅)
      (by rw [Nat.zero_add, expect_recv m ρ c hL])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hscr := (Entails.of_eq (rest_recv m ρ c hL)) $$ Hpay
  unfold recvPay scrPts
  imod (Rounds.cell_close ER (chainRd m ρ) (Set.mem_univ (K (c, 1))) (fun h => h) (R := 0) (duties_send_none m ρ c hR)) $$ [HatS] with HzS
  · isplitr; · iexact HIsnd
    iexact HatS
  imod (Rounds.cell_close ER (chainRd m ρ) (Set.mem_univ (K (c, 2))) (fun h => h) (R := 0 + 1) (duties_later m ρ (recvCell c))) $$ [HatV] with HzV
  · isplitr; · iexact HIrcv
    iexact HatV
  iapply (wp_load 𝒱₀ (c : Thread nD τ) none Set.univ (m := rM) (by rw [scr_set]; exact Finset.subset_univ _)) $$ Hscr; iintro Hscr
  rw [read_scr]
  iapply (wp_load 𝒱₀ (c : Thread nD τ) none Set.univ (m := oM) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := r4) (Mk := Finset.univ) (Finset.subset_univ _)) $$ Hout; iintro Hout
  rw [wp_ret]; imodintro
  iapply HK
  unfold bodyOut
  isplitl [Hscr]; · iexists _; unfold scrPts; iexact Hscr
  isplitl [HzS]; · iexact HzS
  isplitl [HzV]; · iexact HzV
  isplitl [HO]; · iexists _; iexact HO
  isplitl [Hx]; · iexact Hx
  isplitl [Hk]; · iexact Hk
  rw [show outAt m ρ c = patched (Out.base (xstg m ρ c) (kstg m ρ c)) (Out.fixRows (xstg m ρ c) (kstg m ρ c) (landed m ρ c)) from if_pos hL]
  iexact Hout

/-- The body on any device of the chain. -/
theorem sound_body (c : Dev nD) (Kt : PUnit → sProp 𝕄) (W : Waits sig Unit)
    (f0 : Buf (Elt F) ((rM : Memref sig .tc .vmem S4x3x512 .f32).view.loc (c : Thread nD τ))) (d2 : (cc0_stg2_0 : Ref sig .tc).ty.Contents (Elt F)) :
    iprop(bodyIn m ρ K c W f0 d2 ∗ (bodyOut m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  by_cases hL : hasL c
  · by_cases hR : hasR c
    · exact body_mid m ρ K c hL hR Kt W f0 d2
    · exact body_last m ρ K c hL hR Kt W f0 d2
  · exact body_first m ρ K c hL ((hasL_or_hasR c).resolve_left hL) Kt W f0 d2

end Cert.Kernel.Halo

end
-- ==== Proof.KLaunch.lean ====
/-
  The launch of the halo exchange on the 32 devices: the proof data of the one pipeline, the body obligation from the
  body's lemma, the protocol's ghost state dealt to the devices, the credit each device starts with, and the run.

  The barrier semaphore is not scoped to the launch, so its cell's invariant is allocated for all devices at once, under the
  one global step, beside the send and receive cells. Every device receives the duty tokens of the cells it may pay:
  its left neighbour's barrier cell, its right neighbour's receive cell, its own send cell (around the closed ring of
  32 positions; a token whose duty the chain does not have — the first device's for "its left neighbour" — is never used).
  A device's launch credit is what the others owe it: one unit on its barrier cell if it has a right neighbour, the
  copy's credit on its receive cell if it has a left one.
-/
import proofs.«900353_g7700000000000354_dist_gconv1d_seqshard_i_b4_s1024_c512_v7x_i32_bf16_1_alg».proof.Proof.KBody
import proofs.«900353_g7700000000000354_dist_gconv1d_seqshard_i_b4_s1024_c512_v7x_i32_bf16_1_alg».proof.Proof.Gen.Kernel.Points

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- What device `c`'s body starts from: the ghost state at some names, its two credit tokens and the level facts. -/
def start (c : Dev nD) : sProp 𝕄 :=
  iprop((∃ K, ghost m ρ K c) ∗ cred (tallyAt (barCell c) () (if hasR c then 1 else 0)) ∗ cred (tallyAt (recvCell c) () (if hasL c then N else 0)) ∗ levAts L lv)

def Φ₀ (c : Dev nD) : sProp 𝕄 := iprop(start m ρ c ∗ ∃ f, scrPts c f)
/-- After the point: the landing buffer back, the two own cells at zero, closed. -/
def Φ₁ (c : Dev nD) : sProp 𝕄 := iprop((∃ f, scrPts (F := F) c f) ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => kstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem fetch_0 (t : Fin cfg0.N) : (cfg0.win (0 : Fin 3)).fetch t = true := fetch0_0 t
theorem fetch_1 (t : Fin cfg0.N) : (cfg0.win (1 : Fin 3)).fetch t = true := fetch0_1 t

/-! ## The body obligation -/

set_option maxRecDepth 4000 in
def bodyPre' (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (xstg m ρ c) ∗ stg c cc0_stg1_0 (kstg m ρ c) ∗ stg c cc0_stg2_0 (outAt m ρ c))

set_option maxRecDepth 4000 in
/-- The library's body obligation on device `c`, from the body's lemma. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2) (fun _ => bodyPost m ρ c)
  unfold bodyPre' Φ₀ start
  iintro ⟨⟨⟨⟨%K, Hg⟩, HcB, HcV, Hlev⟩, ⟨%f0, Hscr⟩⟩, Ho, ⟨%d0, %g0, %hg0, Hx⟩, ⟨%d1, %g1, %hg1, Hk⟩, ⟨%d2, %g2, %hg2, Hout⟩⟩
  have hx : g0 = xstg m ρ c := by rw [hg0]; unfold Dat.before; rw [if_pos (fetch_0 t0_0)]; rfl
  have hk : g1 = kstg m ρ c := by rw [hg1]; unfold Dat.before; rw [if_pos (fetch_1 t0_0)]; rfl
  subst hx; subst hk
  unfold Dat.owesAt Pipeline.owesWithin
  icases Ho with ⟨%W, %hW, HO⟩
  rw [show (dats m ρ 0 c).owed t0_0.castSucc = O₀ c from rfl]
  iapply (sound_body m ρ K c (fun _ => bodyPost m ρ c) W f0 g2)
  isplitl
  · unfold bodyIn
    isplitl [Hg]; · iexact Hg
    isplitl [HcB]; · iexact HcB
    isplitl [HcV]; · iexact HcV
    isplitl [Hlev]; · iexact Hlev
    isplitl [Hscr]; · iexact Hscr
    isplitl [HO]; · iexact HO
    isplitl [Hx]; · iexact Hx
    isplitl [Hk]; · iexact Hk
    iexact Hout
  · unfold bodyOut bodyPost Φ₁ Dat.owesAt Pipeline.owesWithin
    rw [show (dats m ρ 0 c).owed t0_0.succ = 0 from rfl]
    iintro ⟨Hscr, HzS, HzV, ⟨%W', HO⟩, Hx, Hk, Hout⟩
    isplitl [Hscr HzS HzV]
    · isplitl [Hscr]; · iexact Hscr
      isplitl [HzS]; · iexact HzS
      iexact HzV
    isplitl [HO]
    · iexists W'
      isplitr; · ipureintro; exact fun _ _ => Or.inl trivial
      iexact HO
    isplitl [Hx]
    · iexists _; isplitr; · (ipureintro; rfl)
      iexact Hx
    isplitl [Hk]
    · iexists _; isplitr; · (ipureintro; rfl)
      iexact Hk
    iexists _; isplitr; · (ipureintro; rfl)
    iexact Hout

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def chainCells : Finset (GSem nD τ sig) := Finset.univ.map ⟨kcell, kcell_injective⟩

/-- One duty token per cell: (device, which cell). -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def chainToks : Finset (GSem nD τ sig × ℕ × Unit) := Finset.univ.map ⟨tokOf, tokOf_injective⟩

def u₀ : UU :=
  (initOf (Pipeline.cells cfgs cellOf_inj) (Pipeline.launchToks cfgs cellOf_inj), initOf chainCells chainToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (chainRd m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
theorem fund_chain : BI.own (ER (initOf chainCells chainToks)) ⊢ (|==> bigSep Finset.univ (G m ρ) : sProp 𝕄) := by
  have hX (Φ : GSem nD τ sig → sProp 𝕄) : bigSep chainCells Φ = bigSep Finset.univ fun c : Dev nD => bigSep Finset.univ fun k : Fin 3 => Φ (kcell (c, k)) := by
    unfold chainCells; rw [bigSep_map, bigSep_univ_prod]; rfl
  have hT : bigSep chainToks (fun x => (dutyTok ER x.1 x.2.1 x.2.2 : sProp 𝕄)) = bigSep Finset.univ fun c : Dev nD => toks c := by
    unfold chainToks; rw [bigSep_map, bigSep_univ_prod]
    exact bigSep_congr fun c _ => by unfold toks; rw [bigSep_fin3]; rfl
  iintro HX
  imod (Rounds.fund ER (chainRd m ρ) chainCells chainToks) $$ HX with ⟨Hst, Hr, Hat, Htok⟩
  imodintro
  ihave Hst' := (Entails.of_eq (hX fun g => roundState ER (chainRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (chainRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (chainRd m ρ) (kcell (c, k)) 0)
      ⊢ (|={Set.univ}=> bigSep Finset.univ fun k => iprop(∃ κ : ℕ, cellInv ER (chainRd m ρ) κ (kcell (c, k))) : sProp 𝕄) from by
        rw [← bigSep_sep']
        exact (bigSep_mono fun k _ => (Rounds.body_intro ER (chainRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (chainRd m ρ) (K ck) (kcell ck))
    ∗ bigSep Finset.univ fun ck : Dev nD × Fin 3 => reached ER (kcell ck) 0)

instance records_persistent (K : Dev nD × Fin 3 → ℕ) : BI.Persistent (records m ρ K) := by unfold records; infer_instance

omit [FloatOps F] in
theorem inv_at (K : Dev nD × Fin 3 → ℕ) (ck : Dev nD × Fin 3) :
    (bigSep Finset.univ fun ck : Dev nD × Fin 3 => (cellInv ER (chainRd m ρ) (K ck) (kcell ck) : sProp 𝕄)) ⊢ cellInv ER (chainRd m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties it may pay. -/
def payToks (c : Dev nD) : sProp 𝕄 :=
  iprop(dutyTok ER (barCell (prv c)) 0 () ∗ dutyTok ER (recvCell (nxt c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

omit [FloatOps F] in
theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtBP, HtVN, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (prv c, 0)); iexact HI
    iapply (inv_at m ρ K (nxt c, 2)); iexact HI
  isplitl [HaB]; · iexact HaB
  isplitl [HaS]; · iexact HaS
  isplitl [HaV]; · iexact HaV
  isplitr; · iapply (reached_at (F := F) (prv c, 0)); iexact HR
  isplitr; · iapply (reached_at (F := F) (nxt c, 2)); iexact HR
  isplitr; · iapply (reached_at (F := F) (c, 1)); iexact HR
  isplitr; · iapply (reached_at (F := F) (c, 2)); iexact HR
  isplitl [HtBP]; · iexact HtBP
  isplitl [HtVN]; · iexact HtVN
  iexact HtS

def ring : Dev nD ≃ Dev nD := ⟨nxt, prv, prv_nxt, nxt_prv⟩

omit [FloatOps F] in
/-- The tokens dealt around the ring of positions: a barrier cell's token one position up (to the device whose left
    neighbour owns the cell), a receive cell's one position down. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv ring.symm (fun c : Dev nD => (dutyTok ER (barCell c) 0 () : sProp 𝕄)),
    bigSep_univ_equiv ring (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (chainRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (chainRd m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (chainRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem hasL_nxt_iff (c : Dev nD) : hasL (nxt c) ↔ hasR c := by revert c; decide
theorem hasR_prv_iff (c : Dev nD) : hasR (prv c) ↔ hasL c := by revert c; decide

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if `c` is its left neighbour. -/
theorem owed_bar (d c : Dev nD) : O₀ d (barCell c) () = if d = nxt c then (if hasL d then 1 else 0) else 0 := by
  unfold O₀ O₁
  rw [Pi.add_apply, Finsupp.add_apply, tallyAt_ne_cell (fun h => recv_ne_bar (congrArg Prod.snd h).symm), tallyAt_apply, Finsupp.zero_apply, Nat.zero_add]
  by_cases h : d = nxt c
  · subst h; rw [prv_nxt, if_pos ⟨rfl, rfl⟩, if_pos rfl]
  · rw [if_neg (fun ⟨h1, _⟩ => h (by rw [← nxt_prv d]; exact congrArg nxt (bar_eq_iff.mp h1).symm)), if_neg h]

omit [FloatOps F] in
/-- What device `d` owes device `c`'s receive cell: the copy's credit if `c` is its right neighbour. -/
theorem owed_recv (d c : Dev nD) : O₀ d (recvCell c) () = if d = prv c then (if hasR d then N else 0) else 0 := by
  unfold O₀ O₁
  rw [Pi.add_apply, Finsupp.add_apply, tallyAt_apply, tallyAt_ne_cell (fun h => recv_ne_bar (congrArg Prod.snd h)), Finsupp.zero_apply, Nat.add_zero]
  by_cases h : d = prv c
  · subst h; rw [nxt_prv, if_pos ⟨rfl, rfl⟩, if_pos rfl]
  · rw [if_neg (fun ⟨h1, _⟩ => h (by rw [← prv_nxt d]; exact congrArg prv (recv_eq_iff.mp h1).symm)), if_neg h]

omit [FloatOps F] in
theorem launch_bar (c : Dev nD) :
    tallyOn (barCell c) (launchCredit (Pipeline.owing O₀) 0 (barCell c)) = (tallyAt (barCell c) () (if hasR c then 1 else 0) : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (nxt c) fun d => if hasL d then 1 else 0, if_pos (Finset.mem_univ _)]
  simp only [hasL_nxt_iff]

omit [FloatOps F] in
theorem launch_recv (c : Dev nD) :
    tallyOn (recvCell c) (launchCredit (Pipeline.owing O₀) 0 (recvCell c)) = (tallyAt (recvCell c) () (if hasL c then N else 0) : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (prv c) fun d => if hasR d then N else 0, if_pos (Finset.mem_univ _)]
  simp only [hasR_prv_iff]

omit [FloatOps F] in
theorem creds (c : Dev nD) :
    (Pipeline.launchCred O₀ c : sProp 𝕄) ⊢ iprop(cred (tallyAt (barCell c) () (if hasR c then 1 else 0)) ∗ cred (tallyAt (recvCell c) () (if hasL c then N else 0))) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨⟨%f, Hr⟩, HzS, HzV⟩
  isplitr; · iempintro
  isplitl [HzS HzV]
  · isplitl [HzS] <;> iassumption
  iexists f; rw [← scrPts_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of 32 devices, for any float values, from any memory with zero counters: every weakly fair
    execution of @main — the kernels shaking hands on the barrier semaphore, then copying their last rows down the chain —
    terminates, and every final state has each windowed array at the contents the proof data computes. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_chain m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ### The computed contents, in closed form -/

/-- The argument arrays are inputs: after the run they hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_k (c : Dev nD) : finalA m ρ c (1 : Fin 3) = (s₀ m ρ).mem (win0_1.arr.view.loc (c : Thread nD τ)) :=
  (dats (F := F) m ρ 0 c).arrAt_in (1 : Fin 3) rfl _

/-- The result array's one block — the whole array — read back is what the body left in the staging buffer. -/
theorem final_out (c : Dev nD) :
    ((cfg0.win (2 : Fin 3)).blk t0_0).view.read (Elt F) (finalA m ρ c (2 : Fin 3)) = (dats (F := F) m ρ 0 c).flushed (2 : Fin 3) t0_0 := by
  unfold finalA
  rw [show cfg0.N = (t0_0 : Fin cfg0.N).val + 1 from rfl, (dats (F := F) m ρ 0 c).arrAt_succ (2 : Fin 3) t0_0]
  rw [show (cfg0.win (2 : Fin 3)).flush t0_0 = true from flush0_2 t0_0, if_pos rfl]
  exact View.read_write_univ _ _

/-- The result array after the run is the body's result block. -/
theorem final_value (c : Dev nD) : finalA m ρ c (2 : Fin 3) = outAt m ρ c := by
  have ho := final_out (F := F) m ρ c
  have hz2 : (fun a => (win0_2.index t0_0) a * main_v1.ty.shape.size a) = fun _ => 0 := funext fun a => by fin_cases a <;> decide
  have hr2 := fun f => Memref.read_access_unit_zero (Elt F) main_v1 hz2 (fun a => by fin_cases a <;> decide) f
  rw [hr2] at ho
  rw [ho]
  show (cfg0.win (2 : Fin 3)).cut _ ((dats (F := F) m ρ 0 c).after 2 t0_0) = _
  rfl

/-- The staged blocks are the argument arrays as launched. -/
theorem xstg_eq (c : Dev nD) : xstg m ρ c = m ((c : Thread nD τ).loc main_arg0) := by
  have hz0 : (fun a => (win0_0.index t0_0) a * main_arg0.ty.shape.size a) = fun _ => 0 := funext fun a => by fin_cases a <;> decide
  exact Memref.read_access_unit_zero (Elt F) main_arg0 hz0 (fun a => by fin_cases a <;> decide) _
theorem kstg_eq (c : Dev nD) : kstg m ρ c = m ((c : Thread nD τ).loc main_arg1) := by
  have hz1 : (fun a => (win0_1.index t0_0) a * main_arg1.ty.shape.size a) = fun _ => 0 := funext fun a => by fin_cases a <;> decide
  exact Memref.read_access_unit_zero (Elt F) main_arg1 hz1 (fun a => by fin_cases a <;> decide) _

end Cert.Kernel.Halo

end
-- ==== Proof.ConvSpec.lean ====
/-
  The one-dimensional causal convolution with four taps followed by the activation o / (1 + e^(-o)), as
  plain functions of extended reals, and the two ways rows are padded on the left: by three zero rows, or by
  three given rows.
-/
import Idealize.ShloMosaic.PureOps.Ideal
import Idealize.ShloMosaic.Lib.ValueIdx

noncomputable section

namespace Cert.ConvSpec

open Idealize.ShloMosaic

/-- The activation: `o / (1 + e^(-o))`. -/
def silu (o : EReal) : EReal := Ideal.div o (1 + Ideal.exp (-o))

/-- Four taps accumulated from zero, left to right. -/
def taps (p w : Fin 4 → EReal) : EReal := (((0 + p 0 * w 0) + p 1 * w 1) + p 2 * w 2) + p 3 * w 3

/-- The exponential is never negative. -/
theorem exp_nonneg (z : EReal) : 0 ≤ Ideal.exp z := by
  induction z using EReal.rec with
  | bot => exact le_of_eq rfl
  | coe r =>
    rw [Ideal.exp_coe]
    exact EReal.coe_nonneg.mpr (Real.exp_pos r).le
  | top => exact le_top

/-- One plus an exponential is never zero. -/
theorem one_add_exp_ne_zero (z : EReal) : (1 : EReal) + Ideal.exp z ≠ 0 := by
  have h : (0 : EReal) < 1 + Ideal.exp z :=
    lt_of_lt_of_le zero_lt_one (le_add_of_nonneg_right (exp_nonneg z))
  exact h.ne'

/-- `o` times the logistic of `o` is the activation, at the infinities too. -/
theorem mul_logistic (o : EReal) : o * Ideal.logistic o = silu o := by
  unfold silu Ideal.logistic Ideal.div
  rw [if_neg (one_add_exp_ne_zero (-o)), if_neg (one_add_exp_ne_zero (-o)), one_mul]

/-- Starting the accumulation from the first product instead of from zero changes nothing. -/
theorem taps_nozero (p w : Fin 4 → EReal) : ((p 0 * w 0 + p 1 * w 1) + p 2 * w 2) + p 3 * w 3 = taps p w := by
  unfold taps
  rw [zero_add]

/-- row j of the rows `x` (n of them) after three zero rows -/
def padded {n : Nat} (x : Fin n → EReal) (j : Nat) : EReal := if h : 3 ≤ j ∧ j - 3 < n then x ⟨j - 3, h.2⟩ else 0

/-- row j of three halo rows followed by the rows `x` -/
def haloed {n : Nat} (hrow : Fin 3 → EReal) (x : Fin n → EReal) (j : Nat) : EReal :=
  if h : j < 3 then hrow ⟨j, h⟩ else if h' : j - 3 < n then x ⟨j - 3, h'⟩ else 0

end Cert.ConvSpec

end
-- ==== Proof.KernelValue.lean ====
/-
  What one device stores, read at an index. The first store is, at (b, s, ch), the four-tap convolution of the
  device's own rows, three zero rows put before them, with the columns of k, followed by o / (1 + e^(-o)); the
  second store is the same at rows 0, 1, 2 with the three rows before the device's own being the halo rows.
-/
import proofs.«900353_g7700000000000354_dist_gconv1d_seqshard_i_b4_s1024_c512_v7x_i32_bf16_1_alg».proof.Proof.Out
import proofs.«900353_g7700000000000354_dist_gconv1d_seqshard_i_b4_s1024_c512_v7x_i32_bf16_1_alg».proof.Proof.ConvSpec
import Idealize.ShloMosaic.Lib.ValueLayout
import Idealize.ShloMosaic.Lib.IdealHost

noncomputable section

namespace Cert.KernelIdeal.KValue

open Idealize.ShloMosaic Idealize.ShloMosaic.ValueIdx Cert.KernelIdeal Cert.ConvSpec

/-! ## The layout operations of the body, read at an index -/

/-- Row t of the 4 × 512 taps, as a vector of 512, as a 1 × 1 × 512 array, broadcast over batch and rows: at
    (b, s, ch) it is the tap at (t, ch). -/
theorem tapRow_apply {n0 n1 : Nat} (t : Nat) (ht : t < 4) (V : (⟨2, ![4, 512]⟩ : Shape).Idx → EReal)
    (h1 : (⟨2, ![4, 512]⟩ : Shape).Slices ![t, 0] ⟨2, ![1, 512]⟩)
    (h2 : (⟨2, ![1, 512]⟩ : Shape).ShapeCasts ⟨1, ![512]⟩)
    (h3 : (⟨1, ![512]⟩ : Shape).ShapeCasts ⟨3, ![1, 1, 512]⟩)
    (h4 : (⟨3, ![1, 1, 512]⟩ : Shape).Broadcasts ⟨3, ![n0, n1, 512]⟩)
    (b : Fin n0) (s : Fin n1) (ch : Fin 512) :
    broadcastTo ⟨3, ![n0, n1, 512]⟩ (shapeCast ⟨3, ![1, 1, 512]⟩ (shapeCast ⟨1, ![512]⟩
      (extractStridedSlice ⟨2, ![1, 512]⟩ ![t, 0] V h1) h2) h3) h4 (ix3 b s ch) = V (ix2 ⟨t, ht⟩ ch) := by
  refine (broadcastTo_apply _ h4 (ix3 b s ch) (ix3 (0 : Fin 1) (0 : Fin 1) ch) (fun a => ?_)).trans ?_
  · match a with
    | ⟨0, _⟩ => show 0 = if (1 : Nat) = 1 then 0 else _; rw [if_pos rfl]
    | ⟨1, _⟩ => show 0 = if (1 : Nat) = 1 then 0 else _; rw [if_pos rfl]
    | ⟨2, _⟩ => show ch.val = if (512 : Nat) = 1 then 0 else ch.val; rw [if_neg (by decide)]
  refine (shapeCast_apply _ h3 (ix3 (0 : Fin 1) (0 : Fin 1) ch) (ix1 ch) ?_).trans ?_
  · rw [Shape.rowMajor_val_three, Shape.rowMajor_val_one]
    show ch.val = (0 * 1 + 0) * 512 + ch.val
    omega
  rw [shapeCast_1a_a_apply]
  exact slice2_axis0_apply t V h1 (0 : Fin 1) ch ⟨t, ht⟩ (by show t = t + 0; rfl)

/-- The same when the row is already a vector of 512. -/
theorem vecRow_apply {n0 n1 : Nat} (v : (⟨1, ![512]⟩ : Shape).Idx → EReal)
    (h3 : (⟨1, ![512]⟩ : Shape).ShapeCasts ⟨3, ![1, 1, 512]⟩)
    (h4 : (⟨3, ![1, 1, 512]⟩ : Shape).Broadcasts ⟨3, ![n0, n1, 512]⟩)
    (b : Fin n0) (s : Fin n1) (ch : Fin 512) :
    broadcastTo ⟨3, ![n0, n1, 512]⟩ (shapeCast ⟨3, ![1, 1, 512]⟩ v h3) h4 (ix3 b s ch) = v (ix1 ch) := by
  refine (broadcastTo_apply _ h4 (ix3 b s ch) (ix3 (0 : Fin 1) (0 : Fin 1) ch) (fun a => ?_)).trans ?_
  · match a with
    | ⟨0, _⟩ => show 0 = if (1 : Nat) = 1 then 0 else _; rw [if_pos rfl]
    | ⟨1, _⟩ => show 0 = if (1 : Nat) = 1 then 0 else _; rw [if_pos rfl]
    | ⟨2, _⟩ => show ch.val = if (512 : Nat) = 1 then 0 else ch.val; rw [if_neg (by decide)]
  refine shapeCast_apply _ h3 (ix3 (0 : Fin 1) (0 : Fin 1) ch) (ix1 ch) ?_
  rw [Shape.rowMajor_val_three, Shape.rowMajor_val_one]
  show ch.val = (0 * 1 + 0) * 512 + ch.val
  omega

/-- Row t of the taps as a vector of 512, at ch. -/
theorem tapVec_apply (t : Nat) (ht : t < 4) (V : (⟨2, ![4, 512]⟩ : Shape).Idx → EReal)
    (h1 : (⟨2, ![4, 512]⟩ : Shape).Slices ![t, 0] ⟨2, ![1, 512]⟩)
    (h2 : (⟨2, ![1, 512]⟩ : Shape).ShapeCasts ⟨1, ![512]⟩) (ch : Fin 512) :
    shapeCast ⟨1, ![512]⟩ (extractStridedSlice ⟨2, ![1, 512]⟩ ![t, 0] V h1) h2 (ix1 ch) = V (ix2 ⟨t, ht⟩ ch) := by
  rw [shapeCast_1a_a_apply]
  exact slice2_axis0_apply t V h1 (0 : Fin 1) ch ⟨t, ht⟩ (by show t = t + 0; rfl)

/-- Three zero rows followed by n rows, read at row j. -/
theorem zeroCat_apply {n m : Nat} (hm : m = 3 + n) (z : EReal) (hz : z = 0) (Y : (⟨3, ![4, n, 512]⟩ : Shape).Idx → EReal)
    (h : Shape.Concatenates [⟨3, ![4, 3, 512]⟩, ⟨3, ![4, n, 512]⟩] ⟨3, ![4, m, 512]⟩ 1)
    (b : Fin 4) (j : Fin m) (ch : Fin 512) :
    concatenate ⟨3, ![4, m, 512]⟩ 1 [⟨⟨3, ![4, 3, 512]⟩, broadcast ⟨3, ![4, 3, 512]⟩ z⟩, ⟨⟨3, ![4, n, 512]⟩, Y⟩] h (ix3 b j ch)
      = padded (fun r : Fin n => Y (ix3 b r ch)) j.val := by
  have hj : j.val < m := j.isLt
  unfold padded
  by_cases h3 : j.val < 3
  · rw [concatenate_pair_apply_left (t := ⟨3, ![4, m, 512]⟩) (s₁ := ⟨3, ![4, 3, 512]⟩) (s₂ := ⟨3, ![4, n, 512]⟩) (1 : Fin 3) _ Y h (ix3 b j ch) rfl (ix3 b ⟨j.val, h3⟩ ch)
      (fun a => by match a with | ⟨0, _⟩ => rfl | ⟨1, _⟩ => rfl | ⟨2, _⟩ => rfl)]
    rw [dif_neg (by omega)]
    exact hz
  · have h3' : j.val - 3 < n := by omega
    rw [concatenate_pair_apply_right (t := ⟨3, ![4, m, 512]⟩) (s₁ := ⟨3, ![4, 3, 512]⟩) (s₂ := ⟨3, ![4, n, 512]⟩) (1 : Fin 3) _ Y h (ix3 b j ch) rfl rfl (ix3 b ⟨j.val - 3, h3'⟩ ch)
      (fun a ha => by
        match a with
        | ⟨0, _⟩ => rfl
        | ⟨1, _⟩ => exact absurd rfl ha
        | ⟨2, _⟩ => rfl)
      (by show j.val - 3 + 3 = j.val; omega)]
    rw [dif_pos ⟨by omega, h3'⟩]

/-- Three halo rows followed by the first three of n rows, read at row j. -/
theorem haloCat_apply (Hh : (⟨3, ![4, 3, 512]⟩ : Shape).Idx → EReal) (Y : (⟨3, ![4, 1024, 512]⟩ : Shape).Idx → EReal)
    (hs : (⟨3, ![4, 1024, 512]⟩ : Shape).Slices ![0, 0, 0] ⟨3, ![4, 3, 512]⟩)
    (h : Shape.Concatenates [⟨3, ![4, 3, 512]⟩, ⟨3, ![4, 3, 512]⟩] ⟨3, ![4, 6, 512]⟩ 1)
    (b : Fin 4) (j : Fin 6) (ch : Fin 512) :
    concatenate ⟨3, ![4, 6, 512]⟩ 1 [⟨⟨3, ![4, 3, 512]⟩, Hh⟩,
        ⟨⟨3, ![4, 3, 512]⟩, extractStridedSlice ⟨3, ![4, 3, 512]⟩ ![0, 0, 0] Y hs⟩] h (ix3 b j ch)
      = haloed (fun q : Fin 3 => Hh (ix3 b q ch)) (fun q : Fin 1024 => Y (ix3 b q ch)) j.val := by
  have hj : j.val < 6 := j.isLt
  unfold haloed
  by_cases h3 : j.val < 3
  · rw [concatenate_pair_apply_left (t := ⟨3, ![4, 6, 512]⟩) (s₁ := ⟨3, ![4, 3, 512]⟩) (s₂ := ⟨3, ![4, 3, 512]⟩) (1 : Fin 3) Hh _ h (ix3 b j ch) rfl (ix3 b ⟨j.val, h3⟩ ch)
      (fun a => by match a with | ⟨0, _⟩ => rfl | ⟨1, _⟩ => rfl | ⟨2, _⟩ => rfl)]
    rw [dif_pos h3]
  · have h3' : j.val - 3 < 3 := by omega
    have h4 : j.val - 3 < 1024 := by omega
    rw [concatenate_pair_apply_right (t := ⟨3, ![4, 6, 512]⟩) (s₁ := ⟨3, ![4, 3, 512]⟩) (s₂ := ⟨3, ![4, 3, 512]⟩) (1 : Fin 3) Hh _ h (ix3 b j ch) rfl rfl (ix3 b ⟨j.val - 3, h3'⟩ ch)
      (fun a ha => by
        match a with
        | ⟨0, _⟩ => rfl
        | ⟨1, _⟩ => exact absurd rfl ha
        | ⟨2, _⟩ => rfl)
      (by show j.val - 3 + 3 = j.val; omega)]
    rw [dif_neg h3, dif_pos h4]
    exact slice3_axis1_apply 0 Y hs b ⟨j.val - 3, h3'⟩ ch ⟨j.val - 3, h4⟩ (by show j.val - 3 = 0 + (j.val - 3); omega)

/-! ## The payloads at an index -/

/-- The logistic of a vector, read at an index. -/
theorem logistic_apply {s : Shape} {φ : FTy} (a : FVec Ideal s φ) (i : s.Idx) : logistic a i = Ideal.logistic (a i) := rfl

/-- The device's rows, converted: the same rows. -/
theorem pay3_eq (X : Vec Ideal S4x1024x512 .f32) : Gen.k0_pay3 (F := Ideal) X = X := by
  unfold Gen.k0_pay3
  funext i
  show shapeCast S4x1024x512 X _ i = X i
  rw [shapeCast_self]

/-- The taps, converted: the same taps. -/
theorem pay4_eq (K : Vec Ideal S4x512 .f32) : Gen.k0_pay4 (F := Ideal) K = K := by
  unfold Gen.k0_pay4
  funext i
  show shapeCast S4x512 K _ i = K i
  rw [shapeCast_self]

/-- The device's rows after three zero rows. -/
theorem pay5_apply (X : Vec Ideal S4x1024x512 .f32) (b : Fin 4) (j : Fin 1027) (ch : Fin 512) :
    Gen.k0_pay5 (F := Ideal) X (ix3 b j ch) = padded (fun r : Fin 1024 => X (ix3 b r ch)) j.val := by
  unfold Gen.k0_pay5
  rw [pay3_eq]
  exact zeroCat_apply (n := 1024) (m := 1027) rfl _ Ideal.ofBits_zero_bf16 X _ b j ch

/-- The first product: the padded rows at s + 0 times tap 0. -/
theorem pay6_apply (X : Vec Ideal S4x1024x512 .f32) (K : Vec Ideal S4x512 .f32) (b : Fin 4) (s : Fin 1024) (ch : Fin 512) :
    Gen.k0_pay6 (F := Ideal) X K (ix3 b s ch)
      = padded (fun r : Fin 1024 => X (ix3 b r ch)) (s.val + 0) * K (ix2 (0 : Fin 4) ch) := by
  have hs : s.val < 1024 := s.isLt
  unfold Gen.k0_pay6
  rw [pay4_eq]
  simp only [mulf_apply]
  rw [tapRow_apply 0 (by omega) K,
    slice3_axis1_apply 0 (Gen.k0_pay5 (F := Ideal) X) _ b s ch ⟨s.val + 0, by omega⟩ (by show s.val + 0 = 0 + s.val; omega),
    pay5_apply]
  rfl

/-- The second factor's rows: the padded rows at s + 1. -/
theorem pay7_apply (X : Vec Ideal S4x1024x512 .f32) (b : Fin 4) (s : Fin 1024) (ch : Fin 512) :
    Gen.k0_pay7 (F := Ideal) X (ix3 b s ch) = padded (fun r : Fin 1024 => X (ix3 b r ch)) (s.val + 1) := by
  have hs : s.val < 1024 := s.isLt
  unfold Gen.k0_pay7
  rw [slice3_axis1_apply 1 (Gen.k0_pay5 (F := Ideal) X) _ b s ch ⟨s.val + 1, by omega⟩ (by show s.val + 1 = 1 + s.val; omega),
    pay5_apply]

/-- Tap 1 as a vector of 512. -/
theorem pay8_apply (K : Vec Ideal S4x512 .f32) (ch : Fin 512) :
    Gen.k0_pay8 (F := Ideal) K (ix1 ch) = K (ix2 (1 : Fin 4) ch) := by
  unfold Gen.k0_pay8
  rw [pay4_eq]
  exact tapVec_apply 1 (by omega) K _ _ ch

/-- The first store's value, over whatever the earlier values are. -/
theorem pay1_apply (v24 : FVec Ideal S4x512 .bf16) (v26 : FVec Ideal S4x1027x512 .bf16) (v32 v35 : FVec Ideal S4x1024x512 .bf16)
    (v37 : FVec Ideal S512 .bf16) (b : Fin 4) (s : Fin 1024) (ch : Fin 512)
    (h2 : s.val + 2 < 1027) (h3 : s.val + 3 < 1027) :
    Gen.k0_pay1 (F := Ideal) v24 v26 v32 v35 v37 (ix3 b s ch)
      = (((v32 (ix3 b s ch) + v35 (ix3 b s ch) * v37 (ix1 ch)) + v26 (ix3 b ⟨s.val + 2, h2⟩ ch) * v24 (ix2 (2 : Fin 4) ch))
          + v26 (ix3 b ⟨s.val + 3, h3⟩ ch) * v24 (ix2 (3 : Fin 4) ch))
        * Ideal.logistic (((v32 (ix3 b s ch) + v35 (ix3 b s ch) * v37 (ix1 ch)) + v26 (ix3 b ⟨s.val + 2, h2⟩ ch) * v24 (ix2 (2 : Fin 4) ch))
          + v26 (ix3 b ⟨s.val + 3, h3⟩ ch) * v24 (ix2 (3 : Fin 4) ch)) := by
  unfold Gen.k0_pay1
  simp only [mulf_apply, addf_apply, logistic_apply]
  rw [vecRow_apply v37, tapRow_apply 2 (by omega) v24, tapRow_apply 3 (by omega) v24,
    slice3_axis1_apply 2 v26 _ b s ch ⟨s.val + 2, h2⟩ (by show s.val + 2 = 2 + s.val; omega),
    slice3_axis1_apply 3 v26 _ b s ch ⟨s.val + 3, h3⟩ (by show s.val + 3 = 3 + s.val; omega)]
  rfl

/-- THE FIRST STORE at (b, s, ch). -/
theorem base_apply (X : Vec Ideal S4x1024x512 .f32) (K : Vec Ideal S4x512 .f32) (b : Fin 4) (s : Fin 1024) (ch : Fin 512) :
    Out.base (F := Ideal) X K (ix3 b s ch)
      = silu (taps (fun t => padded (fun r : Fin 1024 => X (ix3 b r ch)) (s.val + t.val)) (fun t => K (ix2 t ch))) := by
  have hs : s.val < 1024 := s.isLt
  unfold Out.base
  rw [pay1_apply _ _ _ _ _ b s ch (by omega) (by omega), pay6_apply, pay7_apply, pay8_apply, pay5_apply, pay5_apply, pay4_eq,
    mul_logistic]
  exact congrArg silu (taps_nozero (fun t : Fin 4 => padded (fun r : Fin 1024 => X (ix3 b r ch)) (s.val + t.val))
    (fun t : Fin 4 => K (ix2 t ch)))

/-- The second store's value, over whatever the earlier values are. -/
theorem pay2_apply (v21 : FVec Ideal S4x1024x512 .bf16) (v24 : FVec Ideal S4x512 .bf16) (v66 : Vec Ideal S4x3x512 .f32)
    (b : Fin 4) (r : Fin 3) (ch : Fin 512) :
    Gen.k0_pay2 (F := Ideal) v21 v24 v66 (ix3 b r ch)
      = silu (taps (fun t => haloed (fun q : Fin 3 => v66 (ix3 b q ch)) (fun q : Fin 1024 => v21 (ix3 b q ch)) (r.val + t.val))
          (fun t => v24 (ix2 t ch))) := by
  have hr : r.val < 3 := r.isLt
  unfold Gen.k0_pay2
  simp only [mulf_apply, addf_apply, logistic_apply, broadcast_apply]
  rw [tapRow_apply 0 (by omega) v24, tapRow_apply 1 (by omega) v24, tapRow_apply 2 (by omega) v24, tapRow_apply 3 (by omega) v24,
    slice3_axis1_apply 0 _ _ b r ch ⟨r.val + 0, by omega⟩ (by show r.val + 0 = 0 + r.val; omega),
    slice3_axis1_apply 1 _ _ b r ch ⟨r.val + 1, by omega⟩ (by show r.val + 1 = 1 + r.val; omega),
    slice3_axis1_apply 2 _ _ b r ch ⟨r.val + 2, by omega⟩ (by show r.val + 2 = 2 + r.val; omega),
    slice3_axis1_apply 3 _ _ b r ch ⟨r.val + 3, by omega⟩ (by show r.val + 3 = 3 + r.val; omega)]
  rw [haloCat_apply, haloCat_apply, haloCat_apply, haloCat_apply, mul_logistic]
  show silu ((((Ideal.ofBits .bf16 0x0000#16 + _ * _) + _ * _) + _ * _) + _ * _) = _
  rw [Ideal.ofBits_zero_bf16]
  rfl

/-- THE SECOND STORE at (b, r, ch). -/
theorem fixRows_apply (X : Vec Ideal S4x1024x512 .f32) (K : Vec Ideal S4x512 .f32) (H : Vec Ideal S4x3x512 .f32)
    (b : Fin 4) (r : Fin 3) (ch : Fin 512) :
    Out.fixRows (F := Ideal) X K H (ix3 b r ch)
      = silu (taps (fun t => haloed (fun j : Fin 3 => H (ix3 b j ch)) (fun q : Fin 1024 => X (ix3 b q ch)) (r.val + t.val))
          (fun t => K (ix2 t ch))) := by
  unfold Out.fixRows
  rw [pay2_apply, pay3_eq, pay4_eq]

end Cert.KernelIdeal.KValue

end
-- ==== Proof.RefValue.lean ====
/-
  The reference read at an index. Its forty operations compute, at every index (b, S, ch) of the whole array,
  the four-tap causal convolution of the rows of x (three zero rows put before them) with the columns of k,
  accumulated from zero, followed by o / (1 + e^(-o)); the last conversion changes no value over the extended
  reals. `G` is that function; `ref_eq_G` says the reference's result is `G`.
-/
import proofs.«900353_g7700000000000354_dist_gconv1d_seqshard_i_b4_s1024_c512_v7x_i32_bf16_1_alg».proof.Proof.Gen.ReferenceIdeal.Read
import proofs.«900353_g7700000000000354_dist_gconv1d_seqshard_i_b4_s1024_c512_v7x_i32_bf16_1_alg».proof.Proof.ConvSpec
import Idealize.ShloMosaic.Lib.IdealHost

noncomputable section

namespace Cert.ReferenceIdeal.RefValue

open Idealize.ShloMosaic Idealize.ShloMosaic.ValueIdx Cert.ReferenceIdeal Cert.ReferenceIdeal.Read Cert.ConvSpec

/-- the reference's result as one function of the whole arrays -/
def G (x : Vec Ideal Cert.ReferenceIdeal.S4x32768x512 .f32) (k : Vec Ideal Cert.ReferenceIdeal.S4x512 .f32) :
    Cert.ReferenceIdeal.S4x32768x512.Idx → EReal :=
  fun i => silu (taps (fun t => padded (fun r : Fin 32768 => x (ix3 (i 0) r (i 2))) ((i 1).val + t.val))
    (fun t => k (ix2 t (i 2))))

/-- The rows of x after three zero rows, read at an index: row j is zero for j < 3 and row j - 3 of x from there on. -/
theorem v1_apply (x : Vec Ideal S4x32768x512 .f32) (j : S4x32771x512.Idx) :
    val_main_v1 (F := Ideal) x j = padded (fun r : Fin 32768 => x (ix3 (j 0) r (j 2))) (j 1).val := by
  have hj1 : (j 1).val < 32771 := (j 1).isLt
  unfold val_main_v1
  by_cases h : (j 1).val < 3
  · rw [concatenate_pair_apply_left (1 : Fin 3) (val_main_v0 (F := Ideal)) x
      _ j rfl (ix3 (j 0) ⟨(j 1).val, h⟩ (j 2))
      (fun b => by match b with | ⟨0, _⟩ => rfl | ⟨1, _⟩ => rfl | ⟨2, _⟩ => rfl)]
    rw [val_main_v0_apply, val_main_cst_apply]
    unfold padded
    rw [dif_neg (by omega)]
    exact Ideal.ofBits_zero_f32
  · have h3 : (j 1).val - 3 < 32768 := by omega
    rw [concatenate_pair_apply_right (1 : Fin 3) (val_main_v0 (F := Ideal)) x
      _ j rfl rfl (ix3 (j 0) ⟨(j 1).val - 3, h3⟩ (j 2))
      (fun b hb => by
        match b with
        | ⟨0, _⟩ => rfl
        | ⟨1, _⟩ => exact absurd rfl hb
        | ⟨2, _⟩ => rfl)
      (by show (j 1).val - 3 + 3 = (j 1).val; omega)]
    unfold padded
    rw [dif_pos ⟨by omega, h3⟩]

/-- Tap 0 reads the padded rows at S + 0. -/
theorem xrow0 (x : Vec Ideal S4x32768x512 .f32) (i : S4x32768x512.Idx) :
    val_main_v3 (F := Ideal) x i = padded (fun r : Fin 32768 => x (ix3 (i 0) r (i 2))) ((i 1).val + 0) := by
  rw [val_main_v3_apply, v1_apply]
  rfl

/-- Tap 1 reads the padded rows at S + 1. -/
theorem xrow1 (x : Vec Ideal S4x32768x512 .f32) (i : S4x32768x512.Idx) :
    val_main_v10 (F := Ideal) x i = padded (fun r : Fin 32768 => x (ix3 (i 0) r (i 2))) ((i 1).val + 1) := by
  rw [val_main_v10_apply, v1_apply]
  show padded (fun r : Fin 32768 => x (ix3 (i 0) r (i 2))) (1 + (i 1).val) = _
  rw [Nat.add_comm]

/-- Tap 2 reads the padded rows at S + 2. -/
theorem xrow2 (x : Vec Ideal S4x32768x512 .f32) (i : S4x32768x512.Idx) :
    val_main_v17 (F := Ideal) x i = padded (fun r : Fin 32768 => x (ix3 (i 0) r (i 2))) ((i 1).val + 2) := by
  rw [val_main_v17_apply, v1_apply]
  show padded (fun r : Fin 32768 => x (ix3 (i 0) r (i 2))) (2 + (i 1).val) = _
  rw [Nat.add_comm]

/-- Tap 3 reads the padded rows at S + 3. -/
theorem xrow3 (x : Vec Ideal S4x32768x512 .f32) (i : S4x32768x512.Idx) :
    val_main_v24 (F := Ideal) x i = padded (fun r : Fin 32768 => x (ix3 (i 0) r (i 2))) ((i 1).val + 3) := by
  rw [val_main_v24_apply, v1_apply]
  show padded (fun r : Fin 32768 => x (ix3 (i 0) r (i 2))) (3 + (i 1).val) = _
  rw [Nat.add_comm]

/-- Row 0 of k, broadcast over the batch and the sequence, reads k at (0, ch). -/
theorem kcol0 (k : Vec Ideal S4x512 .f32) (i : S4x32768x512.Idx) :
    val_main_v7 (F := Ideal) k i = k (ix2 (0 : Fin 4) (i 2)) := by
  rw [val_main_v7_apply, val_main_v6_apply, val_main_v5_apply, val_main_v4_apply]
  congr 1
  funext a
  match a with
  | ⟨0, _⟩ => rfl
  | ⟨1, _⟩ => exact Fin.ext (Nat.mod_eq_of_lt (i 2).isLt)

/-- Row 1 of k reads k at (1, ch). -/
theorem kcol1 (k : Vec Ideal S4x512 .f32) (i : S4x32768x512.Idx) :
    val_main_v14 (F := Ideal) k i = k (ix2 (1 : Fin 4) (i 2)) := by
  rw [val_main_v14_apply, val_main_v13_apply, val_main_v12_apply, val_main_v11_apply]
  congr 1
  funext a
  match a with
  | ⟨0, _⟩ => rfl
  | ⟨1, _⟩ => exact Fin.ext (Nat.mod_eq_of_lt (i 2).isLt)

/-- Row 2 of k reads k at (2, ch). -/
theorem kcol2 (k : Vec Ideal S4x512 .f32) (i : S4x32768x512.Idx) :
    val_main_v21 (F := Ideal) k i = k (ix2 (2 : Fin 4) (i 2)) := by
  rw [val_main_v21_apply, val_main_v20_apply, val_main_v19_apply, val_main_v18_apply]
  congr 1
  funext a
  match a with
  | ⟨0, _⟩ => rfl
  | ⟨1, _⟩ => exact Fin.ext (Nat.mod_eq_of_lt (i 2).isLt)

/-- Row 3 of k reads k at (3, ch). -/
theorem kcol3 (k : Vec Ideal S4x512 .f32) (i : S4x32768x512.Idx) :
    val_main_v28 (F := Ideal) k i = k (ix2 (3 : Fin 4) (i 2)) := by
  rw [val_main_v28_apply, val_main_v27_apply, val_main_v26_apply, val_main_v25_apply]
  congr 1
  funext a
  match a with
  | ⟨0, _⟩ => rfl
  | ⟨1, _⟩ => exact Fin.ext (Nat.mod_eq_of_lt (i 2).isLt)

/-- The accumulated sum before the activation is the four taps from zero. -/
theorem v30_apply (x : Vec Ideal S4x32768x512 .f32) (k : Vec Ideal S4x512 .f32) (i : S4x32768x512.Idx) :
    val_main_v30 (F := Ideal) x k i
      = taps (fun t => padded (fun r : Fin 32768 => x (ix3 (i 0) r (i 2))) ((i 1).val + t.val)) (fun t => k (ix2 t (i 2))) := by
  rw [val_main_v30_apply, val_main_v29_apply, val_main_v23_apply, val_main_v22_apply, val_main_v16_apply,
    val_main_v15_apply, val_main_v9_apply, val_main_v8_apply, val_main_v2_apply, val_main_cst_0_apply,
    xrow0, xrow1, xrow2, xrow3, kcol0, kcol1, kcol2, kcol3]
  show (((Ideal.ofBits .f32 0x00000000#32 + _ * _) + _ * _) + _ * _) + _ * _ = _
  rw [Ideal.ofBits_zero_f32]
  rfl

/-- The reference's result at an index. -/
theorem ref_apply (x : Vec Ideal S4x32768x512 .f32) (k : Vec Ideal S4x512 .f32) (i : S4x32768x512.Idx) :
    val_main_v36 (F := Ideal) x k i = G x k i := by
  rw [val_main_v36_apply, val_main_v35_apply, val_main_v34_apply, val_main_v33_apply, val_main_cst_1_apply,
    val_main_v32_apply, val_main_v31_apply, v30_apply]
  show Ideal.div _ (Ideal.ofBits .f32 0x3F800000#32 + Ideal.exp (-_)) = _
  rw [Ideal.ofBits_one_f32]
  rfl

/-- The reference's result is `G` of its two arguments. -/
theorem ref_eq_G (x : Vec Ideal S4x32768x512 .f32) (k : Vec Ideal S4x512 .f32) :
    val_main_v36 (F := Ideal) x k = G x k :=
  funext (ref_apply x k)

end Cert.ReferenceIdeal.RefValue

end
-- ==== Proof.BlockValue.lean ====
/-
  From a device's block to the whole array. Device c of 32 holds rows [1024 c, 1024 c + 1024) of x. Away from
  the block's first three rows (and everywhere on device 0) the convolution over the device's own rows, three
  zero rows before them, is the reference's convolution at the row's place in the whole array; on the first
  three rows of every other device it is so once the three rows before the device's own are the last three
  rows of the device before it.
-/
import proofs.«900353_g7700000000000354_dist_gconv1d_seqshard_i_b4_s1024_c512_v7x_i32_bf16_1_alg».proof.Proof.RefValue
import Idealize.ShloMosaic.Lib.Layout

noncomputable section

namespace Cert.BlockValue

open Idealize.ShloMosaic Idealize.ShloMosaic.ValueIdx Cert.ConvSpec Cert.ReferenceIdeal.RefValue

/-! ## Rows of a block as rows of the whole sequence -/

/-- The block's own rows, three zero rows before them, against the whole sequence's, at tap t of row s: equal
    on device 0 and from row 3 on. -/
theorem padded_block (xr : Fin 32768 → EReal) (c : Fin 32) (s : Fin 1024) (t : Fin 4) (hcs : c.val = 0 ∨ 3 ≤ s.val)
    (hin : ∀ r : Fin 1024, c.val * 1024 + r.val < 32768) :
    padded (fun r : Fin 1024 => xr ⟨c.val * 1024 + r.val, hin r⟩) (s.val + t.val)
      = padded xr (c.val * 1024 + s.val + t.val) := by
  have hc : c.val < 32 := c.isLt
  have hs : s.val < 1024 := s.isLt
  have ht : t.val < 4 := t.isLt
  unfold padded
  by_cases h3 : 3 ≤ s.val + t.val
  · rw [dif_pos (⟨h3, by omega⟩ : 3 ≤ s.val + t.val ∧ s.val + t.val - 3 < 1024),
      dif_pos (⟨by omega, by omega⟩ : 3 ≤ c.val * 1024 + s.val + t.val ∧ c.val * 1024 + s.val + t.val - 3 < 32768)]
    refine congrArg xr (Fin.ext ?_)
    show c.val * 1024 + (s.val + t.val - 3) = c.val * 1024 + s.val + t.val - 3
    omega
  · rw [dif_neg (fun h : 3 ≤ s.val + t.val ∧ s.val + t.val - 3 < 1024 => h3 h.1),
      dif_neg (fun h : 3 ≤ c.val * 1024 + s.val + t.val ∧ c.val * 1024 + s.val + t.val - 3 < 32768 => by omega)]

/-- The halo rows then the block's own rows against the whole sequence's, at tap t of row s < 3 of a device
    that is not the first. -/
theorem haloed_block (xr : Fin 32768 → EReal) (c : Fin 32) (hc0 : 0 < c.val) (s : Nat) (hs3 : s < 3) (t : Fin 4)
    (hin : ∀ r : Fin 1024, c.val * 1024 + r.val < 32768)
    (hinp : ∀ j : Fin 3, (c.val - 1) * 1024 + (1021 + j.val) < 32768) :
    haloed (fun j : Fin 3 => xr ⟨(c.val - 1) * 1024 + (1021 + j.val), hinp j⟩)
        (fun r : Fin 1024 => xr ⟨c.val * 1024 + r.val, hin r⟩) (s + t.val)
      = padded xr (c.val * 1024 + s + t.val) := by
  have hc : c.val < 32 := c.isLt
  have ht : t.val < 4 := t.isLt
  unfold padded haloed
  by_cases h3 : s + t.val < 3
  · rw [dif_pos h3,
      dif_pos (⟨by omega, by omega⟩ : 3 ≤ c.val * 1024 + s + t.val ∧ c.val * 1024 + s + t.val - 3 < 32768)]
    refine congrArg xr (Fin.ext ?_)
    show (c.val - 1) * 1024 + (1021 + (s + t.val)) = c.val * 1024 + s + t.val - 3
    omega
  · rw [dif_neg h3, dif_pos (show s + t.val - 3 < 1024 by omega),
      dif_pos (⟨by omega, by omega⟩ : 3 ≤ c.val * 1024 + s + t.val ∧ c.val * 1024 + s + t.val - 3 < 32768)]
    refine congrArg xr (Fin.ext ?_)
    show c.val * 1024 + (s + t.val - 3) = c.val * 1024 + s + t.val - 3
    omega

/-! ## A block's index in the whole array -/

/-- Index (b, r, ch) of device c's block is index (b, 1024 c + r, ch) of the whole array. -/
theorem idx_block (hT : Layout.Tiles ⟨3, ![4, 1024, 512]⟩ ⟨3, ![4, 32768, 512]⟩ 1 32) (c : Fin 32)
    (b : Fin 4) (r : Fin 1024) (ch : Fin 512) (h : c.val * 1024 + r.val < 32768) :
    hT.idx c (ix3 b r ch) = ix3 b ⟨c.val * 1024 + r.val, h⟩ ch := by
  funext a
  match a with
  | ⟨0, _⟩ => rfl
  | ⟨1, _⟩ => rfl
  | ⟨2, _⟩ => rfl

/-- Device c's block read at (b, r, ch). -/
theorem block_row (hT : Layout.Tiles ⟨3, ![4, 1024, 512]⟩ ⟨3, ![4, 32768, 512]⟩ 1 32)
    (x : (⟨3, ![4, 32768, 512]⟩ : Shape).Idx → EReal) (c : Fin 32) (b : Fin 4) (r : Fin 1024) (ch : Fin 512)
    (h : c.val * 1024 + r.val < 32768) :
    Layout.block ⟨3, ![4, 1024, 512]⟩ ⟨3, ![4, 32768, 512]⟩ 1 32 c x hT (ix3 b r ch) = x (ix3 b ⟨c.val * 1024 + r.val, h⟩ ch) := by
  rw [Layout.block_apply, idx_block hT c b r ch h]

/-- A row of device c's block lies in the whole array. -/
theorem row_in (c : Fin 32) (r : Fin 1024) : c.val * 1024 + r.val < 32768 := by
  have := c.isLt; have := r.isLt; omega

/-! ## The two stores against the reference -/

/-- (a) On device 0, and from row 3 on of every device: the convolution over the device's own rows is the
    reference's at the row's place in the whole array. -/
theorem base_block (hT : Layout.Tiles ⟨3, ![4, 1024, 512]⟩ ⟨3, ![4, 32768, 512]⟩ 1 32)
    (x : (⟨3, ![4, 32768, 512]⟩ : Shape).Idx → EReal) (k : (⟨2, ![4, 512]⟩ : Shape).Idx → EReal)
    (c : Fin 32) (b : Fin 4) (s : Fin 1024) (ch : Fin 512) (hcs : c.val = 0 ∨ 3 ≤ s.val) :
    silu (taps (fun t => padded (fun r : Fin 1024 =>
        Layout.block ⟨3, ![4, 1024, 512]⟩ ⟨3, ![4, 32768, 512]⟩ 1 32 c x hT (ix3 b r ch)) (s.val + t.val)) (fun t => k (ix2 t ch)))
      = G x k (hT.idx c (ix3 b s ch)) := by
  have hrows : (fun r : Fin 1024 => Layout.block ⟨3, ![4, 1024, 512]⟩ ⟨3, ![4, 32768, 512]⟩ 1 32 c x hT (ix3 b r ch))
      = fun r : Fin 1024 => x (ix3 b ⟨c.val * 1024 + r.val, row_in c r⟩ ch) :=
    funext fun r => block_row hT x c b r ch (row_in c r)
  rw [hrows, idx_block hT c b s ch (row_in c s)]
  exact congrArg silu (congrArg (fun p => taps p (fun t => k (ix2 t ch)))
    (funext fun t => padded_block (fun r : Fin 32768 => x (ix3 b r ch)) c s t hcs (row_in c)))

/-- (b) On rows 0, 1, 2 of a device that is not the first, once the three rows before the device's own are
    the last three rows of the block of the device before it. -/
theorem fix_block (hT : Layout.Tiles ⟨3, ![4, 1024, 512]⟩ ⟨3, ![4, 32768, 512]⟩ 1 32)
    (x : (⟨3, ![4, 32768, 512]⟩ : Shape).Idx → EReal) (k : (⟨2, ![4, 512]⟩ : Shape).Idx → EReal)
    (c cp : Fin 32) (hcp : cp.val + 1 = c.val) (H : (⟨3, ![4, 3, 512]⟩ : Shape).Idx → EReal)
    (b : Fin 4) (r : Fin 3) (ch : Fin 512)
    (hH : ∀ j : Fin 3, H (ix3 b j ch)
      = Layout.block ⟨3, ![4, 1024, 512]⟩ ⟨3, ![4, 32768, 512]⟩ 1 32 cp x hT (ix3 b ⟨1021 + j.val, by have := j.isLt; omega⟩ ch)) :
    silu (taps (fun t => haloed (fun j : Fin 3 => H (ix3 b j ch)) (fun q : Fin 1024 =>
        Layout.block ⟨3, ![4, 1024, 512]⟩ ⟨3, ![4, 32768, 512]⟩ 1 32 c x hT (ix3 b q ch)) (r.val + t.val)) (fun t => k (ix2 t ch)))
      = G x k (hT.idx c (ix3 b ⟨r.val, by have := r.isLt; omega⟩ ch)) := by
  have hr : r.val < 3 := r.isLt
  have hc : c.val < 32 := c.isLt
  have hinp : ∀ j : Fin 3, (c.val - 1) * 1024 + (1021 + j.val) < 32768 := fun j => by have := j.isLt; omega
  have hrows : (fun q : Fin 1024 => Layout.block ⟨3, ![4, 1024, 512]⟩ ⟨3, ![4, 32768, 512]⟩ 1 32 c x hT (ix3 b q ch))
      = fun q : Fin 1024 => x (ix3 b ⟨c.val * 1024 + q.val, row_in c q⟩ ch) :=
    funext fun q => block_row hT x c b q ch (row_in c q)
  have hhalo : (fun j : Fin 3 => H (ix3 b j ch))
      = fun j : Fin 3 => x (ix3 b ⟨(c.val - 1) * 1024 + (1021 + j.val), hinp j⟩ ch) :=
    funext fun j => by
      have hj : j.val < 3 := j.isLt
      rw [hH j, block_row hT x cp b ⟨1021 + j.val, by omega⟩ ch (row_in cp _)]
      refine congrArg (fun q => x (ix3 b q ch)) (Fin.ext ?_)
      show cp.val * 1024 + (1021 + j.val) = (c.val - 1) * 1024 + (1021 + j.val)
      omega
  rw [hrows, hhalo, idx_block hT c b ⟨r.val, by omega⟩ ch (row_in c _)]
  exact congrArg silu (congrArg (fun p => taps p (fun t => k (ix2 t ch)))
    (funext fun t => haloed_block (fun q : Fin 32768 => x (ix3 b q ch)) c (by omega) r.val hr t (row_in c) hinp))

end Cert.BlockValue

end
-- ==== Proof.OutValue.lean ====
/-
  The block a device leaves, against the reference. The second store rewrites rows 0, 1, 2 of the block and
  leaves every other row as the first store wrote it; the rows that landed on a device are the last three rows
  of the block of the device before it; so the block device c leaves is block c of the reference's result.
-/
import proofs.«900353_g7700000000000354_dist_gconv1d_seqshard_i_b4_s1024_c512_v7x_i32_bf16_1_alg».proof.Proof.OutAt
import proofs.«900353_g7700000000000354_dist_gconv1d_seqshard_i_b4_s1024_c512_v7x_i32_bf16_1_alg».proof.Proof.KernelValue
import proofs.«900353_g7700000000000354_dist_gconv1d_seqshard_i_b4_s1024_c512_v7x_i32_bf16_1_alg».proof.Proof.BlockValue

noncomputable section

namespace Cert.KernelIdeal.OutValue

open Idealize.ShloMosaic Idealize.ShloMosaic.ValueIdx Idealize.ShloMosaic.TcCoe Cert.KernelIdeal Cert.KernelIdeal.Halo Cert.ConvSpec
open Cert.KernelIdeal.Facts₀

section AnyValues
variable {F : FTy → Type} [FloatOps F]

/-- Rows 0, 1, 2 are the new rows; every other row is the old one. -/
theorem patched_apply (B : (cc0_stg2_0 : Ref sig .tc).ty.Contents (Elt F)) (fx : FVec F S4x3x512 .bf16)
    (b : Fin 4) (s : Fin 1024) (ch : Fin 512) :
    patched B fx (ix3 b s ch) = if h : s.val < 3 then fx (ix3 b ⟨s.val, h⟩ ch) else B (ix3 b s ch) := by
  unfold patched
  by_cases h4 : s.val < 4
  · -- the index lies under the four rows written back
    have he : (ix3 b s ch : S4x1024x512.Idx)
        = ((oM : Memref sig .tc .vmem S4x1024x512 .bf16).access r4 : View sig .tc _ _ _).emb (ix3 b ⟨s.val, h4⟩ ch) := by
      funext a
      match a with
      | ⟨0, _⟩ => exact Fin.ext (by show b.val = 0 + 1 * b.val; omega)
      | ⟨1, _⟩ => exact Fin.ext (by show s.val = 0 + 1 * s.val; omega)
      | ⟨2, _⟩ => exact Fin.ext (by show ch.val = 0 + 1 * ch.val; omega)
    have hw := View.write_emb_of_mem (v := ((oM : Memref sig .tc .vmem S4x1024x512 .bf16).access r4 : View sig .tc _ _ _))
      (Val := Elt F) B
      (updateSlice ((oM : Memref sig .tc .vmem S4x1024x512 .bf16).view.readAt (Elt F) r4.toLoadRect B) fx ![0, 0, 0]
        slices_S4x4x512_S4x3x512_0_0_0)
      (M := Finset.univ) (x := ix3 b ⟨s.val, h4⟩ ch) (Finset.mem_univ _)
    rw [← he] at hw
    rw [hw, cast_eq]
    unfold updateSlice
    by_cases h3 : s.val < 3
    · rw [dif_pos h3, dif_pos (fun a => by
        match a with
        | ⟨0, _⟩ => exact ⟨Nat.zero_le _, by show b.val < 0 + 4; omega⟩
        | ⟨1, _⟩ => exact ⟨Nat.zero_le _, by show s.val < 0 + 3; omega⟩
        | ⟨2, _⟩ => exact ⟨Nat.zero_le _, by show ch.val < 0 + 512; omega⟩)]
      refine congrArg fx (funext fun a => ?_)
      match a with
      | ⟨0, _⟩ => exact Fin.ext (by show b.val - 0 = b.val; omega)
      | ⟨1, _⟩ => exact Fin.ext (by show s.val - 0 = s.val; omega)
      | ⟨2, _⟩ => exact Fin.ext (by show ch.val - 0 = ch.val; omega)
    · rw [dif_neg h3, dif_neg (fun hin => by
        have h1 := (hin (1 : Fin 3)).2
        have : s.val < 0 + 3 := h1
        omega)]
      rw [View.readAt_apply, View.read_apply, cast_eq]
      exact congrArg B he.symm
  · -- the index lies under none of them
    have hnot : (ix3 b s ch : S4x1024x512.Idx)
        ∉ ((oM : Memref sig .tc .vmem S4x1024x512 .bf16).access r4 : View sig .tc _ _ _).setOn Finset.univ := by
      rw [View.setOn_univ]
      show _ ∉ ((View.whole cc0_stg2_0).slice r4).set
      rw [View.set_slice_whole, Rect.mem_set_unit]
      intro h
      have h1 := (h (1 : Fin 3)).2
      have : s.val < 0 + 4 := h1
      omega
    rw [View.write_of_not_mem _ _ _ hnot, dif_neg (by omega)]

variable (m : (ℓ : Loc nD τ sig) → Buf (Elt F) ℓ) (ρ : Dev nD → PrngReg)

/-- The last three rows of a device's block are its rows 1021, 1022, 1023. -/
theorem lastRows_apply (c : Dev nD) (b : Fin 4) (j : Fin 3) (ch : Fin 512) :
    lastRows m ρ c (ix3 b j ch) = xstg m ρ c (ix3 b ⟨1021 + j.val, by have := j.isLt; omega⟩ ch) := by
  unfold lastRows
  rw [View.read_apply, cast_eq]
  refine congrArg (xstg m ρ c) (funext fun a => ?_)
  match a with
  | ⟨0, _⟩ => exact Fin.ext (by show 0 + 1 * b.val = b.val; omega)
  | ⟨1, _⟩ => exact Fin.ext (by show 1021 + 1 * j.val = 1021 + j.val; omega)
  | ⟨2, _⟩ => exact Fin.ext (by show 0 + 1 * ch.val = ch.val; omega)

end AnyValues

/-! ## The block a device leaves is its block of the reference's result -/

/-- The device before a device that is not the first. -/
theorem prv_val (c : Dev nD) (h : hasL c) : (prv c).val + 1 = c.val := by
  have hc : c.val < 32 := c.isLt
  have h0 : 0 < c.val := h
  show (c.val + 31) % 32 + 1 = c.val
  omega

/-- With every device staging its block of x and the whole of k, device c leaves block c of the reference's
    result. -/
theorem outAt_block (m : (ℓ : Loc nD τ sig) → Buf (Elt Ideal) ℓ) (ρ : Dev nD → PrngReg)
    (x : (⟨3, ![4, 32768, 512]⟩ : Shape).Idx → EReal) (k : (⟨2, ![4, 512]⟩ : Shape).Idx → EReal)
    (hx : ∀ c : Dev nD, xstg m ρ c = Layout.block ⟨3, ![4, 1024, 512]⟩ ⟨3, ![4, 32768, 512]⟩ 1 32 c x)
    (hk : ∀ c : Dev nD, kstg m ρ c = k) (c : Dev nD) :
    outAt (F := Ideal) m ρ c
      = Layout.block ⟨3, ![4, 1024, 512]⟩ ⟨3, ![4, 32768, 512]⟩ 1 32 c (Cert.ReferenceIdeal.RefValue.G x k) := by
  funext i
  obtain ⟨b, s, ch, rfl⟩ : ∃ (b : Fin 4) (s : Fin 1024) (ch : Fin 512), i = ix3 b s ch := ⟨i 0, i 1, i 2, eq_ix3 i⟩
  have hs : s.val < 1024 := s.isLt
  rw [Layout.block_apply]
  unfold outAt
  by_cases hL : hasL c
  · rw [if_pos hL, patched_apply]
    by_cases h3 : s.val < 3
    · rw [dif_pos h3, hx c, hk c]
      have hH : ∀ j : Fin 3, landed m ρ c (ix3 b j ch)
          = Layout.block ⟨3, ![4, 1024, 512]⟩ ⟨3, ![4, 32768, 512]⟩ 1 32 (prv c) x (by decide)
              (ix3 b ⟨1021 + j.val, by have := j.isLt; omega⟩ ch) := fun j => by
        unfold landed
        rw [lastRows_apply, hx (prv c)]
      exact (KValue.fixRows_apply _ k (landed m ρ c) b ⟨s.val, h3⟩ ch).trans
        (Cert.BlockValue.fix_block (by decide) x k c (prv c) (prv_val c hL) (landed m ρ c) b ⟨s.val, h3⟩ ch hH)
    · rw [dif_neg h3, hx c, hk c]
      exact (KValue.base_apply _ k b s ch).trans (Cert.BlockValue.base_block (by decide) x k c b s ch (Or.inr (by omega)))
  · rw [if_neg hL, hx c, hk c]
    have h0 : c.val = 0 := by
      have : ¬ 0 < c.val := hL
      omega
    exact (KValue.base_apply _ k b s ch).trans (Cert.BlockValue.base_block (by decide) x k c b s ch (Or.inl h0))

end Cert.KernelIdeal.OutValue

end
-- ==== Proof.Claims.lean ====
/-
  The five claims of the sequence-sharded causal convolution with a halo exchange, on 32 devices.

  Each device holds rows [1024c, 1024c + 1024) of `x`. Its result row `s` is `silu` of the four-tap sum over rows
  `s − 3 … s` of the zero-padded sequence; for `s < 3` on a device that is not the first, the rows before the block are
  the last rows of the device before it, which arrive by the remote copy. The frames are the run of the protocol with the
  values dropped; the value claim joins the run's result block (`outAt`) to the block of the reference's whole-array
  function `G` — the one law used on the extended reals is `o · logistic o = o / (1 + e^(−o))`, which needs no finiteness.
-/
import proofs.«900353_g7700000000000354_dist_gconv1d_seqshard_i_b4_s1024_c512_v7x_i32_bf16_1_alg».proof.Defs
import proofs.«900353_g7700000000000354_dist_gconv1d_seqshard_i_b4_s1024_c512_v7x_i32_bf16_1_alg».proof.Proof.Launch
import proofs.«900353_g7700000000000354_dist_gconv1d_seqshard_i_b4_s1024_c512_v7x_i32_bf16_1_alg».proof.Proof.KLaunch
import proofs.«900353_g7700000000000354_dist_gconv1d_seqshard_i_b4_s1024_c512_v7x_i32_bf16_1_alg».proof.Proof.OutValue
import proofs.«900353_g7700000000000354_dist_gconv1d_seqshard_i_b4_s1024_c512_v7x_i32_bf16_1_alg».proof.Proof.RefValue
import proofs.«900353_g7700000000000354_dist_gconv1d_seqshard_i_b4_s1024_c512_v7x_i32_bf16_1_alg».proof.Proof.Gen.ReferenceIdeal.Run
import proofs.«900353_g7700000000000354_dist_gconv1d_seqshard_i_b4_s1024_c512_v7x_i32_bf16_1_alg».proof.Proof.Gen.ReferenceIdeal.Read
import proofs.«900353_g7700000000000354_dist_gconv1d_seqshard_i_b4_s1024_c512_v7x_i32_bf16_1_alg».proof.Proof.Gen.Kernel
import proofs.«900353_g7700000000000354_dist_gconv1d_seqshard_i_b4_s1024_c512_v7x_i32_bf16_1_alg».proof.Proof.Gen.KernelIdeal
import proofs.«900353_g7700000000000354_dist_gconv1d_seqshard_i_b4_s1024_c512_v7x_i32_bf16_1_alg».proof.Proof.Gen.ReferenceIdeal
import proofs.«900353_g7700000000000354_dist_gconv1d_seqshard_i_b4_s1024_c512_v7x_i32_bf16_1_alg».proof.Proof.Gen.Pre_finite_inputs_Kernel
import proofs.«900353_g7700000000000354_dist_gconv1d_seqshard_i_b4_s1024_c512_v7x_i32_bf16_1_alg».proof.Proof.Gen.Pre_finite_inputs_ReferenceIdeal

noncomputable section

namespace Cert.Proof.Claims

open Idealize.ShloMosaic Idealize.ShloMosaic.TcCoe Idealize.SL.Sem

/-- The word-level kernel runs and leaves its argument arrays unchanged: the protocol's run, read at the two input windows. -/
theorem frame_k : Cert.frame_Kernel := by
  intro m ρ _
  exact (θ_run Cert.Kernel.defs _ _).mono
    (fun _ h c => ⟨(h c (0 : Fin 3)).trans (Cert.Kernel.Halo.finalA_x m ρ c), (h c (1 : Fin 3)).trans (Cert.Kernel.Halo.finalA_k m ρ c)⟩)
    (Cert.Kernel.Halo.run_main (F := Bits) m ρ)

/-- The same for the idealized kernel, at the extended reals. -/
theorem frame_ki : Cert.frame_KernelIdeal := by
  intro m ρ _
  exact (θ_run Cert.KernelIdeal.defs _ _).mono
    (fun _ h c => ⟨(h c (0 : Fin 3)).trans (Cert.KernelIdeal.Halo.finalA_x m ρ c), (h c (1 : Fin 3)).trans (Cert.KernelIdeal.Halo.finalA_k m ρ c)⟩)
    (Cert.KernelIdeal.Halo.run_main (F := Ideal) m ρ)

/-- The reference is a host program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the extended reals every device's result block ends as its block of the reference's whole-array function of the
    whole arguments, of which the devices hold the blocks (of `x`) and copies (of `k`). -/
theorem algebraic : Cert.algebraic_KernelIdeal_ReferenceIdeal := by
  intro m ρ m' ρ' _ hagree
  refine ⟨Cert.ReferenceIdeal.RefValue.G
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono
      (fun r h c => ⟨?_, (h c (0 : Fin 3)).trans (Cert.KernelIdeal.Halo.finalA_x m ρ c), (h c (1 : Fin 3)).trans (Cert.KernelIdeal.Halo.finalA_k m ρ c)⟩)
      (Cert.KernelIdeal.Halo.run_main (F := Ideal) m ρ)
    refine (h c (2 : Fin 3)).trans ((Cert.KernelIdeal.Halo.final_value m ρ c).trans ?_)
    exact Cert.KernelIdeal.OutValue.outAt_block m ρ _ _
      (fun c => (Cert.KernelIdeal.Halo.xstg_eq m ρ c).trans (hagree c).1)
      (fun c => (Cert.KernelIdeal.Halo.kstg_eq m ρ c).trans (hagree c).2) c
  · refine (θ_run Cert.ReferenceIdeal.defs _ _).mono (fun _ h => ⟨?_, (h 0).2.1, (h 0).2.2⟩)
      (Cert.ReferenceIdeal.Value.run (F := Ideal) m' ρ')
    rw [(h 0).1, Cert.ReferenceIdeal.Read.val_main_v36_eq, Cert.ReferenceIdeal.RefValue.ref_eq_G]

end Cert.Proof.Claims

end
-- ==== Proof.lean ====
/-
  The certificate of the sequence-sharded causal convolution (four taps, `silu`) on a chain of 32 devices that hand their
  last three rows to the next device: the programs' stated facts, then the five claims — three frames, the (empty)
  idealization ledger, and the value claim against the one-device reference over the whole arrays (Proof/Claims.lean).
-/
import proofs.«900353_g7700000000000354_dist_gconv1d_seqshard_i_b4_s1024_c512_v7x_i32_bf16_1_alg».proof.Defs
import proofs.«900353_g7700000000000354_dist_gconv1d_seqshard_i_b4_s1024_c512_v7x_i32_bf16_1_alg».proof.Proof.Gen.Kernel
import proofs.«900353_g7700000000000354_dist_gconv1d_seqshard_i_b4_s1024_c512_v7x_i32_bf16_1_alg».proof.Proof.Gen.KernelIdeal
import proofs.«900353_g7700000000000354_dist_gconv1d_seqshard_i_b4_s1024_c512_v7x_i32_bf16_1_alg».proof.Proof.Gen.ReferenceIdeal
import proofs.«900353_g7700000000000354_dist_gconv1d_seqshard_i_b4_s1024_c512_v7x_i32_bf16_1_alg».proof.Proof.Gen.Pre_finite_inputs_Kernel
import proofs.«900353_g7700000000000354_dist_gconv1d_seqshard_i_b4_s1024_c512_v7x_i32_bf16_1_alg».proof.Proof.Gen.Pre_finite_inputs_ReferenceIdeal
import proofs.«900353_g7700000000000354_dist_gconv1d_seqshard_i_b4_s1024_c512_v7x_i32_bf16_1_alg».proof.Proof.Claims
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Claims.frame_k, Claims.frame_ki, Claims.frame_ri, Claims.preserves, Claims.algebraic⟩

end Cert.Proof

end
